-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v109)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v109) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v152) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S512 : Shape := ⟨1, ![512]⟩
abbrev S128x128 : Shape := ⟨2, ![128, 128]⟩
abbrev S128 : Shape := ⟨1, ![128]⟩
abbrev S1000x64 : Shape := ⟨2, ![1000, 64]⟩
abbrev S192x128 : Shape := ⟨2, ![192, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S1000x64 : S_.BroadcastsInDim S1000x64 (![] : Fin 0 → Fin S1000x64.rank)
  reducesTo_S1000x64_S_d0_1 : S1000x64.ReducesTo [0, 1] S_
  bcast_S_S192x128 : S_.BroadcastsInDim S192x128 (![] : Fin 0 → Fin S192x128.rank)
  reducesTo_S192x128_S_d0_1 : S192x128.ReducesTo [0, 1] S_

variable [Facts]

def fn_part4 {F : FTy → Type} [FloatOps F] (main_arg17 : FVec F S128x128 .f32) (main_arg18 : FVec F S128 .f32) (main_v63 : IVec S_ 1) (main_v67 : IVec S_ 1) : IVec S_ 1 :=
  let main_v68 : IVec S_ 1 := andi main_v63 main_v67
  let main_v69 : FVec F S128x128 .f32 := Host.absf main_arg17
  let main_cst_26 : FVec F S_ .f32 := constant S_ .f32 0x7F800000#32
  let main_v70 : FVec F S128x128 .f32 := broadcastInDim S128x128 ![] bcast_S_S128x128 main_cst_26
  let main_v71 : IVec S128x128 1 := cmpf .olt main_v69 main_v70
  let main_c_27 : IVec S_ 1 := constantI S_ 1 1#1
  let main_v72 : IVec S_ 1 := (fun x v => Host.reduce IntOp.andi x v reducesTo_S128x128_S_d0_1 h_S_) main_v71 main_c_27
  let main_v73 : IVec S_ 1 := andi main_v68 main_v72
  let main_v74 : FVec F S128 .f32 := Host.absf main_arg18
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  main_v78

def fn_part3 {F : FTy → Type} [FloatOps F] (main_arg14 : FVec F S128 .f32) (main_arg15 : FVec F S128 .f32) (main_arg16 : FVec F S128 .f32) (main_arg17 : FVec F S128x128 .f32) (main_arg18 : FVec F S128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg14
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg15
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg16
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg17 main_arg18 main_v63 main_v67

def fn_part2 {F : FTy → Type} [FloatOps F] (main_arg10 : FVec F S128 .f32) (main_arg11 : FVec F S128 .f32) (main_arg12 : FVec F S128 .f32) (main_arg13 : FVec F S128x128 .f32) (main_arg14 : FVec F S128 .f32) (main_arg15 : FVec F S128 .f32) (main_arg16 : FVec F S128 .f32) (main_arg17 : FVec F S128x128 .f32) (main_arg18 : FVec F S128 .f32) (main_v33 : IVec S_ 1) : IVec S_ 1 :=
  let main_v34 : FVec F S128 .f32 := Host.absf main_arg10
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg11
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg12
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg13
  let main_cst_18 : FVec F S_ .f32 := constant S_ .f32 0x7F800000#32
  let main_v50 : FVec F S128x128 .f32 := broadcastInDim S128x128 ![] bcast_S_S128x128 main_cst_18
  fn_part3 (F := F) main_arg14 main_arg15 main_arg16 main_arg17 main_arg18 main_v48 main_v49 main_v50

def fn_part1 {F : FTy → Type} [FloatOps F] (main_arg7 : FVec F S128 .f32) (main_arg8 : FVec F S1000x64 .f32) (main_arg9 : FVec F S192x128 .f32) (main_arg10 : FVec F S128 .f32) (main_arg11 : FVec F S128 .f32) (main_arg12 : FVec F S128 .f32) (main_arg13 : FVec F S128x128 .f32) (main_arg14 : FVec F S128 .f32) (main_arg15 : FVec F S128 .f32) (main_arg16 : FVec F S128 .f32) (main_arg17 : FVec F S128x128 .f32) (main_arg18 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg7
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S1000x64 .f32 := Host.absf main_arg8
  let main_cst_8 : FVec F S_ .f32 := constant S_ .f32 0x7F800000#32
  let main_v25 : FVec F S1000x64 .f32 := broadcastInDim S1000x64 ![] bcast_S_S1000x64 main_cst_8
  let main_v26 : IVec S1000x64 1 := cmpf .olt main_v24 main_v25
  let main_c_9 : IVec S_ 1 := constantI S_ 1 1#1
  let main_v27 : IVec S_ 1 := (fun x v => Host.reduce IntOp.andi x v reducesTo_S1000x64_S_d0_1 h_S_) main_v26 main_c_9
  let main_v28 : IVec S_ 1 := andi main_v23 main_v27
  let main_v29 : FVec F S192x128 .f32 := Host.absf main_arg9
  let main_cst_10 : FVec F S_ .f32 := constant S_ .f32 0x7F800000#32
  let main_v30 : FVec F S192x128 .f32 := broadcastInDim S192x128 ![] bcast_S_S192x128 main_cst_10
  let main_v31 : IVec S192x128 1 := cmpf .olt main_v29 main_v30
  let main_c_11 : IVec S_ 1 := constantI S_ 1 1#1
  let main_v32 : IVec S_ 1 := (fun x v => Host.reduce IntOp.andi x v reducesTo_S192x128_S_d0_1 h_S_) main_v31 main_c_11
  let main_v33 : IVec S_ 1 := andi main_v28 main_v32
  fn_part2 (F := F) main_arg10 main_arg11 main_arg12 main_arg13 main_arg14 main_arg15 main_arg16 main_arg17 main_arg18 main_v33

def fn {F : FTy → Type} [FloatOps F] (main_arg0 : FVec F S50000x128 .f32) (main_arg1 : IVec S2x800000 32) (main_arg2 : IVec S50000 32) (main_arg3 : IVec S512 32) (main_arg4 : FVec F S128x128 .f32) (main_arg5 : FVec F S128 .f32) (main_arg6 : FVec F S128x128 .f32) (main_arg7 : FVec F S128 .f32) (main_arg8 : FVec F S1000x64 .f32) (main_arg9 : FVec F S192x128 .f32) (main_arg10 : FVec F S128 .f32) (main_arg11 : FVec F S128 .f32) (main_arg12 : FVec F S128 .f32) (main_arg13 : FVec F S128x128 .f32) (main_arg14 : FVec F S128 .f32) (main_arg15 : FVec F S128 .f32) (main_arg16 : FVec F S128 .f32) (main_arg17 : FVec F S128x128 .f32) (main_arg18 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg4
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg5
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg6
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg7 main_arg8 main_arg9 main_arg10 main_arg11 main_arg12 main_arg13 main_arg14 main_arg15 main_arg16 main_arg17 main_arg18 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S512 : Shape := ⟨1, ![512]⟩
abbrev S128x128 : Shape := ⟨2, ![128, 128]⟩
abbrev S128 : Shape := ⟨1, ![128]⟩
abbrev S1000x64 : Shape := ⟨2, ![1000, 64]⟩
abbrev S192x128 : Shape := ⟨2, ![192, 128]⟩
abbrev S1x800000 : Shape := ⟨2, ![1, 800000]⟩
abbrev S800000 : Shape := ⟨1, ![800000]⟩
abbrev S5000x128 : Shape := ⟨2, ![5000, 128]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S512x128 : Shape := ⟨2, ![512, 128]⟩
abbrev S50000x1 : Shape := ⟨2, ![50000, 1]⟩
abbrev S512x1 : Shape := ⟨2, ![512, 1]⟩
abbrev S512x64 : Shape := ⟨2, ![512, 64]⟩
abbrev S64x128 : Shape := ⟨2, ![64, 128]⟩

abbrev nBuf : Space → Nat
  | .hbm => 162
  | .vmem => 23
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S512, .i32⟩
  | 4 => ⟨S128x128, .f32⟩
  | 5 => ⟨S128, .f32⟩
  | 6 => ⟨S128x128, .f32⟩
  | 7 => ⟨S128, .f32⟩
  | 8 => ⟨S1000x64, .f32⟩
  | 9 => ⟨S192x128, .f32⟩
  | 10 => ⟨S128, .f32⟩
  | 11 => ⟨S128, .f32⟩
  | 12 => ⟨S128, .f32⟩
  | 13 => ⟨S128x128, .f32⟩
  | 14 => ⟨S128, .f32⟩
  | 15 => ⟨S128, .f32⟩
  | 16 => ⟨S128, .f32⟩
  | 17 => ⟨S128x128, .f32⟩
  | 18 => ⟨S128, .f32⟩
  | 19 => ⟨S1x800000, .i32⟩
  | 20 => ⟨S800000, .i32⟩
  | 21 => ⟨S1x800000, .i32⟩
  | 22 => ⟨S800000, .i32⟩
  | 23 => ⟨S50000x128, .f32⟩
  | 24 => ⟨S50000, .i32⟩
  | 25 => ⟨S850000, .i32⟩
  | 26 => ⟨S850000, .i32⟩
  | 27 => ⟨S_, .f32⟩
  | 28 => ⟨S850000, .f32⟩
  | 29 => ⟨S_, .f32⟩
  | 30 => ⟨S50000, .f32⟩
  | 31 => ⟨S850000x1, .i32⟩
  | 32 => ⟨S50000, .f32⟩
  | 33 => ⟨S_, .f32⟩
  | 34 => ⟨S50000, .f32⟩
  | 35 => ⟨S50000, .i1⟩
  | 36 => ⟨S50000, .f32⟩
  | 37 => ⟨S_, .f32⟩
  | 38 => ⟨S_, .f32⟩
  | 39 => ⟨S50000, .f32⟩
  | 40 => ⟨S50000, .f32⟩
  | 41 => ⟨S_, .i32⟩
  | 42 => ⟨S850000, .i32⟩
  | 43 => ⟨S850000, .i1⟩
  | 44 => ⟨S_, .i32⟩
  | 45 => ⟨S850000, .i32⟩
  | 46 => ⟨S850000, .i32⟩
  | 47 => ⟨S850000, .i32⟩
  | 48 => ⟨S850000x1, .i32⟩
  | 49 => ⟨S850000, .f32⟩
  | 50 => ⟨S_, .i32⟩
  | 51 => ⟨S850000, .i32⟩
  | 52 => ⟨S850000, .i1⟩
  | 53 => ⟨S_, .i32⟩
  | 54 => ⟨S850000, .i32⟩
  | 55 => ⟨S850000, .i32⟩
  | 56 => ⟨S850000, .i32⟩
  | 57 => ⟨S850000x1, .i32⟩
  | 58 => ⟨S850000, .f32⟩
  | 59 => ⟨S850000, .f32⟩
  | 60 => ⟨S_, .i32⟩
  | 61 => ⟨S850000, .i32⟩
  | 62 => ⟨S850000, .i1⟩
  | 63 => ⟨S_, .i32⟩
  | 64 => ⟨S850000, .i32⟩
  | 65 => ⟨S850000, .i32⟩
  | 66 => ⟨S850000, .i32⟩
  | 67 => ⟨S850000x1, .i32⟩
  | 68 => ⟨S850000x128, .f32⟩
  | 69 => ⟨S850000x1, .f32⟩
  | 70 => ⟨S850000x128, .f32⟩
  | 71 => ⟨S850000x128, .f32⟩
  | 72 => ⟨S_, .f32⟩
  | 73 => ⟨S50000x128, .f32⟩
  | 74 => ⟨S850000x1, .i32⟩
  | 75 => ⟨S50000x128, .f32⟩
  | 76 => ⟨S1x128, .f32⟩
  | 77 => ⟨S50000x128, .f32⟩
  | 78 => ⟨S50000x128, .f32⟩
  | 79 => ⟨S_, .f32⟩
  | 80 => ⟨S50000x128, .f32⟩
  | 81 => ⟨S50000x128, .f32⟩
  | 82 => ⟨S50000x128, .f32⟩
  | 83 => ⟨S50000, .i32⟩
  | 84 => ⟨S850000, .i32⟩
  | 85 => ⟨S850000, .i32⟩
  | 86 => ⟨S_, .f32⟩
  | 87 => ⟨S850000, .f32⟩
  | 88 => ⟨S_, .f32⟩
  | 89 => ⟨S50000, .f32⟩
  | 90 => ⟨S850000x1, .i32⟩
  | 91 => ⟨S50000, .f32⟩
  | 92 => ⟨S_, .f32⟩
  | 93 => ⟨S50000, .f32⟩
  | 94 => ⟨S50000, .i1⟩
  | 95 => ⟨S50000, .f32⟩
  | 96 => ⟨S_, .f32⟩
  | 97 => ⟨S_, .f32⟩
  | 98 => ⟨S50000, .f32⟩
  | 99 => ⟨S50000, .f32⟩
  | 100 => ⟨S_, .i32⟩
  | 101 => ⟨S850000, .i32⟩
  | 102 => ⟨S850000, .i1⟩
  | 103 => ⟨S_, .i32⟩
  | 104 => ⟨S850000, .i32⟩
  | 105 => ⟨S850000, .i32⟩
  | 106 => ⟨S850000, .i32⟩
  | 107 => ⟨S850000x1, .i32⟩
  | 108 => ⟨S850000, .f32⟩
  | 109 => ⟨S_, .i32⟩
  | 110 => ⟨S850000, .i32⟩
  | 111 => ⟨S850000, .i1⟩
  | 112 => ⟨S_, .i32⟩
  | 113 => ⟨S850000, .i32⟩
  | 114 => ⟨S850000, .i32⟩
  | 115 => ⟨S850000, .i32⟩
  | 116 => ⟨S850000x1, .i32⟩
  | 117 => ⟨S850000, .f32⟩
  | 118 => ⟨S850000, .f32⟩
  | 119 => ⟨S_, .i32⟩
  | 120 => ⟨S850000, .i32⟩
  | 121 => ⟨S850000, .i1⟩
  | 122 => ⟨S_, .i32⟩
  | 123 => ⟨S850000, .i32⟩
  | 124 => ⟨S850000, .i32⟩
  | 125 => ⟨S850000, .i32⟩
  | 126 => ⟨S850000x1, .i32⟩
  | 127 => ⟨S850000x128, .f32⟩
  | _ => ⟨S50000x128, .f32⟩

abbrev hbmTy0_1 (i : Nat) : BufTy := match i % 128 with
  | 0 => ⟨S850000x1, .f32⟩
  | 1 => ⟨S850000x128, .f32⟩
  | 2 => ⟨S850000x128, .f32⟩
  | 3 => ⟨S_, .f32⟩
  | 4 => ⟨S50000x128, .f32⟩
  | 5 => ⟨S850000x1, .i32⟩
  | 6 => ⟨S50000x128, .f32⟩
  | 7 => ⟨S1x128, .f32⟩
  | 8 => ⟨S50000x128, .f32⟩
  | 9 => ⟨S50000x128, .f32⟩
  | 10 => ⟨S_, .f32⟩
  | 11 => ⟨S50000x128, .f32⟩
  | 12 => ⟨S50000x128, .f32⟩
  | 13 => ⟨S_, .f32⟩
  | 14 => ⟨S512x128, .f32⟩
  | 15 => ⟨S50000x1, .i32⟩
  | 16 => ⟨S512x128, .f32⟩
  | 17 => ⟨S_, .i32⟩
  | 18 => ⟨S512, .i32⟩
  | 19 => ⟨S512, .i1⟩
  | 20 => ⟨S_, .i32⟩
  | 21 => ⟨S512, .i32⟩
  | 22 => ⟨S512, .i32⟩
  | 23 => ⟨S512, .i32⟩
  | 24 => ⟨S512x1, .i32⟩
  | 25 => ⟨S512x64, .f32⟩
  | 26 => ⟨S1x128, .f32⟩
  | 27 => ⟨S1x128, .f32⟩
  | 28 => ⟨S1x128, .f32⟩
  | 29 => ⟨S1x128, .f32⟩
  | 30 => ⟨S1x128, .f32⟩
  | 31 => ⟨S1x128, .f32⟩
  | 32 => ⟨S1x128, .f32⟩
  | 33 => ⟨S512x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128x128, .f32⟩
  | .local _ .vmem, ⟨8, _⟩ => ⟨S5000x128, .f32⟩
  | .local _ .vmem, ⟨9, _⟩ => ⟨S5000x128, .f32⟩
  | .local _ .vmem, ⟨10, _⟩ => ⟨S512x128, .f32⟩
  | .local _ .vmem, ⟨11, _⟩ => ⟨S512x64, .f32⟩
  | .local _ .vmem, ⟨12, _⟩ => ⟨S192x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S128x128, .f32⟩
  | .local _ .vmem, ⟨17, _⟩ => ⟨S1x128, .f32⟩
  | .local _ .vmem, ⟨18, _⟩ => ⟨S1x128, .f32⟩
  | .local _ .vmem, ⟨19, _⟩ => ⟨S1x128, .f32⟩
  | .local _ .vmem, ⟨20, _⟩ => ⟨S128x128, .f32⟩
  | .local _ .vmem, ⟨21, _⟩ => ⟨S1x128, .f32⟩
  | .local _ .vmem, ⟨22, _⟩ => ⟨S512x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_cst : Ref sig .tc := ⟨.hbm, 27, rfl⟩
abbrev main_v8 : Ref sig .tc := ⟨.hbm, 28, rfl⟩
abbrev main_cst_0 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_cst_1 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_cst_2 : Ref sig .tc := ⟨.hbm, 37, rfl⟩
abbrev main_call0_v0 : Ref sig .tc := ⟨.hbm, 38, rfl⟩
abbrev main_call0_v1 : Ref sig .tc := ⟨.hbm, 39, rfl⟩
abbrev main_v15 : Ref sig .tc := ⟨.hbm, 40, rfl⟩
abbrev main_c : Ref sig .tc := ⟨.hbm, 41, rfl⟩
abbrev main_v16 : Ref sig .tc := ⟨.hbm, 42, rfl⟩
abbrev main_v17 : Ref sig .tc := ⟨.hbm, 43, rfl⟩
abbrev main_c_3 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_c_4 : Ref sig .tc := ⟨.hbm, 50, rfl⟩
abbrev main_v23 : Ref sig .tc := ⟨.hbm, 51, rfl⟩
abbrev main_v24 : Ref sig .tc := ⟨.hbm, 52, rfl⟩
abbrev main_c_5 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_c_6 : Ref sig .tc := ⟨.hbm, 60, rfl⟩
abbrev main_v31 : Ref sig .tc := ⟨.hbm, 61, rfl⟩
abbrev main_v32 : Ref sig .tc := ⟨.hbm, 62, rfl⟩
abbrev main_c_7 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_cst_8 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_call1_cst : Ref sig .tc := ⟨.hbm, 79, rfl⟩
abbrev main_call1_v0 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_cst_9 : Ref sig .tc := ⟨.hbm, 86, rfl⟩
abbrev main_v52 : Ref sig .tc := ⟨.hbm, 87, rfl⟩
abbrev main_cst_10 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_cst_11 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_cst_12 : Ref sig .tc := ⟨.hbm, 96, rfl⟩
abbrev main_call2_v0 : Ref sig .tc := ⟨.hbm, 97, rfl⟩
abbrev main_call2_v1 : Ref sig .tc := ⟨.hbm, 98, rfl⟩
abbrev main_v59 : Ref sig .tc := ⟨.hbm, 99, rfl⟩
abbrev main_c_13 : Ref sig .tc := ⟨.hbm, 100, rfl⟩
abbrev main_v60 : Ref sig .tc := ⟨.hbm, 101, rfl⟩
abbrev main_v61 : Ref sig .tc := ⟨.hbm, 102, rfl⟩
abbrev main_c_14 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_c_15 : Ref sig .tc := ⟨.hbm, 109, rfl⟩
abbrev main_v67 : Ref sig .tc := ⟨.hbm, 110, rfl⟩
abbrev main_v68 : Ref sig .tc := ⟨.hbm, 111, rfl⟩
abbrev main_c_16 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_c_17 : Ref sig .tc := ⟨.hbm, 119, rfl⟩
abbrev main_v75 : Ref sig .tc := ⟨.hbm, 120, rfl⟩
abbrev main_v76 : Ref sig .tc := ⟨.hbm, 121, rfl⟩
abbrev main_c_18 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_cst_19 : Ref sig .tc := ⟨.hbm, 131, rfl⟩
abbrev main_v85 : Ref sig .tc := ⟨.hbm, 132, rfl⟩
abbrev main_v86 : Ref sig .tc := ⟨.hbm, 133, rfl⟩
abbrev main_v87 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_call3_cst : Ref sig .tc := ⟨.hbm, 138, rfl⟩
abbrev main_call3_v0 : Ref sig .tc := ⟨.hbm, 139, rfl⟩
abbrev main_v91 : Ref sig .tc := ⟨.hbm, 140, rfl⟩
abbrev main_cst_20 : Ref sig .tc := ⟨.hbm, 141, rfl⟩
abbrev main_v92 : Ref sig .tc := ⟨.hbm, 142, rfl⟩
abbrev main_v93 : Ref sig .tc := ⟨.hbm, 143, rfl⟩
abbrev main_v94 : Ref sig .tc := ⟨.hbm, 144, rfl⟩
abbrev main_c_21 : Ref sig .tc := ⟨.hbm, 145, rfl⟩
abbrev main_v95 : Ref sig .tc := ⟨.hbm, 146, rfl⟩
abbrev main_v96 : Ref sig .tc := ⟨.hbm, 147, rfl⟩
abbrev main_c_22 : Ref sig .tc := ⟨.hbm, 148, rfl⟩
abbrev main_v97 : Ref sig .tc := ⟨.hbm, 149, rfl⟩
abbrev main_v98 : Ref sig .tc := ⟨.hbm, 150, rfl⟩
abbrev main_v99 : Ref sig .tc := ⟨.hbm, 151, rfl⟩
abbrev main_v100 : Ref sig .tc := ⟨.hbm, 152, rfl⟩
abbrev main_v101 : Ref sig .tc := ⟨.hbm, 153, rfl⟩
abbrev main_v102 : Ref sig .tc := ⟨.hbm, 154, rfl⟩
abbrev main_v103 : Ref sig .tc := ⟨.hbm, 155, rfl⟩
abbrev main_v104 : Ref sig .tc := ⟨.hbm, 156, rfl⟩
abbrev main_v105 : Ref sig .tc := ⟨.hbm, 157, rfl⟩
abbrev main_v106 : Ref sig .tc := ⟨.hbm, 158, rfl⟩
abbrev main_v107 : Ref sig .tc := ⟨.hbm, 159, rfl⟩
abbrev main_v108 : Ref sig .tc := ⟨.hbm, 160, rfl⟩
abbrev main_v109 : Ref sig .tc := ⟨.hbm, 161, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg1_0 : Ref sig .tc := ⟨.vmem, 11, rfl⟩
abbrev cc2_stg2_0 : Ref sig .tc := ⟨.vmem, 12, rfl⟩
abbrev cc2_stg3_0 : Ref sig .tc := ⟨.vmem, 13, rfl⟩
abbrev cc2_stg4_0 : Ref sig .tc := ⟨.vmem, 14, rfl⟩
abbrev cc2_stg5_0 : Ref sig .tc := ⟨.vmem, 15, rfl⟩
abbrev cc2_stg6_0 : Ref sig .tc := ⟨.vmem, 16, rfl⟩
abbrev cc2_stg7_0 : Ref sig .tc := ⟨.vmem, 17, rfl⟩
abbrev cc2_stg8_0 : Ref sig .tc := ⟨.vmem, 18, rfl⟩
abbrev cc2_stg9_0 : Ref sig .tc := ⟨.vmem, 19, rfl⟩
abbrev cc2_stg10_0 : Ref sig .tc := ⟨.vmem, 20, rfl⟩
abbrev cc2_stg11_0 : Ref sig .tc := ⟨.vmem, 21, rfl⟩
abbrev cc2_stg12_0 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem1_0 : DmaSem sig := 11
abbrev cc2_sem2_0 : DmaSem sig := 12
abbrev cc2_sem3_0 : DmaSem sig := 13
abbrev cc2_sem4_0 : DmaSem sig := 14
abbrev cc2_sem5_0 : DmaSem sig := 15
abbrev cc2_sem6_0 : DmaSem sig := 16
abbrev cc2_sem7_0 : DmaSem sig := 17
abbrev cc2_sem8_0 : DmaSem sig := 18
abbrev cc2_sem9_0 : DmaSem sig := 19
abbrev cc2_sem10_0 : DmaSem sig := 20
abbrev cc2_sem11_0 : DmaSem sig := 21
abbrev cc2_sem12_0 : DmaSem sig := 22

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S512x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S512x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S192x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x128 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S128x128 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S1x128 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 1 → Memref sig .tc .vmem S512x128 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  shapeCasts_S5000x128_S5000x128 : S5000x128.ShapeCasts S5000x128
  bcast_S_S512x128 : S_.BroadcastsInDim S512x128 (![] : Fin 0 → Fin S512x128.rank)
  bcast_S50000_S50000x1_0 : S50000.BroadcastsInDim S50000x1 (![0] : Fin 1 → Fin S50000x1.rank)
  bcast_S_S512 : S_.BroadcastsInDim S512 (![] : Fin 0 → Fin S512.rank)
  bcast_S512_S512x1_0 : S512.BroadcastsInDim S512x1 (![0] : Fin 1 → Fin S512x1.rank)
  shapeCasts_S128_S1x128 : S128.ShapeCasts S1x128
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S192x128_S128x128_0_0 : ∀ a, (![0, 0] : Fin 2 → Nat) a + S128x128.size a ≤ S192x128.size a
  inb_S192x128_S64x128_128_0 : ∀ a, (![128, 0] : Fin 2 → Nat) a + S64x128.size a ≤ S192x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S512x128 : S1x128.Broadcasts S512x128
  reduces_S512x128_S512 : S512x128.Reduces [1] S512
  shapeCasts_S512_S512x1 : S512.ShapeCasts S512x1
  broadcasts_S512x1_S512x128 : S512x1.Broadcasts S512x128
  dot_S5000x128_S128x128_S5000x128_1_0_0_1_n_n_wf : DotDims.WF S5000x128 S128x128 S5000x128 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  scatter_S512x128_S50000x1_S50000x128_1_0_0_1_wf : ScatterDims.WF S512x128 S50000x1 S50000x128 [1] [0] [0] 1
  gather_S1000x64_S512x1_S512x64_1_0_n_n_0_1_164_wf : GatherDims.WF S1000x64 S512x1 S512x64 [1] [0] [] [0] [] 1 ![1, 64]
  dot_S512x128_S128x128_S512x128_1_0_0_1_n_n_wf : DotDims.WF S512x128 S128x128 S512x128 [1] [0] [0] [1] [] []
  dot_S512x64_S64x128_S512x128_1_0_0_1_n_n_wf : DotDims.WF S512x64 S64x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S512x128.size a ≤ S512x128.size a
  hwx2_0 : ∀ i : grid2.Coords, EltTy.bits .f32 = 32 ∨ (Rect.block (s := S512x128) S512x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S512x64.size a ≤ S512x64.size a
  hwx2_1 : ∀ i : grid2.Coords, EltTy.bits .f32 = 32 ∨ (Rect.block (s := S512x64) S512x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S192x128.size a ≤ S192x128.size a
  hwx2_2 : ∀ i : grid2.Coords, EltTy.bits .f32 = 32 ∨ (Rect.block (s := S192x128) S192x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128x128.size a ≤ S128x128.size a
  hwx2_6 : ∀ i : grid2.Coords, EltTy.bits .f32 = 32 ∨ (Rect.block (s := S128x128) S128x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x128.size a ≤ S1x128.size a
  hwx2_8 : ∀ i : grid2.Coords, EltTy.bits .f32 = 32 ∨ (Rect.block (s := S1x128) S1x128.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S1x128.size a ≤ S1x128.size a
  hwx2_9 : ∀ i : grid2.Coords, EltTy.bits .f32 = 32 ∨ (Rect.block (s := S1x128) S1x128.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S128x128.size a ≤ S128x128.size a
  hwx2_10 : ∀ i : grid2.Coords, EltTy.bits .f32 = 32 ∨ (Rect.block (s := S128x128) S128x128.size (cc2_transform_10 i) (hinb2_10 i)).WholeWords (EltTy.packing .f32)
  hstage2_11 : ∀ j, (stage2_11 j).IsWhole
  nbuf2_11 : grid2.bufCount reads2_11 true = 1
  hreads2_11 : ∀ i i' : grid2.Coords, (∀ a, reads2_11 a = true → i a = i' a) → cc2_transform_11 i = cc2_transform_11 i'
  hinb2_11 : ∀ (i : grid2.Coords) a, (cc2_transform_11 i a + 1) * S1x128.size a ≤ S1x128.size a
  hwx2_11 : ∀ i : grid2.Coords, EltTy.bits .f32 = 32 ∨ (Rect.block (s := S1x128) S1x128.size (cc2_transform_11 i) (hinb2_11 i)).WholeWords (EltTy.packing .f32)
  hstage2_12 : ∀ j, (stage2_12 j).IsWhole
  nbuf2_12 : grid2.bufCount reads2_12 true = 1
  hreads2_12 : ∀ i i' : grid2.Coords, (∀ a, reads2_12 a = true → i a = i' a) → cc2_transform_12 i = cc2_transform_12 i'
  hinb2_12 : ∀ (i : grid2.Coords) a, (cc2_transform_12 i a + 1) * S512x128.size a ≤ S512x128.size a
  hwx2_12 : ∀ i : grid2.Coords, EltTy.bits .f32 = 32 ∨ (Rect.block (s := S512x128) S512x128.size (cc2_transform_12 i) (hinb2_12 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def scatter_S512x128_S50000x1_S50000x128_1_0_0_1 : ScatterDims S512x128 S50000x1 S50000x128 where
  updateWindowDims := [1]
  insertedWindowDims := [0]
  scatterDimsToOperandDims := [0]
  indexVectorDim := 1
  wf := scatter_S512x128_S50000x1_S50000x128_1_0_0_1_wf
def gather_S1000x64_S512x1_S512x64_1_0_n_n_0_1_164 : GatherDims S1000x64 S512x1 S512x64 where
  offsetDims := [1]
  collapsedSliceDims := [0]
  operandBatchingDims := []
  startIndicesBatchingDims := []
  startIndexMap := [0]
  indexVectorDim := 1
  sliceSizes := ![1, 64]
  wf := gather_S1000x64_S512x1_S512x64_1_0_n_n_0_1_164_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf
def dot_S512x64_S64x128_S512x128_1_0_0_1_n_n : DotDims S512x64 S64x128 S512x128 where
  lhsContracting := [1]
  rhsContracting := [0]
  lhsNonContracting := [0]
  rhsNonContracting := [1]
  lhsBatch := []
  rhsBatch := []
  wf := dot_S512x64_S64x128_S512x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v94) S512x128.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_v101) S512x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S192x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v102) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v103) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v104) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg13) S128x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v105) S1x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v106) S1x128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v107) S1x128.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_arg17) S128x128.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_v108) S1x128.size cc2_transform_11 reads2_11 false true 1 stage2_11 sem2_11
    hrank2 hreads2_11 hinb2_11 nbuf2_11 (Memref.isWhole_whole _) hwx2_11 hstage2_11

abbrev win2_12 : Pipeline.Window sig grid2 :=
  Pipeline.Window.ofSpec (Memref.whole main_v109) S512x128.size cc2_transform_12 reads2_12 true true 1 stage2_12 sem2_12
    hrank2 hreads2_12 hinb2_12 nbuf2_12 (Memref.isWhole_whole _) hwx2_12 hstage2_12

abbrev win2 : Fin 13 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | 12 => win2_12 | ⟨_ + 13, h⟩ => absurd h (Nat.not_lt.2 (Nat.le_add_left _ _))
abbrev spec2 : Fin 13 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S512 : Shape := ⟨1, ![512]⟩
abbrev S128x128 : Shape := ⟨2, ![128, 128]⟩
abbrev S128 : Shape := ⟨1, ![128]⟩
abbrev S1000x64 : Shape := ⟨2, ![1000, 64]⟩
abbrev S192x128 : Shape := ⟨2, ![192, 128]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S512x128 : Shape := ⟨2, ![512, 128]⟩
abbrev S50000x1 : Shape := ⟨2, ![50000, 1]⟩
abbrev S512x1 : Shape := ⟨2, ![512, 1]⟩
abbrev S512x64 : Shape := ⟨2, ![512, 64]⟩
abbrev S512x192 : Shape := ⟨2, ![512, 192]⟩

abbrev nBuf : Space → Nat
  | .hbm => 261
  | .vmem => 0
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S512, .i32⟩
  | 4 => ⟨S128x128, .f32⟩
  | 5 => ⟨S128, .f32⟩
  | 6 => ⟨S128x128, .f32⟩
  | 7 => ⟨S128, .f32⟩
  | 8 => ⟨S1000x64, .f32⟩
  | 9 => ⟨S192x128, .f32⟩
  | 10 => ⟨S128, .f32⟩
  | 11 => ⟨S128, .f32⟩
  | 12 => ⟨S128, .f32⟩
  | 13 => ⟨S128x128, .f32⟩
  | 14 => ⟨S128, .f32⟩
  | 15 => ⟨S128, .f32⟩
  | 16 => ⟨S128, .f32⟩
  | 17 => ⟨S128x128, .f32⟩
  | 18 => ⟨S128, .f32⟩
  | 19 => ⟨S1x800000, .i32⟩
  | 20 => ⟨S800000, .i32⟩
  | 21 => ⟨S1x800000, .i32⟩
  | 22 => ⟨S800000, .i32⟩
  | 23 => ⟨S50000, .i32⟩
  | 24 => ⟨S850000, .i32⟩
  | 25 => ⟨S850000, .i32⟩
  | 26 => ⟨S_, .f32⟩
  | 27 => ⟨S850000, .f32⟩
  | 28 => ⟨S_, .f32⟩
  | 29 => ⟨S50000, .f32⟩
  | 30 => ⟨S850000x1, .i32⟩
  | 31 => ⟨S50000, .f32⟩
  | 32 => ⟨S_, .f32⟩
  | 33 => ⟨S50000, .f32⟩
  | 34 => ⟨S50000, .i1⟩
  | 35 => ⟨S50000, .f32⟩
  | 36 => ⟨S_, .f32⟩
  | 37 => ⟨S_, .f32⟩
  | 38 => ⟨S50000, .f32⟩
  | 39 => ⟨S50000, .f32⟩
  | 40 => ⟨S_, .i32⟩
  | 41 => ⟨S850000, .i32⟩
  | 42 => ⟨S850000, .i1⟩
  | 43 => ⟨S_, .i32⟩
  | 44 => ⟨S850000, .i32⟩
  | 45 => ⟨S850000, .i32⟩
  | 46 => ⟨S850000, .i32⟩
  | 47 => ⟨S850000x1, .i32⟩
  | 48 => ⟨S850000, .f32⟩
  | 49 => ⟨S_, .i32⟩
  | 50 => ⟨S850000, .i32⟩
  | 51 => ⟨S850000, .i1⟩
  | 52 => ⟨S_, .i32⟩
  | 53 => ⟨S850000, .i32⟩
  | 54 => ⟨S850000, .i32⟩
  | 55 => ⟨S850000, .i32⟩
  | 56 => ⟨S850000x1, .i32⟩
  | 57 => ⟨S850000, .f32⟩
  | 58 => ⟨S850000, .f32⟩
  | 59 => ⟨S50000x128, .f32⟩
  | 60 => ⟨S_, .i32⟩
  | 61 => ⟨S850000, .i32⟩
  | 62 => ⟨S850000, .i1⟩
  | 63 => ⟨S_, .i32⟩
  | 64 => ⟨S850000, .i32⟩
  | 65 => ⟨S850000, .i32⟩
  | 66 => ⟨S850000, .i32⟩
  | 67 => ⟨S850000x1, .i32⟩
  | 68 => ⟨S850000x128, .f32⟩
  | 69 => ⟨S850000x1, .f32⟩
  | 70 => ⟨S850000x128, .f32⟩
  | 71 => ⟨S850000x128, .f32⟩
  | 72 => ⟨S_, .f32⟩
  | 73 => ⟨S50000x128, .f32⟩
  | 74 => ⟨S850000x1, .i32⟩
  | 75 => ⟨S50000x128, .f32⟩
  | 76 => ⟨S1x128, .f32⟩
  | 77 => ⟨S50000x128, .f32⟩
  | 78 => ⟨S50000x128, .f32⟩
  | 79 => ⟨S_, .f32⟩
  | 80 => ⟨S50000x128, .f32⟩
  | 81 => ⟨S50000x128, .f32⟩
  | 82 => ⟨S50000, .i32⟩
  | 83 => ⟨S850000, .i32⟩
  | 84 => ⟨S850000, .i32⟩
  | 85 => ⟨S_, .f32⟩
  | 86 => ⟨S850000, .f32⟩
  | 87 => ⟨S_, .f32⟩
  | 88 => ⟨S50000, .f32⟩
  | 89 => ⟨S850000x1, .i32⟩
  | 90 => ⟨S50000, .f32⟩
  | 91 => ⟨S_, .f32⟩
  | 92 => ⟨S50000, .f32⟩
  | 93 => ⟨S50000, .i1⟩
  | 94 => ⟨S50000, .f32⟩
  | 95 => ⟨S_, .f32⟩
  | 96 => ⟨S_, .f32⟩
  | 97 => ⟨S50000, .f32⟩
  | 98 => ⟨S50000, .f32⟩
  | 99 => ⟨S_, .i32⟩
  | 100 => ⟨S850000, .i32⟩
  | 101 => ⟨S850000, .i1⟩
  | 102 => ⟨S_, .i32⟩
  | 103 => ⟨S850000, .i32⟩
  | 104 => ⟨S850000, .i32⟩
  | 105 => ⟨S850000, .i32⟩
  | 106 => ⟨S850000x1, .i32⟩
  | 107 => ⟨S850000, .f32⟩
  | 108 => ⟨S_, .i32⟩
  | 109 => ⟨S850000, .i32⟩
  | 110 => ⟨S850000, .i1⟩
  | 111 => ⟨S_, .i32⟩
  | 112 => ⟨S850000, .i32⟩
  | 113 => ⟨S850000, .i32⟩
  | 114 => ⟨S850000, .i32⟩
  | 115 => ⟨S850000x1, .i32⟩
  | 116 => ⟨S850000, .f32⟩
  | 117 => ⟨S850000, .f32⟩
  | 118 => ⟨S50000x128, .f32⟩
  | 119 => ⟨S_, .i32⟩
  | 120 => ⟨S850000, .i32⟩
  | 121 => ⟨S850000, .i1⟩
  | 122 => ⟨S_, .i32⟩
  | 123 => ⟨S850000, .i32⟩
  | 124 => ⟨S850000, .i32⟩
  | 125 => ⟨S850000, .i32⟩
  | 126 => ⟨S850000x1, .i32⟩
  | 127 => ⟨S850000x128, .f32⟩
  | _ => ⟨S50000x128, .f32⟩

abbrev hbmTy0_1 (i : Nat) : BufTy := match i % 128 with
  | 0 => ⟨S850000x1, .f32⟩
  | 1 => ⟨S850000x128, .f32⟩
  | 2 => ⟨S850000x128, .f32⟩
  | 3 => ⟨S_, .f32⟩
  | 4 => ⟨S50000x128, .f32⟩
  | 5 => ⟨S850000x1, .i32⟩
  | 6 => ⟨S50000x128, .f32⟩
  | 7 => ⟨S1x128, .f32⟩
  | 8 => ⟨S50000x128, .f32⟩
  | 9 => ⟨S50000x128, .f32⟩
  | 10 => ⟨S_, .f32⟩
  | 11 => ⟨S50000x128, .f32⟩
  | 12 => ⟨S50000x128, .f32⟩
  | 13 => ⟨S_, .f32⟩
  | 14 => ⟨S512x128, .f32⟩
  | 15 => ⟨S50000x1, .i32⟩
  | 16 => ⟨S512x128, .f32⟩
  | 17 => ⟨S_, .i32⟩
  | 18 => ⟨S512, .i32⟩
  | 19 => ⟨S512, .i1⟩
  | 20 => ⟨S_, .i32⟩
  | 21 => ⟨S512, .i32⟩
  | 22 => ⟨S512, .i32⟩
  | 23 => ⟨S512, .i32⟩
  | 24 => ⟨S512x1, .i32⟩
  | 25 => ⟨S512x64, .f32⟩
  | 26 => ⟨S512x192, .f32⟩
  | 27 => ⟨S512x128, .f32⟩
  | 28 => ⟨S1x128, .f32⟩
  | 29 => ⟨S512x128, .f32⟩
  | 30 => ⟨S512x128, .f32⟩
  | 31 => ⟨S_, .f32⟩
  | 32 => ⟨S512, .f32⟩
  | 33 => ⟨S512x1, .f32⟩
  | 34 => ⟨S_, .f32⟩
  | 35 => ⟨S512x1, .f32⟩
  | 36 => ⟨S512x1, .f32⟩
  | 37 => ⟨S_, .i32⟩
  | 38 => ⟨S_, .f32⟩
  | 39 => ⟨S512, .f32⟩
  | 40 => ⟨S512x1, .f32⟩
  | 41 => ⟨S_, .f32⟩
  | 42 => ⟨S512x1, .f32⟩
  | 43 => ⟨S512x1, .f32⟩
  | 44 => ⟨S512x128, .f32⟩
  | 45 => ⟨S512x128, .f32⟩
  | 46 => ⟨S512x128, .f32⟩
  | 47 => ⟨S_, .f32⟩
  | 48 => ⟨S_, .f32⟩
  | 49 => ⟨S_, .f32⟩
  | 50 => ⟨S_, .f32⟩
  | 51 => ⟨S512, .f32⟩
  | 52 => ⟨S512x1, .f32⟩
  | 53 => ⟨S512x1, .f32⟩
  | 54 => ⟨S512x1, .f32⟩
  | 55 => ⟨S_, .f32⟩
  | 56 => ⟨S_, .i1⟩
  | 57 => ⟨S_, .f32⟩
  | 58 => ⟨S_, .f32⟩
  | 59 => ⟨S512x1, .f32⟩
  | 60 => ⟨S512x1, .f32⟩
  | 61 => ⟨S512x128, .f32⟩
  | 62 => ⟨S512x128, .f32⟩
  | 63 => ⟨S_, .f32⟩
  | 64 => ⟨S512x1, .f32⟩
  | 65 => ⟨S512x1, .f32⟩
  | 66 => ⟨S512x1, .f32⟩
  | 67 => ⟨S512x128, .f32⟩
  | 68 => ⟨S512x128, .f32⟩
  | 69 => ⟨S1x128, .f32⟩
  | 70 => ⟨S512x128, .f32⟩
  | 71 => ⟨S512x128, .f32⟩
  | 72 => ⟨S1x128, .f32⟩
  | 73 => ⟨S512x128, .f32⟩
  | 74 => ⟨S512x128, .f32⟩
  | 75 => ⟨S_, .f32⟩
  | 76 => ⟨S512x128, .f32⟩
  | 77 => ⟨S512x128, .f32⟩
  | 78 => ⟨S512x128, .f32⟩
  | 79 => ⟨S1x128, .f32⟩
  | 80 => ⟨S512x128, .f32⟩
  | 81 => ⟨S512x128, .f32⟩
  | 82 => ⟨S_, .f32⟩
  | 83 => ⟨S512x128, .f32⟩
  | 84 => ⟨S512x128, .f32⟩
  | 85 => ⟨S_, .f32⟩
  | 86 => ⟨S512, .f32⟩
  | 87 => ⟨S512x1, .f32⟩
  | 88 => ⟨S_, .f32⟩
  | 89 => ⟨S512x1, .f32⟩
  | 90 => ⟨S512x1, .f32⟩
  | 91 => ⟨S_, .i32⟩
  | 92 => ⟨S_, .f32⟩
  | 93 => ⟨S512, .f32⟩
  | 94 => ⟨S512x1, .f32⟩
  | 95 => ⟨S_, .f32⟩
  | 96 => ⟨S512x1, .f32⟩
  | 97 => ⟨S512x1, .f32⟩
  | 98 => ⟨S512x128, .f32⟩
  | 99 => ⟨S512x128, .f32⟩
  | 100 => ⟨S512x128, .f32⟩
  | 101 => ⟨S_, .f32⟩
  | 102 => ⟨S_, .f32⟩
  | 103 => ⟨S_, .f32⟩
  | 104 => ⟨S_, .f32⟩
  | 105 => ⟨S512, .f32⟩
  | 106 => ⟨S512x1, .f32⟩
  | 107 => ⟨S512x1, .f32⟩
  | 108 => ⟨S512x1, .f32⟩
  | 109 => ⟨S_, .f32⟩
  | 110 => ⟨S_, .i1⟩
  | 111 => ⟨S_, .f32⟩
  | 112 => ⟨S_, .f32⟩
  | 113 => ⟨S512x1, .f32⟩
  | 114 => ⟨S512x1, .f32⟩
  | 115 => ⟨S512x128, .f32⟩
  | 116 => ⟨S512x128, .f32⟩
  | 117 => ⟨S_, .f32⟩
  | 118 => ⟨S512x1, .f32⟩
  | 119 => ⟨S512x1, .f32⟩
  | 120 => ⟨S512x1, .f32⟩
  | 121 => ⟨S512x128, .f32⟩
  | 122 => ⟨S512x128, .f32⟩
  | 123 => ⟨S1x128, .f32⟩
  | 124 => ⟨S512x128, .f32⟩
  | 125 => ⟨S512x128, .f32⟩
  | 126 => ⟨S1x128, .f32⟩
  | 127 => ⟨S512x128, .f32⟩
  | _ => ⟨S50000x128, .f32⟩

abbrev hbmTy0_2 (i : Nat) : BufTy := match i % 128 with
  | 0 => ⟨S512x128, .f32⟩
  | 1 => ⟨S512x128, .f32⟩
  | 2 => ⟨S1x128, .f32⟩
  | 3 => ⟨S512x128, .f32⟩
  | 4 => ⟨S512x128, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_cst : Ref sig .tc := ⟨.hbm, 26, rfl⟩
abbrev main_v7 : Ref sig .tc := ⟨.hbm, 27, rfl⟩
abbrev main_cst_0 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_cst_1 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_cst_2 : Ref sig .tc := ⟨.hbm, 36, rfl⟩
abbrev main_call0_v0 : Ref sig .tc := ⟨.hbm, 37, rfl⟩
abbrev main_call0_v1 : Ref sig .tc := ⟨.hbm, 38, rfl⟩
abbrev main_v14 : Ref sig .tc := ⟨.hbm, 39, rfl⟩
abbrev main_c : Ref sig .tc := ⟨.hbm, 40, rfl⟩
abbrev main_v15 : Ref sig .tc := ⟨.hbm, 41, rfl⟩
abbrev main_v16 : Ref sig .tc := ⟨.hbm, 42, rfl⟩
abbrev main_c_3 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_c_4 : Ref sig .tc := ⟨.hbm, 49, rfl⟩
abbrev main_v22 : Ref sig .tc := ⟨.hbm, 50, rfl⟩
abbrev main_v23 : Ref sig .tc := ⟨.hbm, 51, rfl⟩
abbrev main_c_5 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_c_6 : Ref sig .tc := ⟨.hbm, 60, rfl⟩
abbrev main_v31 : Ref sig .tc := ⟨.hbm, 61, rfl⟩
abbrev main_v32 : Ref sig .tc := ⟨.hbm, 62, rfl⟩
abbrev main_c_7 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_cst_8 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_call1_cst : Ref sig .tc := ⟨.hbm, 79, rfl⟩
abbrev main_call1_v0 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_cst_9 : Ref sig .tc := ⟨.hbm, 85, rfl⟩
abbrev main_v51 : Ref sig .tc := ⟨.hbm, 86, rfl⟩
abbrev main_cst_10 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_cst_11 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_cst_12 : Ref sig .tc := ⟨.hbm, 95, rfl⟩
abbrev main_call2_v0 : Ref sig .tc := ⟨.hbm, 96, rfl⟩
abbrev main_call2_v1 : Ref sig .tc := ⟨.hbm, 97, rfl⟩
abbrev main_v58 : Ref sig .tc := ⟨.hbm, 98, rfl⟩
abbrev main_c_13 : Ref sig .tc := ⟨.hbm, 99, rfl⟩
abbrev main_v59 : Ref sig .tc := ⟨.hbm, 100, rfl⟩
abbrev main_v60 : Ref sig .tc := ⟨.hbm, 101, rfl⟩
abbrev main_c_14 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_c_15 : Ref sig .tc := ⟨.hbm, 108, rfl⟩
abbrev main_v66 : Ref sig .tc := ⟨.hbm, 109, rfl⟩
abbrev main_v67 : Ref sig .tc := ⟨.hbm, 110, rfl⟩
abbrev main_c_16 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_c_17 : Ref sig .tc := ⟨.hbm, 119, rfl⟩
abbrev main_v75 : Ref sig .tc := ⟨.hbm, 120, rfl⟩
abbrev main_v76 : Ref sig .tc := ⟨.hbm, 121, rfl⟩
abbrev main_c_18 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_cst_19 : Ref sig .tc := ⟨.hbm, 131, rfl⟩
abbrev main_v85 : Ref sig .tc := ⟨.hbm, 132, rfl⟩
abbrev main_v86 : Ref sig .tc := ⟨.hbm, 133, rfl⟩
abbrev main_v87 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_call3_cst : Ref sig .tc := ⟨.hbm, 138, rfl⟩
abbrev main_call3_v0 : Ref sig .tc := ⟨.hbm, 139, rfl⟩
abbrev main_v91 : Ref sig .tc := ⟨.hbm, 140, rfl⟩
abbrev main_cst_20 : Ref sig .tc := ⟨.hbm, 141, rfl⟩
abbrev main_v92 : Ref sig .tc := ⟨.hbm, 142, rfl⟩
abbrev main_v93 : Ref sig .tc := ⟨.hbm, 143, rfl⟩
abbrev main_v94 : Ref sig .tc := ⟨.hbm, 144, rfl⟩
abbrev main_c_21 : Ref sig .tc := ⟨.hbm, 145, rfl⟩
abbrev main_v95 : Ref sig .tc := ⟨.hbm, 146, rfl⟩
abbrev main_v96 : Ref sig .tc := ⟨.hbm, 147, rfl⟩
abbrev main_c_22 : Ref sig .tc := ⟨.hbm, 148, rfl⟩
abbrev main_v97 : Ref sig .tc := ⟨.hbm, 149, rfl⟩
abbrev main_v98 : Ref sig .tc := ⟨.hbm, 150, rfl⟩
abbrev main_v99 : Ref sig .tc := ⟨.hbm, 151, rfl⟩
abbrev main_v100 : Ref sig .tc := ⟨.hbm, 152, rfl⟩
abbrev main_v101 : Ref sig .tc := ⟨.hbm, 153, rfl⟩
abbrev main_v102 : Ref sig .tc := ⟨.hbm, 154, rfl⟩
abbrev main_v103 : Ref sig .tc := ⟨.hbm, 155, rfl⟩
abbrev main_v104 : Ref sig .tc := ⟨.hbm, 156, rfl⟩
abbrev main_v105 : Ref sig .tc := ⟨.hbm, 157, rfl⟩
abbrev main_v106 : Ref sig .tc := ⟨.hbm, 158, rfl⟩
abbrev main_cst_23 : Ref sig .tc := ⟨.hbm, 159, rfl⟩
abbrev main_v107 : Ref sig .tc := ⟨.hbm, 160, rfl⟩
abbrev main_v108 : Ref sig .tc := ⟨.hbm, 161, rfl⟩
abbrev main_cst_24 : Ref sig .tc := ⟨.hbm, 162, rfl⟩
abbrev main_v109 : Ref sig .tc := ⟨.hbm, 163, rfl⟩
abbrev main_v110 : Ref sig .tc := ⟨.hbm, 164, rfl⟩
abbrev main_c_25 : Ref sig .tc := ⟨.hbm, 165, rfl⟩
abbrev main_call4_cst : Ref sig .tc := ⟨.hbm, 166, rfl⟩
abbrev main_call4_v0 : Ref sig .tc := ⟨.hbm, 167, rfl⟩
abbrev main_call4_v1 : Ref sig .tc := ⟨.hbm, 168, rfl⟩
abbrev main_call4_cst_0 : Ref sig .tc := ⟨.hbm, 169, rfl⟩
abbrev main_call4_v2 : Ref sig .tc := ⟨.hbm, 170, rfl⟩
abbrev main_call4_v3 : Ref sig .tc := ⟨.hbm, 171, rfl⟩
abbrev main_call4_v4 : Ref sig .tc := ⟨.hbm, 172, rfl⟩
abbrev main_call4_v5 : Ref sig .tc := ⟨.hbm, 173, rfl⟩
abbrev main_call4_v6 : Ref sig .tc := ⟨.hbm, 174, rfl⟩
abbrev main_call4_v7 : Ref sig .tc := ⟨.hbm, 175, rfl⟩
abbrev main_call4_cst_1 : Ref sig .tc := ⟨.hbm, 176, rfl⟩
abbrev main_call4_v8 : Ref sig .tc := ⟨.hbm, 177, rfl⟩
abbrev main_call4_cst_2 : Ref sig .tc := ⟨.hbm, 178, rfl⟩
abbrev main_call4_v9 : Ref sig .tc := ⟨.hbm, 179, rfl⟩
abbrev main_call4_v10 : Ref sig .tc := ⟨.hbm, 180, rfl⟩
abbrev main_call4_v11 : Ref sig .tc := ⟨.hbm, 181, rfl⟩
abbrev main_call4_v12 : Ref sig .tc := ⟨.hbm, 182, rfl⟩
abbrev main_call4_cst_3 : Ref sig .tc := ⟨.hbm, 183, rfl⟩
abbrev main_call4_v13 : Ref sig .tc := ⟨.hbm, 184, rfl⟩
abbrev main_call4_cst_4 : Ref sig .tc := ⟨.hbm, 185, rfl⟩
abbrev main_call4_call0_v0 : Ref sig .tc := ⟨.hbm, 186, rfl⟩
abbrev main_call4_call0_v1 : Ref sig .tc := ⟨.hbm, 187, rfl⟩
abbrev main_v111 : Ref sig .tc := ⟨.hbm, 188, rfl⟩
abbrev main_v112 : Ref sig .tc := ⟨.hbm, 189, rfl⟩
abbrev main_v113 : Ref sig .tc := ⟨.hbm, 190, rfl⟩
abbrev main_cst_26 : Ref sig .tc := ⟨.hbm, 191, rfl⟩
abbrev main_v114 : Ref sig .tc := ⟨.hbm, 192, rfl⟩
abbrev main_v115 : Ref sig .tc := ⟨.hbm, 193, rfl⟩
abbrev main_v116 : Ref sig .tc := ⟨.hbm, 194, rfl⟩
abbrev main_v117 : Ref sig .tc := ⟨.hbm, 195, rfl⟩
abbrev main_v118 : Ref sig .tc := ⟨.hbm, 196, rfl⟩
abbrev main_v119 : Ref sig .tc := ⟨.hbm, 197, rfl⟩
abbrev main_v120 : Ref sig .tc := ⟨.hbm, 198, rfl⟩
abbrev main_v121 : Ref sig .tc := ⟨.hbm, 199, rfl⟩
abbrev main_v122 : Ref sig .tc := ⟨.hbm, 200, rfl⟩
abbrev main_v123 : Ref sig .tc := ⟨.hbm, 201, rfl⟩
abbrev main_v124 : Ref sig .tc := ⟨.hbm, 202, rfl⟩
abbrev main_call5_cst : Ref sig .tc := ⟨.hbm, 203, rfl⟩
abbrev main_call5_v0 : Ref sig .tc := ⟨.hbm, 204, rfl⟩
abbrev main_v125 : Ref sig .tc := ⟨.hbm, 205, rfl⟩
abbrev main_v126 : Ref sig .tc := ⟨.hbm, 206, rfl⟩
abbrev main_v127 : Ref sig .tc := ⟨.hbm, 207, rfl⟩
abbrev main_v128 : Ref sig .tc := ⟨.hbm, 208, rfl⟩
abbrev main_v129 : Ref sig .tc := ⟨.hbm, 209, rfl⟩
abbrev main_call6_cst : Ref sig .tc := ⟨.hbm, 210, rfl⟩
abbrev main_call6_v0 : Ref sig .tc := ⟨.hbm, 211, rfl⟩
abbrev main_v130 : Ref sig .tc := ⟨.hbm, 212, rfl⟩
abbrev main_cst_27 : Ref sig .tc := ⟨.hbm, 213, rfl⟩
abbrev main_v131 : Ref sig .tc := ⟨.hbm, 214, rfl⟩
abbrev main_v132 : Ref sig .tc := ⟨.hbm, 215, rfl⟩
abbrev main_cst_28 : Ref sig .tc := ⟨.hbm, 216, rfl⟩
abbrev main_v133 : Ref sig .tc := ⟨.hbm, 217, rfl⟩
abbrev main_v134 : Ref sig .tc := ⟨.hbm, 218, rfl⟩
abbrev main_c_29 : Ref sig .tc := ⟨.hbm, 219, rfl⟩
abbrev main_call7_cst : Ref sig .tc := ⟨.hbm, 220, rfl⟩
abbrev main_call7_v0 : Ref sig .tc := ⟨.hbm, 221, rfl⟩
abbrev main_call7_v1 : Ref sig .tc := ⟨.hbm, 222, rfl⟩
abbrev main_call7_cst_0 : Ref sig .tc := ⟨.hbm, 223, rfl⟩
abbrev main_call7_v2 : Ref sig .tc := ⟨.hbm, 224, rfl⟩
abbrev main_call7_v3 : Ref sig .tc := ⟨.hbm, 225, rfl⟩
abbrev main_call7_v4 : Ref sig .tc := ⟨.hbm, 226, rfl⟩
abbrev main_call7_v5 : Ref sig .tc := ⟨.hbm, 227, rfl⟩
abbrev main_call7_v6 : Ref sig .tc := ⟨.hbm, 228, rfl⟩
abbrev main_call7_v7 : Ref sig .tc := ⟨.hbm, 229, rfl⟩
abbrev main_call7_cst_1 : Ref sig .tc := ⟨.hbm, 230, rfl⟩
abbrev main_call7_v8 : Ref sig .tc := ⟨.hbm, 231, rfl⟩
abbrev main_call7_cst_2 : Ref sig .tc := ⟨.hbm, 232, rfl⟩
abbrev main_call7_v9 : Ref sig .tc := ⟨.hbm, 233, rfl⟩
abbrev main_call7_v10 : Ref sig .tc := ⟨.hbm, 234, rfl⟩
abbrev main_call7_v11 : Ref sig .tc := ⟨.hbm, 235, rfl⟩
abbrev main_call7_v12 : Ref sig .tc := ⟨.hbm, 236, rfl⟩
abbrev main_call7_cst_3 : Ref sig .tc := ⟨.hbm, 237, rfl⟩
abbrev main_call7_v13 : Ref sig .tc := ⟨.hbm, 238, rfl⟩
abbrev main_call7_cst_4 : Ref sig .tc := ⟨.hbm, 239, rfl⟩
abbrev main_call7_call0_v0 : Ref sig .tc := ⟨.hbm, 240, rfl⟩
abbrev main_call7_call0_v1 : Ref sig .tc := ⟨.hbm, 241, rfl⟩
abbrev main_v135 : Ref sig .tc := ⟨.hbm, 242, rfl⟩
abbrev main_v136 : Ref sig .tc := ⟨.hbm, 243, rfl⟩
abbrev main_v137 : Ref sig .tc := ⟨.hbm, 244, rfl⟩
abbrev main_cst_30 : Ref sig .tc := ⟨.hbm, 245, rfl⟩
abbrev main_v138 : Ref sig .tc := ⟨.hbm, 246, rfl⟩
abbrev main_v139 : Ref sig .tc := ⟨.hbm, 247, rfl⟩
abbrev main_v140 : Ref sig .tc := ⟨.hbm, 248, rfl⟩
abbrev main_v141 : Ref sig .tc := ⟨.hbm, 249, rfl⟩
abbrev main_v142 : Ref sig .tc := ⟨.hbm, 250, rfl⟩
abbrev main_v143 : Ref sig .tc := ⟨.hbm, 251, rfl⟩
abbrev main_v144 : Ref sig .tc := ⟨.hbm, 252, rfl⟩
abbrev main_v145 : Ref sig .tc := ⟨.hbm, 253, rfl⟩
abbrev main_v146 : Ref sig .tc := ⟨.hbm, 254, rfl⟩
abbrev main_v147 : Ref sig .tc := ⟨.hbm, 255, rfl⟩
abbrev main_v148 : Ref sig .tc := ⟨.hbm, 256, rfl⟩
abbrev main_v149 : Ref sig .tc := ⟨.hbm, 257, rfl⟩
abbrev main_v150 : Ref sig .tc := ⟨.hbm, 258, rfl⟩
abbrev main_v151 : Ref sig .tc := ⟨.hbm, 259, rfl⟩
abbrev main_v152 : Ref sig .tc := ⟨.hbm, 260, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S512x128 : S_.BroadcastsInDim S512x128 (![] : Fin 0 → Fin S512x128.rank)
  bcast_S50000_S50000x1_0 : S50000.BroadcastsInDim S50000x1 (![0] : Fin 1 → Fin S50000x1.rank)
  bcast_S_S512 : S_.BroadcastsInDim S512 (![] : Fin 0 → Fin S512.rank)
  bcast_S512_S512x1_0 : S512.BroadcastsInDim S512x1 (![0] : Fin 1 → Fin S512x1.rank)
  concatenates_S512x128_S512x64_S512x192_d1 : Shape.Concatenates [S512x128, S512x64] S512x192 1
  bcast_S1x128_S512x128_0_1 : S1x128.BroadcastsInDim S512x128 (![0, 1] : Fin 2 → Fin S512x128.rank)
  reducesTo_S512x128_S512_d1 : S512x128.ReducesTo [1] S512
  h_S_ : 0 < S_.numel
  bcast_S_S512x1 : S_.BroadcastsInDim S512x1 (![] : Fin 0 → Fin S512x1.rank)
  bcast_S512x1_S512x128_0_1 : S512x1.BroadcastsInDim S512x128 (![0, 1] : Fin 2 → Fin S512x128.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  scatter_S512x128_S50000x1_S50000x128_1_0_0_1_wf : ScatterDims.WF S512x128 S50000x1 S50000x128 [1] [0] [0] 1
  gather_S1000x64_S512x1_S512x64_1_0_n_n_0_1_164_wf : GatherDims.WF S1000x64 S512x1 S512x64 [1] [0] [] [0] [] 1 ![1, 64]
  dot_S512x192_S192x128_S512x128_1_0_0_1_n_n_wf : DotDims.WF S512x192 S192x128 S512x128 [1] [0] [0] [1] [] []
  dot_S512x128_S128x128_S512x128_1_0_0_1_n_n_wf : DotDims.WF S512x128 S128x128 S512x128 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def scatter_S512x128_S50000x1_S50000x128_1_0_0_1 : ScatterDims S512x128 S50000x1 S50000x128 where
  updateWindowDims := [1]
  insertedWindowDims := [0]
  scatterDimsToOperandDims := [0]
  indexVectorDim := 1
  wf := scatter_S512x128_S50000x1_S50000x128_1_0_0_1_wf
def gather_S1000x64_S512x1_S512x64_1_0_n_n_0_1_164 : GatherDims S1000x64 S512x1 S512x64 where
  offsetDims := [1]
  collapsedSliceDims := [0]
  operandBatchingDims := []
  startIndicesBatchingDims := []
  startIndexMap := [0]
  indexVectorDim := 1
  sliceSizes := ![1, 64]
  wf := gather_S1000x64_S512x1_S512x64_1_0_n_n_0_1_164_wf
def dot_S512x192_S192x128_S512x128_1_0_0_1_n_n : DotDims S512x192 S192x128 S512x128 where
  lhsContracting := [1]
  rhsContracting := [0]
  lhsNonContracting := [0]
  rhsNonContracting := [1]
  lhsBatch := []
  rhsBatch := []
  wf := dot_S512x192_S192x128_S512x128_1_0_0_1_n_n_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf

class Facts : Prop extends Facts₀ where

variable [Facts]
-- ==== Proof.KRun.lean ====
/-
  The idealized kernel program's run with its RESULT named: every weakly fair execution of @main terminates, nothing
  faulting, the result buffer ends at the contents the last segment boundary gives it (the fold of the host stretches
  and the three regions' write-backs from the launch memory), and the argument arrays end as launched. The segments,
  their boundary contents and the launch are those of the frame; only the final reading is wider: the result buffer is
  one more unscoped buffer read against the final state.
-/
import proofs.«127112_j63660005261872_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the idealized kernel program, the result buffer read at the last boundary's contents. -/
theorem run_value : θ_run defs (onTc (τ := τ) (main (F := F))) ⟨m, fun _ => 0, ρ⟩ (fun r => ∀ c : Dev nD,
      r.2.mem ((c.tc : Thread nD τ).loc main_v109) = W13 m ρ c (Proc.devRef .tc main_v109)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v109 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c),
       (h c _ (mem_uc main_arg7 (by decide))).trans (W13_main_arg7 m ρ c),
       (h c _ (mem_uc main_arg8 (by decide))).trans (W13_main_arg8 m ρ c),
       (h c _ (mem_uc main_arg9 (by decide))).trans (W13_main_arg9 m ρ c),
       (h c _ (mem_uc main_arg10 (by decide))).trans (W13_main_arg10 m ρ c),
       (h c _ (mem_uc main_arg11 (by decide))).trans (W13_main_arg11 m ρ c),
       (h c _ (mem_uc main_arg12 (by decide))).trans (W13_main_arg12 m ρ c),
       (h c _ (mem_uc main_arg13 (by decide))).trans (W13_main_arg13 m ρ c),
       (h c _ (mem_uc main_arg14 (by decide))).trans (W13_main_arg14 m ρ c),
       (h c _ (mem_uc main_arg15 (by decide))).trans (W13_main_arg15 m ρ c),
       (h c _ (mem_uc main_arg16 (by decide))).trans (W13_main_arg16 m ρ c),
       (h c _ (mem_uc main_arg17 (by decide))).trans (W13_main_arg17 m ρ c),
       (h c _ (mem_uc main_arg18 (by decide))).trans (W13_main_arg18 m ρ c)⟩)

end Cert.KernelIdeal.KRun

end
-- ==== Proof.HeadBlocks.lean ====
import proofs.«127112_j63660005261872_1_alg».proof.Proof.Gen.KernelIdeal.Frame
import Idealize.ShloMosaic.Lib.Pipeline.Value
import Idealize.ShloMosaic.Lib.ValueIdx

/-!
# The head region, as one function of its twelve input arrays

The third region runs its body once: the grid has a single point, and every window's block at that point is the
whole of its array (every index map is constantly zero).  So the body's loads read the arrays themselves, its one
store covers the whole output buffer, and the one write-back covers the whole output array: the array ends holding
the body's stored value computed from the twelve input arrays as the region finds them.  The two loads of the
stacked 192×128 weight read its first 128 rows and its last 64 rows; they stay as reads through those two row
ranges.
-/

noncomputable section

namespace Cert.KernelIdeal.MatVal

open Cert.KernelIdeal Idealize.ShloMosaic Idealize.ShloMosaic.ValueIdx Idealize.ShloMosaic.TcCoe Idealize.SL.Sem
open Idealize.ShloMosaic.Pipeline (Dat)

/-- The zero offsets of a whole-buffer access. -/
theorem hz2 : (![0, 0] : Fin 2 → Nat) = fun _ => 0 := funext fun a => by fin_cases a <;> rfl

variable (V : (c : Dev nD) → (b : Ref sig .tc) → Buf (Elt Ideal) ((c : Thread nD τ).loc b))

/-- The printed index maps at the one grid point: every window sits at block `(0, 0)`. -/
theorem idx2 : ∀ t : Fin cfg2.N, win2_0.index t (0 : Fin 2) = 0 ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = 0 ∧ win2_8.index t (1 : Fin 2) = 0
    ∧ win2_9.index t (0 : Fin 2) = 0 ∧ win2_9.index t (1 : Fin 2) = 0
    ∧ win2_10.index t (0 : Fin 2) = 0 ∧ win2_10.index t (1 : Fin 2) = 0
    ∧ win2_11.index t (0 : Fin 2) = 0 ∧ win2_11.index t (1 : Fin 2) = 0
    ∧ win2_12.index t (0 : Fin 2) = 0 ∧ win2_12.index t (1 : Fin 2) = 0 :=
  (by decide +kernel : ∀ t : Fin grid2.N, _)

/-- Window 0's block at the one grid point is its whole array. -/
theorem blk2_0 (c : Dev nD) (t : Fin cfg2.N) (x : Vec Ideal S512x128 .f32)
    (h : V c (Pipeline.arrRef spec2 0) = x) :
    (Gen.iblk2 V c 0 t : Vec Ideal S512x128 .f32) = x := by
  subst h
  have e := idx2 t
  have e0 : win2_0.index t (0 : Fin 2) = 0 := by tauto
  have e1 : win2_0.index t (1 : Fin 2) = 0 := by tauto
  funext j
  unfold Gen.iblk2
  rw [View.read_apply]
  refine congrArg (V c (Pipeline.arrRef spec2 0) : S512x128.Idx → EReal) ?_
  funext a
  apply Fin.ext
  match a with
  | ⟨0, _⟩ => show win2_0.index t (0 : Fin 2) * 512 + 1 * (j 0).val = (j 0).val; rw [e0]; omega
  | ⟨1, _⟩ => show win2_0.index t (1 : Fin 2) * 128 + 1 * (j 1).val = (j 1).val; rw [e1]; omega

/-- Window 1's block at the one grid point is its whole array. -/
theorem blk2_1 (c : Dev nD) (t : Fin cfg2.N) (x : Vec Ideal S512x64 .f32)
    (h : V c (Pipeline.arrRef spec2 1) = x) :
    (Gen.iblk2 V c 1 t : Vec Ideal S512x64 .f32) = x := by
  subst h
  have e := idx2 t
  have e0 : win2_1.index t (0 : Fin 2) = 0 := by tauto
  have e1 : win2_1.index t (1 : Fin 2) = 0 := by tauto
  funext j
  unfold Gen.iblk2
  rw [View.read_apply]
  refine congrArg (V c (Pipeline.arrRef spec2 1) : S512x64.Idx → EReal) ?_
  funext a
  apply Fin.ext
  match a with
  | ⟨0, _⟩ => show win2_1.index t (0 : Fin 2) * 512 + 1 * (j 0).val = (j 0).val; rw [e0]; omega
  | ⟨1, _⟩ => show win2_1.index t (1 : Fin 2) * 64 + 1 * (j 1).val = (j 1).val; rw [e1]; omega

/-- Window 2's block at the one grid point is its whole array. -/
theorem blk2_2 (c : Dev nD) (t : Fin cfg2.N) (x : Vec Ideal S192x128 .f32)
    (h : V c (Pipeline.arrRef spec2 2) = x) :
    (Gen.iblk2 V c 2 t : Vec Ideal S192x128 .f32) = x := by
  subst h
  have e := idx2 t
  have e0 : win2_2.index t (0 : Fin 2) = 0 := by tauto
  have e1 : win2_2.index t (1 : Fin 2) = 0 := by tauto
  funext j
  unfold Gen.iblk2
  rw [View.read_apply]
  refine congrArg (V c (Pipeline.arrRef spec2 2) : S192x128.Idx → EReal) ?_
  funext a
  apply Fin.ext
  match a with
  | ⟨0, _⟩ => show win2_2.index t (0 : Fin 2) * 192 + 1 * (j 0).val = (j 0).val; rw [e0]; omega
  | ⟨1, _⟩ => show win2_2.index t (1 : Fin 2) * 128 + 1 * (j 1).val = (j 1).val; rw [e1]; omega

/-- Window 3's block at the one grid point is its whole array. -/
theorem blk2_3 (c : Dev nD) (t : Fin cfg2.N) (x : Vec Ideal S1x128 .f32)
    (h : V c (Pipeline.arrRef spec2 3) = x) :
    (Gen.iblk2 V c 3 t : Vec Ideal S1x128 .f32) = x := by
  subst h
  have e := idx2 t
  have e0 : win2_3.index t (0 : Fin 2) = 0 := by tauto
  have e1 : win2_3.index t (1 : Fin 2) = 0 := by tauto
  funext j
  unfold Gen.iblk2
  rw [View.read_apply]
  refine congrArg (V c (Pipeline.arrRef spec2 3) : S1x128.Idx → EReal) ?_
  funext a
  apply Fin.ext
  match a with
  | ⟨0, _⟩ => show win2_3.index t (0 : Fin 2) * 1 + 1 * (j 0).val = (j 0).val; rw [e0]; omega
  | ⟨1, _⟩ => show win2_3.index t (1 : Fin 2) * 128 + 1 * (j 1).val = (j 1).val; rw [e1]; omega

/-- Window 4's block at the one grid point is its whole array. -/
theorem blk2_4 (c : Dev nD) (t : Fin cfg2.N) (x : Vec Ideal S1x128 .f32)
    (h : V c (Pipeline.arrRef spec2 4) = x) :
    (Gen.iblk2 V c 4 t : Vec Ideal S1x128 .f32) = x := by
  subst h
  have e := idx2 t
  have e0 : win2_4.index t (0 : Fin 2) = 0 := by tauto
  have e1 : win2_4.index t (1 : Fin 2) = 0 := by tauto
  funext j
  unfold Gen.iblk2
  rw [View.read_apply]
  refine congrArg (V c (Pipeline.arrRef spec2 4) : S1x128.Idx → EReal) ?_
  funext a
  apply Fin.ext
  match a with
  | ⟨0, _⟩ => show win2_4.index t (0 : Fin 2) * 1 + 1 * (j 0).val = (j 0).val; rw [e0]; omega
  | ⟨1, _⟩ => show win2_4.index t (1 : Fin 2) * 128 + 1 * (j 1).val = (j 1).val; rw [e1]; omega

/-- Window 5's block at the one grid point is its whole array. -/
theorem blk2_5 (c : Dev nD) (t : Fin cfg2.N) (x : Vec Ideal S1x128 .f32)
    (h : V c (Pipeline.arrRef spec2 5) = x) :
    (Gen.iblk2 V c 5 t : Vec Ideal S1x128 .f32) = x := by
  subst h
  have e := idx2 t
  have e0 : win2_5.index t (0 : Fin 2) = 0 := by tauto
  have e1 : win2_5.index t (1 : Fin 2) = 0 := by tauto
  funext j
  unfold Gen.iblk2
  rw [View.read_apply]
  refine congrArg (V c (Pipeline.arrRef spec2 5) : S1x128.Idx → EReal) ?_
  funext a
  apply Fin.ext
  match a with
  | ⟨0, _⟩ => show win2_5.index t (0 : Fin 2) * 1 + 1 * (j 0).val = (j 0).val; rw [e0]; omega
  | ⟨1, _⟩ => show win2_5.index t (1 : Fin 2) * 128 + 1 * (j 1).val = (j 1).val; rw [e1]; omega

/-- Window 6's block at the one grid point is its whole array. -/
theorem blk2_6 (c : Dev nD) (t : Fin cfg2.N) (x : Vec Ideal S128x128 .f32)
    (h : V c (Pipeline.arrRef spec2 6) = x) :
    (Gen.iblk2 V c 6 t : Vec Ideal S128x128 .f32) = x := by
  subst h
  have e := idx2 t
  have e0 : win2_6.index t (0 : Fin 2) = 0 := by tauto
  have e1 : win2_6.index t (1 : Fin 2) = 0 := by tauto
  funext j
  unfold Gen.iblk2
  rw [View.read_apply]
  refine congrArg (V c (Pipeline.arrRef spec2 6) : S128x128.Idx → EReal) ?_
  funext a
  apply Fin.ext
  match a with
  | ⟨0, _⟩ => show win2_6.index t (0 : Fin 2) * 128 + 1 * (j 0).val = (j 0).val; rw [e0]; omega
  | ⟨1, _⟩ => show win2_6.index t (1 : Fin 2) * 128 + 1 * (j 1).val = (j 1).val; rw [e1]; omega

/-- Window 7's block at the one grid point is its whole array. -/
theorem blk2_7 (c : Dev nD) (t : Fin cfg2.N) (x : Vec Ideal S1x128 .f32)
    (h : V c (Pipeline.arrRef spec2 7) = x) :
    (Gen.iblk2 V c 7 t : Vec Ideal S1x128 .f32) = x := by
  subst h
  have e := idx2 t
  have e0 : win2_7.index t (0 : Fin 2) = 0 := by tauto
  have e1 : win2_7.index t (1 : Fin 2) = 0 := by tauto
  funext j
  unfold Gen.iblk2
  rw [View.read_apply]
  refine congrArg (V c (Pipeline.arrRef spec2 7) : S1x128.Idx → EReal) ?_
  funext a
  apply Fin.ext
  match a with
  | ⟨0, _⟩ => show win2_7.index t (0 : Fin 2) * 1 + 1 * (j 0).val = (j 0).val; rw [e0]; omega
  | ⟨1, _⟩ => show win2_7.index t (1 : Fin 2) * 128 + 1 * (j 1).val = (j 1).val; rw [e1]; omega

/-- Window 8's block at the one grid point is its whole array. -/
theorem blk2_8 (c : Dev nD) (t : Fin cfg2.N) (x : Vec Ideal S1x128 .f32)
    (h : V c (Pipeline.arrRef spec2 8) = x) :
    (Gen.iblk2 V c 8 t : Vec Ideal S1x128 .f32) = x := by
  subst h
  have e := idx2 t
  have e0 : win2_8.index t (0 : Fin 2) = 0 := by tauto
  have e1 : win2_8.index t (1 : Fin 2) = 0 := by tauto
  funext j
  unfold Gen.iblk2
  rw [View.read_apply]
  refine congrArg (V c (Pipeline.arrRef spec2 8) : S1x128.Idx → EReal) ?_
  funext a
  apply Fin.ext
  match a with
  | ⟨0, _⟩ => show win2_8.index t (0 : Fin 2) * 1 + 1 * (j 0).val = (j 0).val; rw [e0]; omega
  | ⟨1, _⟩ => show win2_8.index t (1 : Fin 2) * 128 + 1 * (j 1).val = (j 1).val; rw [e1]; omega

/-- Window 9's block at the one grid point is its whole array. -/
theorem blk2_9 (c : Dev nD) (t : Fin cfg2.N) (x : Vec Ideal S1x128 .f32)
    (h : V c (Pipeline.arrRef spec2 9) = x) :
    (Gen.iblk2 V c 9 t : Vec Ideal S1x128 .f32) = x := by
  subst h
  have e := idx2 t
  have e0 : win2_9.index t (0 : Fin 2) = 0 := by tauto
  have e1 : win2_9.index t (1 : Fin 2) = 0 := by tauto
  funext j
  unfold Gen.iblk2
  rw [View.read_apply]
  refine congrArg (V c (Pipeline.arrRef spec2 9) : S1x128.Idx → EReal) ?_
  funext a
  apply Fin.ext
  match a with
  | ⟨0, _⟩ => show win2_9.index t (0 : Fin 2) * 1 + 1 * (j 0).val = (j 0).val; rw [e0]; omega
  | ⟨1, _⟩ => show win2_9.index t (1 : Fin 2) * 128 + 1 * (j 1).val = (j 1).val; rw [e1]; omega

/-- Window 10's block at the one grid point is its whole array. -/
theorem blk2_10 (c : Dev nD) (t : Fin cfg2.N) (x : Vec Ideal S128x128 .f32)
    (h : V c (Pipeline.arrRef spec2 10) = x) :
    (Gen.iblk2 V c 10 t : Vec Ideal S128x128 .f32) = x := by
  subst h
  have e := idx2 t
  have e0 : win2_10.index t (0 : Fin 2) = 0 := by tauto
  have e1 : win2_10.index t (1 : Fin 2) = 0 := by tauto
  funext j
  unfold Gen.iblk2
  rw [View.read_apply]
  refine congrArg (V c (Pipeline.arrRef spec2 10) : S128x128.Idx → EReal) ?_
  funext a
  apply Fin.ext
  match a with
  | ⟨0, _⟩ => show win2_10.index t (0 : Fin 2) * 128 + 1 * (j 0).val = (j 0).val; rw [e0]; omega
  | ⟨1, _⟩ => show win2_10.index t (1 : Fin 2) * 128 + 1 * (j 1).val = (j 1).val; rw [e1]; omega

/-- Window 11's block at the one grid point is its whole array. -/
theorem blk2_11 (c : Dev nD) (t : Fin cfg2.N) (x : Vec Ideal S1x128 .f32)
    (h : V c (Pipeline.arrRef spec2 11) = x) :
    (Gen.iblk2 V c 11 t : Vec Ideal S1x128 .f32) = x := by
  subst h
  have e := idx2 t
  have e0 : win2_11.index t (0 : Fin 2) = 0 := by tauto
  have e1 : win2_11.index t (1 : Fin 2) = 0 := by tauto
  funext j
  unfold Gen.iblk2
  rw [View.read_apply]
  refine congrArg (V c (Pipeline.arrRef spec2 11) : S1x128.Idx → EReal) ?_
  funext a
  apply Fin.ext
  match a with
  | ⟨0, _⟩ => show win2_11.index t (0 : Fin 2) * 1 + 1 * (j 0).val = (j 0).val; rw [e0]; omega
  | ⟨1, _⟩ => show win2_11.index t (1 : Fin 2) * 128 + 1 * (j 1).val = (j 1).val; rw [e1]; omega

/-- The body's stored value, from the twelve input blocks: the one store covers the buffer and the whole-buffer
    loads read their blocks. -/
theorem out2_eq (x0 : Vec Ideal S512x128 .f32) (x1 : Vec Ideal S512x64 .f32) (x2 : Vec Ideal S192x128 .f32) (x3 : Vec Ideal S1x128 .f32) (x4 : Vec Ideal S1x128 .f32) (x5 : Vec Ideal S1x128 .f32) (x6 : Vec Ideal S128x128 .f32) (x7 : Vec Ideal S1x128 .f32) (x8 : Vec Ideal S1x128 .f32) (x9 : Vec Ideal S1x128 .f32) (x10 : Vec Ideal S128x128 .f32) (x11 : Vec Ideal S1x128 .f32) :
    Gen.out2_12 (F := Ideal) x0 x1 x2 x3 x4 x5 x6 x7 x8 x9 x10 x11
      = Gen.k2_pay1 (Gen.k2_pay4 (Gen.k2_pay2 x0 x1
          (View.ld (Val := Elt Ideal) x2 Gen.r2_2 : Vec Ideal S128x128 .f32)
          (View.ld (Val := Elt Ideal) x2 Gen.r2_3 : Vec Ideal S64x128 .f32) x3)
        (Gen.k2_pay3 x4) x5 x6 x7 x8) x9 x10 x11 := by
  unfold Gen.out2_12
  rw [View.canon_unit_zero hz2]
  simp only [View.ld_unit_zero (S := S512x128) hz2, View.ld_unit_zero (S := S512x64) hz2,
    View.ld_unit_zero (S := S1x128) hz2, View.ld_unit_zero (S := S128x128) hz2]

/-- The same, for blocks equal to named arrays. -/
theorem out2_of (y0 : Vec Ideal S512x128 .f32) (y1 : Vec Ideal S512x64 .f32) (y2 : Vec Ideal S192x128 .f32) (y3 : Vec Ideal S1x128 .f32) (y4 : Vec Ideal S1x128 .f32) (y5 : Vec Ideal S1x128 .f32) (y6 : Vec Ideal S128x128 .f32) (y7 : Vec Ideal S1x128 .f32) (y8 : Vec Ideal S1x128 .f32) (y9 : Vec Ideal S1x128 .f32) (y10 : Vec Ideal S128x128 .f32) (y11 : Vec Ideal S1x128 .f32)
    (x0 : Vec Ideal S512x128 .f32) (x1 : Vec Ideal S512x64 .f32) (x2 : Vec Ideal S192x128 .f32) (x3 : Vec Ideal S1x128 .f32) (x4 : Vec Ideal S1x128 .f32) (x5 : Vec Ideal S1x128 .f32) (x6 : Vec Ideal S128x128 .f32) (x7 : Vec Ideal S1x128 .f32) (x8 : Vec Ideal S1x128 .f32) (x9 : Vec Ideal S1x128 .f32) (x10 : Vec Ideal S128x128 .f32) (x11 : Vec Ideal S1x128 .f32)
    (e0 : y0 = x0) (e1 : y1 = x1) (e2 : y2 = x2) (e3 : y3 = x3) (e4 : y4 = x4) (e5 : y5 = x5) (e6 : y6 = x6) (e7 : y7 = x7) (e8 : y8 = x8) (e9 : y9 = x9) (e10 : y10 = x10) (e11 : y11 = x11) :
    Gen.out2_12 (F := Ideal) y0 y1 y2 y3 y4 y5 y6 y7 y8 y9 y10 y11
      = Gen.k2_pay1 (Gen.k2_pay4 (Gen.k2_pay2 x0 x1
          (View.ld (Val := Elt Ideal) x2 Gen.r2_2 : Vec Ideal S128x128 .f32)
          (View.ld (Val := Elt Ideal) x2 Gen.r2_3 : Vec Ideal S64x128 .f32) x3)
        (Gen.k2_pay3 x4) x5 x6 x7 x8) x9 x10 x11 := by
  subst e0 e1 e2 e3 e4 e5 e6 e7 e8 e9 e10 e11
  exact out2_eq y0 y1 y2 y3 y4 y5 y6 y7 y8 y9 y10 y11

/-- The output window's block at the one grid point is the whole buffer: what is written back is what the body stored. -/
theorem cut2_eq (t : Fin cfg2.N) (P : Vec Ideal S512x128 .f32) :
    (cfg2.win 12).cut (grid2.coords t) P = ((cfg2.win 12).blk t).view.read (Elt Ideal) P := by
  have e := idx2 t
  have e0 : win2_12.index t (0 : Fin 2) = 0 := by tauto
  have e1 : win2_12.index t (1 : Fin 2) = 0 := by tauto
  funext j
  rw [View.read_apply]
  show P _ = P _
  refine congrArg P ?_
  funext a
  apply Fin.ext
  match a with
  | ⟨0, _⟩ => show (j 0).val = win2_12.index t (0 : Fin 2) * 512 + 1 * (j 0).val; rw [e0]; omega
  | ⟨1, _⟩ => show (j 1).val = win2_12.index t (1 : Fin 2) * 128 + 1 * (j 1).val; rw [e1]; omega

/-- What the one point writes back is the body's value of the twelve arrays, read through the output's block. -/
theorem flushed2_eq (c : Dev nD) (t : Fin cfg2.N) (x0 : Vec Ideal S512x128 .f32) (x1 : Vec Ideal S512x64 .f32) (x2 : Vec Ideal S192x128 .f32) (x3 : Vec Ideal S1x128 .f32) (x4 : Vec Ideal S1x128 .f32) (x5 : Vec Ideal S1x128 .f32) (x6 : Vec Ideal S128x128 .f32) (x7 : Vec Ideal S1x128 .f32) (x8 : Vec Ideal S1x128 .f32) (x9 : Vec Ideal S1x128 .f32) (x10 : Vec Ideal S128x128 .f32) (x11 : Vec Ideal S1x128 .f32)
    (h0 : V c (Pipeline.arrRef spec2 0) = x0)
    (h1 : V c (Pipeline.arrRef spec2 1) = x1)
    (h2 : V c (Pipeline.arrRef spec2 2) = x2)
    (h3 : V c (Pipeline.arrRef spec2 3) = x3)
    (h4 : V c (Pipeline.arrRef spec2 4) = x4)
    (h5 : V c (Pipeline.arrRef spec2 5) = x5)
    (h6 : V c (Pipeline.arrRef spec2 6) = x6)
    (h7 : V c (Pipeline.arrRef spec2 7) = x7)
    (h8 : V c (Pipeline.arrRef spec2 8) = x8)
    (h9 : V c (Pipeline.arrRef spec2 9) = x9)
    (h10 : V c (Pipeline.arrRef spec2 10) = x10)
    (h11 : V c (Pipeline.arrRef spec2 11) = x11) :
    (Gen.dat2 (F := Ideal) V c).flushed 12 t = ((cfg2.win 12).blk t).view.read (Elt Ideal)
      (Gen.k2_pay1 (Gen.k2_pay4 (Gen.k2_pay2 x0 x1
          (View.ld (Val := Elt Ideal) x2 Gen.r2_2 : Vec Ideal S128x128 .f32)
          (View.ld (Val := Elt Ideal) x2 Gen.r2_3 : Vec Ideal S64x128 .f32) x3)
        (Gen.k2_pay3 x4) x5 x6 x7 x8) x9 x10 x11) := by
  show (cfg2.win 12).cut (grid2.coords t) ((Gen.dat2 V c).after 12 t) = _
  have e : (Gen.dat2 (F := Ideal) V c).after 12 t = Gen.k2_pay1 (Gen.k2_pay4 (Gen.k2_pay2 x0 x1
          (View.ld (Val := Elt Ideal) x2 Gen.r2_2 : Vec Ideal S128x128 .f32)
          (View.ld (Val := Elt Ideal) x2 Gen.r2_3 : Vec Ideal S64x128 .f32) x3)
        (Gen.k2_pay3 x4) x5 x6 x7 x8) x9 x10 x11 :=
    (Gen.after2_12 V c t).trans (out2_of _ _ _ _ _ _ _ _ _ _ _ _ x0 x1 x2 x3 x4 x5 x6 x7 x8 x9 x10 x11
      (blk2_0 V c t x0 h0) (blk2_1 V c t x1 h1) (blk2_2 V c t x2 h2) (blk2_3 V c t x3 h3) (blk2_4 V c t x4 h4)
      (blk2_5 V c t x5 h5) (blk2_6 V c t x6 h6) (blk2_7 V c t x7 h7) (blk2_8 V c t x8 h8) (blk2_9 V c t x9 h9)
      (blk2_10 V c t x10 h10) (blk2_11 V c t x11 h11))
  exact (congrArg ((cfg2.win 12).cut (grid2.coords t)) e).trans (cut2_eq t _)

/-- An index of the output array is in the point's block iff each coordinate is in the block's range on its axis. -/
theorem mem_blk2 (t : Fin cfg2.N) (i : S512x128.Idx) :
    i ∈ ((cfg2.win 12).blk t).view.set ↔ ∀ a : Fin 2, win2_12.index t a * S512x128.size a ≤ (i a).val
      ∧ (i a).val < win2_12.index t a * S512x128.size a + S512x128.size a := by
  show i ∈ ((View.whole main_v109).slice (win2_12.rect t)).set ↔ _
  rw [View.set_slice_whole, Rect.mem_set_unit]
  exact Iff.rfl

/-- Every index of the output array is in the one point's block. -/
theorem cover2 (i : S512x128.Idx) :
    ∃ t : Fin cfg2.N, (cfg2.win 12).flush t = true ∧ i ∈ ((cfg2.win 12).blk t).view.set := by
  have hi0 : (i 0).val < 512 := idx2_lt0 i
  have hi1 : (i 1).val < 128 := idx2_lt1 i
  have e := idx2 Gen.t2_0
  have e0 : win2_12.index Gen.t2_0 (0 : Fin 2) = 0 := by tauto
  have e1 : win2_12.index Gen.t2_0 (1 : Fin 2) = 0 := by tauto
  refine ⟨Gen.t2_0, Gen.flush2_12 Gen.t2_0, ?_⟩
  rw [mem_blk2]
  intro a
  match a with
  | ⟨0, _⟩ => show win2_12.index Gen.t2_0 (0 : Fin 2) * 512 ≤ (i 0).val ∧ (i 0).val < win2_12.index Gen.t2_0 (0 : Fin 2) * 512 + 512; omega
  | ⟨1, _⟩ => show win2_12.index Gen.t2_0 (1 : Fin 2) * 128 ≤ (i 1).val ∧ (i 1).val < win2_12.index Gen.t2_0 (1 : Fin 2) * 128 + 128; omega

/-- After the region the output array holds the body's value of the twelve input arrays as the region found them. -/
theorem region2_eq (c : Dev nD) (x0 : Vec Ideal S512x128 .f32) (x1 : Vec Ideal S512x64 .f32) (x2 : Vec Ideal S192x128 .f32) (x3 : Vec Ideal S1x128 .f32) (x4 : Vec Ideal S1x128 .f32) (x5 : Vec Ideal S1x128 .f32) (x6 : Vec Ideal S128x128 .f32) (x7 : Vec Ideal S1x128 .f32) (x8 : Vec Ideal S1x128 .f32) (x9 : Vec Ideal S1x128 .f32) (x10 : Vec Ideal S128x128 .f32) (x11 : Vec Ideal S1x128 .f32)
    (h0 : V c (Pipeline.arrRef spec2 0) = x0)
    (h1 : V c (Pipeline.arrRef spec2 1) = x1)
    (h2 : V c (Pipeline.arrRef spec2 2) = x2)
    (h3 : V c (Pipeline.arrRef spec2 3) = x3)
    (h4 : V c (Pipeline.arrRef spec2 4) = x4)
    (h5 : V c (Pipeline.arrRef spec2 5) = x5)
    (h6 : V c (Pipeline.arrRef spec2 6) = x6)
    (h7 : V c (Pipeline.arrRef spec2 7) = x7)
    (h8 : V c (Pipeline.arrRef spec2 8) = x8)
    (h9 : V c (Pipeline.arrRef spec2 9) = x9)
    (h10 : V c (Pipeline.arrRef spec2 10) = x10)
    (h11 : V c (Pipeline.arrRef spec2 11) = x11) :
    (Gen.dat2 (F := Ideal) V c).arrAt 12 cfg2.N
      = Gen.k2_pay1 (Gen.k2_pay4 (Gen.k2_pay2 x0 x1
          (View.ld (Val := Elt Ideal) x2 Gen.r2_2 : Vec Ideal S128x128 .f32)
          (View.ld (Val := Elt Ideal) x2 Gen.r2_3 : Vec Ideal S64x128 .f32) x3)
        (Gen.k2_pay3 x4) x5 x6 x7 x8) x9 x10 x11 :=
  (Gen.dat2 V c).arrAt_eq_of_cover 12 _
    (fun t _ => flushed2_eq V c t x0 x1 x2 x3 x4 x5 x6 x7 x8 x9 x10 x11 h0 h1 h2 h3 h4 h5 h6 h7 h8 h9 h10 h11) cover2

end Cert.KernelIdeal.MatVal

end
-- ==== Proof.RefSpec.lean ====
/-
  The reference program's stages as pure functions of arrays: each is the composition, in the program's order, of the
  functions of the host operations that compute one intermediate array from earlier ones (a graph-convolution layer
  after its matrix product; the pooled sums; the gathered embedding rows; the dense head). The operations' functions are
  the printed program's own.
-/
import proofs.«127112_j63660005261872_1_alg».proof.ReferenceIdeal

noncomputable section

namespace Cert.ReferenceIdeal.Spec

open Cert.ReferenceIdeal Idealize.ShloMosaic

variable {F : FTy → Type} [FloatOps F] [Facts]
open Facts₀ Facts

/-- One graph-convolution layer after its matrix product: from the product h, the edge list and the bias, the rectified sum over incoming edges and self loops of the symmetrically normalized rows of h, plus the bias. -/
def layer (main_v30 : (⟨S50000x128, .f32⟩ : BufTy).Contents (Elt F)) (main_arg1 : (⟨S2x800000, .i32⟩ : BufTy).Contents (Elt F)) (main_arg5 : (⟨S128, .f32⟩ : BufTy).Contents (Elt F)) :=
  have main_v0 := ((extractStridedSlice S1x800000 ![0, 0] · slices_S2x800000_S1x800000_0_0) : (⟨S2x800000, .i32⟩ : BufTy).Contents (Elt F) → (⟨S1x800000, .i32⟩ : BufTy).Contents (Elt F)) main_arg1
  have main_v1 := (fun x => shapeCast _ x shapeCasts_S1x800000_S800000) main_v0
  have main_v2 := ((extractStridedSlice S1x800000 ![1, 0] · slices_S2x800000_S1x800000_1_0) : (⟨S2x800000, .i32⟩ : BufTy).Contents (Elt F) → (⟨S1x800000, .i32⟩ : BufTy).Contents (Elt F)) main_arg1
  have main_v3 := (fun x => shapeCast _ x shapeCasts_S1x800000_S800000) main_v2
  have main_v4 : (⟨S50000, .i32⟩ : BufTy).Contents (Elt F) := (iotaInDim S50000 32 0)
  have main_v5 := ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)) main_v1 main_v4
  have main_v6 := ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)) main_v3 main_v4
  have main_cst : (⟨S_, .f32⟩ : BufTy).Contents (Elt F) := (constant S_ .f32 0x3F800000#32)
  have main_v7 := (broadcastInDim S850000 ![] bcast_S_S850000 : (⟨S_, .f32⟩ : BufTy).Contents (Elt F) → (⟨S850000, .f32⟩ : BufTy).Contents (Elt F)) main_cst
  have main_cst_0 : (⟨S_, .f32⟩ : BufTy).Contents (Elt F) := (constant S_ .f32 0x00000000#32)
  have main_v8 := (broadcastInDim S50000 ![] bcast_S_S50000 : (⟨S_, .f32⟩ : BufTy).Contents (Elt F) → (⟨S50000, .f32⟩ : BufTy).Contents (Elt F)) main_cst_0
  have main_v9 := (broadcastInDim S850000x1 ![0] bcast_S850000_S850000x1_0 : (⟨S850000, .i32⟩ : BufTy).Contents (Elt F) → (⟨S850000x1, .i32⟩ : BufTy).Contents (Elt F)) main_v6
  have main_v10 := ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)) main_v8 main_v9 main_v7
  have main_cst_1 : (⟨S_, .f32⟩ : BufTy).Contents (Elt F) := (constant S_ .f32 0x00000000#32)
  have main_v11 := (broadcastInDim S50000 ![] bcast_S_S50000 : (⟨S_, .f32⟩ : BufTy).Contents (Elt F) → (⟨S50000, .f32⟩ : BufTy).Contents (Elt F)) main_cst_1
  have main_v12 := (cmpf .ogt : (⟨S50000, .f32⟩ : BufTy).Contents (Elt F) → (⟨S50000, .f32⟩ : BufTy).Contents (Elt F) → (⟨S50000, .i1⟩ : BufTy).Contents (Elt F)) main_v10 main_v11
  have main_v13 := (Host.rsqrt : (⟨S50000, .f32⟩ : BufTy).Contents (Elt F) → (⟨S50000, .f32⟩ : BufTy).Contents (Elt F)) main_v10
  have main_cst_2 : (⟨S_, .f32⟩ : BufTy).Contents (Elt F) := (constant S_ .f32 0x00000000#32)
  have main_call0_v0 : (⟨S_, .f32⟩ : BufTy).Contents (Elt F) := id main_cst_2
  have main_call0_v1 : (⟨S50000, .f32⟩ : BufTy).Contents (Elt F) := (broadcastInDim S50000 ![] bcast_S_S50000) main_call0_v0
  have main_v14 : (⟨S50000, .f32⟩ : BufTy).Contents (Elt F) := select main_v12 main_v13 main_call0_v1
  have main_c : (⟨S_, .i32⟩ : BufTy).Contents (Elt F) := (constantI S_ 32 0#32)
  have main_v15 := (broadcastInDim S850000 ![] bcast_S_S850000 : (⟨S_, .i32⟩ : BufTy).Contents (Elt F) → (⟨S850000, .i32⟩ : BufTy).Contents (Elt F)) main_c
  have main_v16 := (cmpi .slt : (⟨S850000, .i32⟩ : BufTy).Contents (Elt F) → (⟨S850000, .i32⟩ : BufTy).Contents (Elt F) → (⟨S850000, .i1⟩ : BufTy).Contents (Elt F)) main_v5 main_v15
  have main_c_3 : (⟨S_, .i32⟩ : BufTy).Contents (Elt F) := (constantI S_ 32 50000#32)
  have main_v17 := (broadcastInDim S850000 ![] bcast_S_S850000 : (⟨S_, .i32⟩ : BufTy).Contents (Elt F) → (⟨S850000, .i32⟩ : BufTy).Contents (Elt F)) main_c_3
  have main_v18 := (addi : (⟨S850000, .i32⟩ : BufTy).Contents (Elt F) → (⟨S850000, .i32⟩ : BufTy).Contents (Elt F) → (⟨S850000, .i32⟩ : BufTy).Contents (Elt F)) main_v5 main_v17
  have main_v19 := (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)) main_v16 main_v18 main_v5
  have main_v20 := (broadcastInDim S850000x1 ![0] bcast_S850000_S850000x1_0 : (⟨S850000, .i32⟩ : BufTy).Contents (Elt F) → (⟨S850000x1, .i32⟩ : BufTy).Contents (Elt F)) main_v19
  have main_v21 := ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)) main_v14 main_v20
  have main_c_4 : (⟨S_, .i32⟩ : BufTy).Contents (Elt F) := (constantI S_ 32 0#32)
  have main_v22 := (broadcastInDim S850000 ![] bcast_S_S850000 : (⟨S_, .i32⟩ : BufTy).Contents (Elt F) → (⟨S850000, .i32⟩ : BufTy).Contents (Elt F)) main_c_4
  have main_v23 := (cmpi .slt : (⟨S850000, .i32⟩ : BufTy).Contents (Elt F) → (⟨S850000, .i32⟩ : BufTy).Contents (Elt F) → (⟨S850000, .i1⟩ : BufTy).Contents (Elt F)) main_v6 main_v22
  have main_c_5 : (⟨S_, .i32⟩ : BufTy).Contents (Elt F) := (constantI S_ 32 50000#32)
  have main_v24 := (broadcastInDim S850000 ![] bcast_S_S850000 : (⟨S_, .i32⟩ : BufTy).Contents (Elt F) → (⟨S850000, .i32⟩ : BufTy).Contents (Elt F)) main_c_5
  have main_v25 := (addi : (⟨S850000, .i32⟩ : BufTy).Contents (Elt F) → (⟨S850000, .i32⟩ : BufTy).Contents (Elt F) → (⟨S850000, .i32⟩ : BufTy).Contents (Elt F)) main_v6 main_v24
  have main_v26 := (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)) main_v23 main_v25 main_v6
  have main_v27 := (broadcastInDim S850000x1 ![0] bcast_S850000_S850000x1_0 : (⟨S850000, .i32⟩ : BufTy).Contents (Elt F) → (⟨S850000x1, .i32⟩ : BufTy).Contents (Elt F)) main_v26
  have main_v28 := ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)) main_v14 main_v27
  have main_v29 := (mulf : (⟨S850000, .f32⟩ : BufTy).Contents (Elt F) → (⟨S850000, .f32⟩ : BufTy).Contents (Elt F) → (⟨S850000, .f32⟩ : BufTy).Contents (Elt F)) main_v21 main_v28
  have main_c_6 : (⟨S_, .i32⟩ : BufTy).Contents (Elt F) := (constantI S_ 32 0#32)
  have main_v31 := (broadcastInDim S850000 ![] bcast_S_S850000 : (⟨S_, .i32⟩ : BufTy).Contents (Elt F) → (⟨S850000, .i32⟩ : BufTy).Contents (Elt F)) main_c_6
  have main_v32 := (cmpi .slt : (⟨S850000, .i32⟩ : BufTy).Contents (Elt F) → (⟨S850000, .i32⟩ : BufTy).Contents (Elt F) → (⟨S850000, .i1⟩ : BufTy).Contents (Elt F)) main_v5 main_v31
  have main_c_7 : (⟨S_, .i32⟩ : BufTy).Contents (Elt F) := (constantI S_ 32 50000#32)
  have main_v33 := (broadcastInDim S850000 ![] bcast_S_S850000 : (⟨S_, .i32⟩ : BufTy).Contents (Elt F) → (⟨S850000, .i32⟩ : BufTy).Contents (Elt F)) main_c_7
  have main_v34 := (addi : (⟨S850000, .i32⟩ : BufTy).Contents (Elt F) → (⟨S850000, .i32⟩ : BufTy).Contents (Elt F) → (⟨S850000, .i32⟩ : BufTy).Contents (Elt F)) main_v5 main_v33
  have main_v35 := (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)) main_v32 main_v34 main_v5
  have main_v36 := (broadcastInDim S850000x1 ![0] bcast_S850000_S850000x1_0 : (⟨S850000, .i32⟩ : BufTy).Contents (Elt F) → (⟨S850000x1, .i32⟩ : BufTy).Contents (Elt F)) main_v35
  have main_v37 := ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)) main_v30 main_v36
  have main_v38 := (broadcastInDim S850000x1 ![0] bcast_S850000_S850000x1_0 : (⟨S850000, .f32⟩ : BufTy).Contents (Elt F) → (⟨S850000x1, .f32⟩ : BufTy).Contents (Elt F)) main_v29
  have main_v39 := (broadcastInDim S850000x128 ![0, 1] bcast_S850000x1_S850000x128_0_1 : (⟨S850000x1, .f32⟩ : BufTy).Contents (Elt F) → (⟨S850000x128, .f32⟩ : BufTy).Contents (Elt F)) main_v38
  have main_v40 := (mulf : (⟨S850000x128, .f32⟩ : BufTy).Contents (Elt F) → (⟨S850000x128, .f32⟩ : BufTy).Contents (Elt F) → (⟨S850000x128, .f32⟩ : BufTy).Contents (Elt F)) main_v37 main_v39
  have main_cst_8 : (⟨S_, .f32⟩ : BufTy).Contents (Elt F) := (constant S_ .f32 0x00000000#32)
  have main_v41 := (broadcastInDim S50000x128 ![] bcast_S_S50000x128 : (⟨S_, .f32⟩ : BufTy).Contents (Elt F) → (⟨S50000x128, .f32⟩ : BufTy).Contents (Elt F)) main_cst_8
  have main_v42 := (broadcastInDim S850000x1 ![0] bcast_S850000_S850000x1_0 : (⟨S850000, .i32⟩ : BufTy).Contents (Elt F) → (⟨S850000x1, .i32⟩ : BufTy).Contents (Elt F)) main_v6
  have main_v43 := ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)) main_v41 main_v42 main_v40
  have main_v44 := (broadcastInDim S1x128 ![1] bcast_S128_S1x128_1 : (⟨S128, .f32⟩ : BufTy).Contents (Elt F) → (⟨S1x128, .f32⟩ : BufTy).Contents (Elt F)) main_arg5
  have main_v45 := (broadcastInDim S50000x128 ![0, 1] bcast_S1x128_S50000x128_0_1 : (⟨S1x128, .f32⟩ : BufTy).Contents (Elt F) → (⟨S50000x128, .f32⟩ : BufTy).Contents (Elt F)) main_v44
  have main_v46 := (addf : (⟨S50000x128, .f32⟩ : BufTy).Contents (Elt F) → (⟨S50000x128, .f32⟩ : BufTy).Contents (Elt F) → (⟨S50000x128, .f32⟩ : BufTy).Contents (Elt F)) main_v43 main_v45
  have main_call1_cst : (⟨S_, .f32⟩ : BufTy).Contents (Elt F) := (constant S_ .f32 0x00000000#32)
  have main_call1_v0 : (⟨S50000x128, .f32⟩ : BufTy).Contents (Elt F) := (broadcastInDim S50000x128 ![] bcast_S_S50000x128) main_call1_cst
  have main_v47 : (⟨S50000x128, .f32⟩ : BufTy).Contents (Elt F) := maximumf main_v46 main_call1_v0
  main_v47

/-- The second layer, in the program's second spelling (the edge list's two rows are read once and shared). -/
def layer2 (main_v74 : (⟨S50000x128, .f32⟩ : BufTy).Contents (Elt F)) (main_arg1 : (⟨S2x800000, .i32⟩ : BufTy).Contents (Elt F)) (main_arg7 : (⟨S128, .f32⟩ : BufTy).Contents (Elt F)) :=
  have main_v0 := ((extractStridedSlice S1x800000 ![0, 0] · slices_S2x800000_S1x800000_0_0) : (⟨S2x800000, .i32⟩ : BufTy).Contents (Elt F) → (⟨S1x800000, .i32⟩ : BufTy).Contents (Elt F)) main_arg1
  have main_v1 := (fun x => shapeCast _ x shapeCasts_S1x800000_S800000) main_v0
  have main_v2 := ((extractStridedSlice S1x800000 ![1, 0] · slices_S2x800000_S1x800000_1_0) : (⟨S2x800000, .i32⟩ : BufTy).Contents (Elt F) → (⟨S1x800000, .i32⟩ : BufTy).Contents (Elt F)) main_arg1
  have main_v3 := (fun x => shapeCast _ x shapeCasts_S1x800000_S800000) main_v2
  have main_v48 : (⟨S50000, .i32⟩ : BufTy).Contents (Elt F) := (iotaInDim S50000 32 0)
  have main_v49 := ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)) main_v1 main_v48
  have main_v50 := ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)) main_v3 main_v48
  have main_cst_9 : (⟨S_, .f32⟩ : BufTy).Contents (Elt F) := (constant S_ .f32 0x3F800000#32)
  have main_v51 := (broadcastInDim S850000 ![] bcast_S_S850000 : (⟨S_, .f32⟩ : BufTy).Contents (Elt F) → (⟨S850000, .f32⟩ : BufTy).Contents (Elt F)) main_cst_9
  have main_cst_10 : (⟨S_, .f32⟩ : BufTy).Contents (Elt F) := (constant S_ .f32 0x00000000#32)
  have main_v52 := (broadcastInDim S50000 ![] bcast_S_S50000 : (⟨S_, .f32⟩ : BufTy).Contents (Elt F) → (⟨S50000, .f32⟩ : BufTy).Contents (Elt F)) main_cst_10
  have main_v53 := (broadcastInDim S850000x1 ![0] bcast_S850000_S850000x1_0 : (⟨S850000, .i32⟩ : BufTy).Contents (Elt F) → (⟨S850000x1, .i32⟩ : BufTy).Contents (Elt F)) main_v50
  have main_v54 := ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)) main_v52 main_v53 main_v51
  have main_cst_11 : (⟨S_, .f32⟩ : BufTy).Contents (Elt F) := (constant S_ .f32 0x00000000#32)
  have main_v55 := (broadcastInDim S50000 ![] bcast_S_S50000 : (⟨S_, .f32⟩ : BufTy).Contents (Elt F) → (⟨S50000, .f32⟩ : BufTy).Contents (Elt F)) main_cst_11
  have main_v56 := (cmpf .ogt : (⟨S50000, .f32⟩ : BufTy).Contents (Elt F) → (⟨S50000, .f32⟩ : BufTy).Contents (Elt F) → (⟨S50000, .i1⟩ : BufTy).Contents (Elt F)) main_v54 main_v55
  have main_v57 := (Host.rsqrt : (⟨S50000, .f32⟩ : BufTy).Contents (Elt F) → (⟨S50000, .f32⟩ : BufTy).Contents (Elt F)) main_v54
  have main_cst_12 : (⟨S_, .f32⟩ : BufTy).Contents (Elt F) := (constant S_ .f32 0x00000000#32)
  have main_call2_v0 : (⟨S_, .f32⟩ : BufTy).Contents (Elt F) := id main_cst_12
  have main_call2_v1 : (⟨S50000, .f32⟩ : BufTy).Contents (Elt F) := (broadcastInDim S50000 ![] bcast_S_S50000) main_call2_v0
  have main_v58 : (⟨S50000, .f32⟩ : BufTy).Contents (Elt F) := select main_v56 main_v57 main_call2_v1
  have main_c_13 : (⟨S_, .i32⟩ : BufTy).Contents (Elt F) := (constantI S_ 32 0#32)
  have main_v59 := (broadcastInDim S850000 ![] bcast_S_S850000 : (⟨S_, .i32⟩ : BufTy).Contents (Elt F) → (⟨S850000, .i32⟩ : BufTy).Contents (Elt F)) main_c_13
  have main_v60 := (cmpi .slt : (⟨S850000, .i32⟩ : BufTy).Contents (Elt F) → (⟨S850000, .i32⟩ : BufTy).Contents (Elt F) → (⟨S850000, .i1⟩ : BufTy).Contents (Elt F)) main_v49 main_v59
  have main_c_14 : (⟨S_, .i32⟩ : BufTy).Contents (Elt F) := (constantI S_ 32 50000#32)
  have main_v61 := (broadcastInDim S850000 ![] bcast_S_S850000 : (⟨S_, .i32⟩ : BufTy).Contents (Elt F) → (⟨S850000, .i32⟩ : BufTy).Contents (Elt F)) main_c_14
  have main_v62 := (addi : (⟨S850000, .i32⟩ : BufTy).Contents (Elt F) → (⟨S850000, .i32⟩ : BufTy).Contents (Elt F) → (⟨S850000, .i32⟩ : BufTy).Contents (Elt F)) main_v49 main_v61
  have main_v63 := (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)) main_v60 main_v62 main_v49
  have main_v64 := (broadcastInDim S850000x1 ![0] bcast_S850000_S850000x1_0 : (⟨S850000, .i32⟩ : BufTy).Contents (Elt F) → (⟨S850000x1, .i32⟩ : BufTy).Contents (Elt F)) main_v63
  have main_v65 := ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)) main_v58 main_v64
  have main_c_15 : (⟨S_, .i32⟩ : BufTy).Contents (Elt F) := (constantI S_ 32 0#32)
  have main_v66 := (broadcastInDim S850000 ![] bcast_S_S850000 : (⟨S_, .i32⟩ : BufTy).Contents (Elt F) → (⟨S850000, .i32⟩ : BufTy).Contents (Elt F)) main_c_15
  have main_v67 := (cmpi .slt : (⟨S850000, .i32⟩ : BufTy).Contents (Elt F) → (⟨S850000, .i32⟩ : BufTy).Contents (Elt F) → (⟨S850000, .i1⟩ : BufTy).Contents (Elt F)) main_v50 main_v66
  have main_c_16 : (⟨S_, .i32⟩ : BufTy).Contents (Elt F) := (constantI S_ 32 50000#32)
  have main_v68 := (broadcastInDim S850000 ![] bcast_S_S850000 : (⟨S_, .i32⟩ : BufTy).Contents (Elt F) → (⟨S850000, .i32⟩ : BufTy).Contents (Elt F)) main_c_16
  have main_v69 := (addi : (⟨S850000, .i32⟩ : BufTy).Contents (Elt F) → (⟨S850000, .i32⟩ : BufTy).Contents (Elt F) → (⟨S850000, .i32⟩ : BufTy).Contents (Elt F)) main_v50 main_v68
  have main_v70 := (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)) main_v67 main_v69 main_v50
  have main_v71 := (broadcastInDim S850000x1 ![0] bcast_S850000_S850000x1_0 : (⟨S850000, .i32⟩ : BufTy).Contents (Elt F) → (⟨S850000x1, .i32⟩ : BufTy).Contents (Elt F)) main_v70
  have main_v72 := ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)) main_v58 main_v71
  have main_v73 := (mulf : (⟨S850000, .f32⟩ : BufTy).Contents (Elt F) → (⟨S850000, .f32⟩ : BufTy).Contents (Elt F) → (⟨S850000, .f32⟩ : BufTy).Contents (Elt F)) main_v65 main_v72
  have main_c_17 : (⟨S_, .i32⟩ : BufTy).Contents (Elt F) := (constantI S_ 32 0#32)
  have main_v75 := (broadcastInDim S850000 ![] bcast_S_S850000 : (⟨S_, .i32⟩ : BufTy).Contents (Elt F) → (⟨S850000, .i32⟩ : BufTy).Contents (Elt F)) main_c_17
  have main_v76 := (cmpi .slt : (⟨S850000, .i32⟩ : BufTy).Contents (Elt F) → (⟨S850000, .i32⟩ : BufTy).Contents (Elt F) → (⟨S850000, .i1⟩ : BufTy).Contents (Elt F)) main_v49 main_v75
  have main_c_18 : (⟨S_, .i32⟩ : BufTy).Contents (Elt F) := (constantI S_ 32 50000#32)
  have main_v77 := (broadcastInDim S850000 ![] bcast_S_S850000 : (⟨S_, .i32⟩ : BufTy).Contents (Elt F) → (⟨S850000, .i32⟩ : BufTy).Contents (Elt F)) main_c_18
  have main_v78 := (addi : (⟨S850000, .i32⟩ : BufTy).Contents (Elt F) → (⟨S850000, .i32⟩ : BufTy).Contents (Elt F) → (⟨S850000, .i32⟩ : BufTy).Contents (Elt F)) main_v49 main_v77
  have main_v79 := (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)) main_v76 main_v78 main_v49
  have main_v80 := (broadcastInDim S850000x1 ![0] bcast_S850000_S850000x1_0 : (⟨S850000, .i32⟩ : BufTy).Contents (Elt F) → (⟨S850000x1, .i32⟩ : BufTy).Contents (Elt F)) main_v79
  have main_v81 := ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)) main_v74 main_v80
  have main_v82 := (broadcastInDim S850000x1 ![0] bcast_S850000_S850000x1_0 : (⟨S850000, .f32⟩ : BufTy).Contents (Elt F) → (⟨S850000x1, .f32⟩ : BufTy).Contents (Elt F)) main_v73
  have main_v83 := (broadcastInDim S850000x128 ![0, 1] bcast_S850000x1_S850000x128_0_1 : (⟨S850000x1, .f32⟩ : BufTy).Contents (Elt F) → (⟨S850000x128, .f32⟩ : BufTy).Contents (Elt F)) main_v82
  have main_v84 := (mulf : (⟨S850000x128, .f32⟩ : BufTy).Contents (Elt F) → (⟨S850000x128, .f32⟩ : BufTy).Contents (Elt F) → (⟨S850000x128, .f32⟩ : BufTy).Contents (Elt F)) main_v81 main_v83
  have main_cst_19 : (⟨S_, .f32⟩ : BufTy).Contents (Elt F) := (constant S_ .f32 0x00000000#32)
  have main_v85 := (broadcastInDim S50000x128 ![] bcast_S_S50000x128 : (⟨S_, .f32⟩ : BufTy).Contents (Elt F) → (⟨S50000x128, .f32⟩ : BufTy).Contents (Elt F)) main_cst_19
  have main_v86 := (broadcastInDim S850000x1 ![0] bcast_S850000_S850000x1_0 : (⟨S850000, .i32⟩ : BufTy).Contents (Elt F) → (⟨S850000x1, .i32⟩ : BufTy).Contents (Elt F)) main_v50
  have main_v87 := ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)) main_v85 main_v86 main_v84
  have main_v88 := (broadcastInDim S1x128 ![1] bcast_S128_S1x128_1 : (⟨S128, .f32⟩ : BufTy).Contents (Elt F) → (⟨S1x128, .f32⟩ : BufTy).Contents (Elt F)) main_arg7
  have main_v89 := (broadcastInDim S50000x128 ![0, 1] bcast_S1x128_S50000x128_0_1 : (⟨S1x128, .f32⟩ : BufTy).Contents (Elt F) → (⟨S50000x128, .f32⟩ : BufTy).Contents (Elt F)) main_v88
  have main_v90 := (addf : (⟨S50000x128, .f32⟩ : BufTy).Contents (Elt F) → (⟨S50000x128, .f32⟩ : BufTy).Contents (Elt F) → (⟨S50000x128, .f32⟩ : BufTy).Contents (Elt F)) main_v87 main_v89
  have main_call3_cst : (⟨S_, .f32⟩ : BufTy).Contents (Elt F) := (constant S_ .f32 0x00000000#32)
  have main_call3_v0 : (⟨S50000x128, .f32⟩ : BufTy).Contents (Elt F) := (broadcastInDim S50000x128 ![] bcast_S_S50000x128) main_call3_cst
  have main_v91 : (⟨S50000x128, .f32⟩ : BufTy).Contents (Elt F) := maximumf main_v90 main_call3_v0
  main_v91

/-- The rows of a node array summed per graph. -/
def pool (main_v91 : (⟨S50000x128, .f32⟩ : BufTy).Contents (Elt F)) (main_arg2 : (⟨S50000, .i32⟩ : BufTy).Contents (Elt F)) :=
  have main_cst_20 : (⟨S_, .f32⟩ : BufTy).Contents (Elt F) := (constant S_ .f32 0x00000000#32)
  have main_v92 := (broadcastInDim S512x128 ![] bcast_S_S512x128 : (⟨S_, .f32⟩ : BufTy).Contents (Elt F) → (⟨S512x128, .f32⟩ : BufTy).Contents (Elt F)) main_cst_20
  have main_v93 := (broadcastInDim S50000x1 ![0] bcast_S50000_S50000x1_0 : (⟨S50000, .i32⟩ : BufTy).Contents (Elt F) → (⟨S50000x1, .i32⟩ : BufTy).Contents (Elt F)) main_arg2
  have main_v94 := ((fun x i u => Host.scatterAdd scatter_S512x128_S50000x1_S50000x128_1_0_0_1 x i u) : (⟨S512x128, .f32⟩ : BufTy).Contents (Elt F) → (⟨S50000x1, .i32⟩ : BufTy).Contents (Elt F) → (⟨S50000x128, .f32⟩ : BufTy).Contents (Elt F) → (⟨S512x128, .f32⟩ : BufTy).Contents (Elt F)) main_v92 main_v93 main_v91
  main_v94

/-- The embedding rows of the graphs' cell lines. -/
def cellRows (main_arg8 : (⟨S1000x64, .f32⟩ : BufTy).Contents (Elt F)) (main_arg3 : (⟨S512, .i32⟩ : BufTy).Contents (Elt F)) :=
  have main_c_21 : (⟨S_, .i32⟩ : BufTy).Contents (Elt F) := (constantI S_ 32 0#32)
  have main_v95 := (broadcastInDim S512 ![] bcast_S_S512 : (⟨S_, .i32⟩ : BufTy).Contents (Elt F) → (⟨S512, .i32⟩ : BufTy).Contents (Elt F)) main_c_21
  have main_v96 := (cmpi .slt : (⟨S512, .i32⟩ : BufTy).Contents (Elt F) → (⟨S512, .i32⟩ : BufTy).Contents (Elt F) → (⟨S512, .i1⟩ : BufTy).Contents (Elt F)) main_arg3 main_v95
  have main_c_22 : (⟨S_, .i32⟩ : BufTy).Contents (Elt F) := (constantI S_ 32 1000#32)
  have main_v97 := (broadcastInDim S512 ![] bcast_S_S512 : (⟨S_, .i32⟩ : BufTy).Contents (Elt F) → (⟨S512, .i32⟩ : BufTy).Contents (Elt F)) main_c_22
  have main_v98 := (addi : (⟨S512, .i32⟩ : BufTy).Contents (Elt F) → (⟨S512, .i32⟩ : BufTy).Contents (Elt F) → (⟨S512, .i32⟩ : BufTy).Contents (Elt F)) main_arg3 main_v97
  have main_v99 := (select : (⟨S512, .i1⟩ : BufTy).Contents (Elt F) → (⟨S512, .i32⟩ : BufTy).Contents (Elt F) → (⟨S512, .i32⟩ : BufTy).Contents (Elt F) → (⟨S512, .i32⟩ : BufTy).Contents (Elt F)) main_v96 main_v98 main_arg3
  have main_v100 := (broadcastInDim S512x1 ![0] bcast_S512_S512x1_0 : (⟨S512, .i32⟩ : BufTy).Contents (Elt F) → (⟨S512x1, .i32⟩ : BufTy).Contents (Elt F)) main_v99
  have main_v101 := ((fun x i => Host.gather gather_S1000x64_S512x1_S512x64_1_0_n_n_0_1_164 x i) : (⟨S1000x64, .f32⟩ : BufTy).Contents (Elt F) → (⟨S512x1, .i32⟩ : BufTy).Contents (Elt F) → (⟨S512x64, .f32⟩ : BufTy).Contents (Elt F)) main_arg8 main_v100
  main_v101

/-- The head's first block: the pooled rows beside the embedding rows against the combining weights, plus bias, normalized along each row, scaled, shifted and rectified. -/
def head1 (main_v94 : (⟨S512x128, .f32⟩ : BufTy).Contents (Elt F)) (main_v101 : (⟨S512x64, .f32⟩ : BufTy).Contents (Elt F)) (main_arg9 : (⟨S192x128, .f32⟩ : BufTy).Contents (Elt F)) (main_arg10 : (⟨S128, .f32⟩ : BufTy).Contents (Elt F)) (main_arg11 : (⟨S128, .f32⟩ : BufTy).Contents (Elt F)) (main_arg12 : (⟨S128, .f32⟩ : BufTy).Contents (Elt F)) :=
  have main_v102 := ((fun a b => concatenate S512x192 1 [⟨S512x128, a⟩, ⟨S512x64, b⟩] concatenates_S512x128_S512x64_S512x192_d1) : (⟨S512x128, .f32⟩ : BufTy).Contents (Elt F) → (⟨S512x64, .f32⟩ : BufTy).Contents (Elt F) → (⟨S512x192, .f32⟩ : BufTy).Contents (Elt F)) main_v94 main_v101
  have main_v103 := ((fun l r => Host.dotGeneral dot_S512x192_S192x128_S512x128_1_0_0_1_n_n none l r) : (⟨S512x192, .f32⟩ : BufTy).Contents (Elt F) → (⟨S192x128, .f32⟩ : BufTy).Contents (Elt F) → (⟨S512x128, .f32⟩ : BufTy).Contents (Elt F)) main_v102 main_arg9
  have main_v104 := (broadcastInDim S1x128 ![1] bcast_S128_S1x128_1 : (⟨S128, .f32⟩ : BufTy).Contents (Elt F) → (⟨S1x128, .f32⟩ : BufTy).Contents (Elt F)) main_arg10
  have main_v105 := (broadcastInDim S512x128 ![0, 1] bcast_S1x128_S512x128_0_1 : (⟨S1x128, .f32⟩ : BufTy).Contents (Elt F) → (⟨S512x128, .f32⟩ : BufTy).Contents (Elt F)) main_v104
  have main_v106 := (addf : (⟨S512x128, .f32⟩ : BufTy).Contents (Elt F) → (⟨S512x128, .f32⟩ : BufTy).Contents (Elt F) → (⟨S512x128, .f32⟩ : BufTy).Contents (Elt F)) main_v103 main_v105
  have main_cst_23 : (⟨S_, .f32⟩ : BufTy).Contents (Elt F) := (constant S_ .f32 0x00000000#32)
  have main_v107 := ((fun x v => Host.reduceAdd x v reducesTo_S512x128_S512_d1 h_S_) : (⟨S512x128, .f32⟩ : BufTy).Contents (Elt F) → (⟨S_, .f32⟩ : BufTy).Contents (Elt F) → (⟨S512, .f32⟩ : BufTy).Contents (Elt F)) main_v106 main_cst_23
  have main_v108 := (broadcastInDim S512x1 ![0] bcast_S512_S512x1_0 : (⟨S512, .f32⟩ : BufTy).Contents (Elt F) → (⟨S512x1, .f32⟩ : BufTy).Contents (Elt F)) main_v107
  have main_cst_24 : (⟨S_, .f32⟩ : BufTy).Contents (Elt F) := (constant S_ .f32 0x43000000#32)
  have main_v109 := (broadcastInDim S512x1 ![] bcast_S_S512x1 : (⟨S_, .f32⟩ : BufTy).Contents (Elt F) → (⟨S512x1, .f32⟩ : BufTy).Contents (Elt F)) main_cst_24
  have main_v110 := (Host.divf : (⟨S512x1, .f32⟩ : BufTy).Contents (Elt F) → (⟨S512x1, .f32⟩ : BufTy).Contents (Elt F) → (⟨S512x1, .f32⟩ : BufTy).Contents (Elt F)) main_v108 main_v109
  have main_c_25 : (⟨S_, .i32⟩ : BufTy).Contents (Elt F) := (constantI S_ 32 0#32)
  have main_call4_cst : (⟨S_, .f32⟩ : BufTy).Contents (Elt F) := (constant S_ .f32 0x00000000#32)
  have main_call4_v0 : (⟨S512, .f32⟩ : BufTy).Contents (Elt F) := (fun x v => Host.reduceAdd x v reducesTo_S512x128_S512_d1 h_S_) main_v106 main_call4_cst
  have main_call4_v1 : (⟨S512x1, .f32⟩ : BufTy).Contents (Elt F) := (broadcastInDim S512x1 ![0] bcast_S512_S512x1_0) main_call4_v0
  have main_call4_cst_0 : (⟨S_, .f32⟩ : BufTy).Contents (Elt F) := (constant S_ .f32 0x43000000#32)
  have main_call4_v2 : (⟨S512x1, .f32⟩ : BufTy).Contents (Elt F) := (broadcastInDim S512x1 ![] bcast_S_S512x1) main_call4_cst_0
  have main_call4_v3 : (⟨S512x1, .f32⟩ : BufTy).Contents (Elt F) := Host.divf main_call4_v1 main_call4_v2
  have main_call4_v4 : (⟨S512x128, .f32⟩ : BufTy).Contents (Elt F) := (broadcastInDim S512x128 ![0, 1] bcast_S512x1_S512x128_0_1) main_call4_v3
  have main_call4_v5 : (⟨S512x128, .f32⟩ : BufTy).Contents (Elt F) := subf main_v106 main_call4_v4
  have main_call4_v6 : (⟨S512x128, .f32⟩ : BufTy).Contents (Elt F) := mulf main_call4_v5 main_call4_v5
  have main_call4_v7 : (⟨S_, .f32⟩ : BufTy).Contents (Elt F) := (sitofp .f32) main_c_25
  have main_call4_cst_1 : (⟨S_, .f32⟩ : BufTy).Contents (Elt F) := (constant S_ .f32 0x43000000#32)
  have main_call4_v8 : (⟨S_, .f32⟩ : BufTy).Contents (Elt F) := subf main_call4_cst_1 main_call4_v7
  have main_call4_cst_2 : (⟨S_, .f32⟩ : BufTy).Contents (Elt F) := (constant S_ .f32 0x00000000#32)
  have main_call4_v9 : (⟨S512, .f32⟩ : BufTy).Contents (Elt F) := (fun x v => Host.reduceAdd x v reducesTo_S512x128_S512_d1 h_S_) main_call4_v6 main_call4_cst_2
  have main_call4_v10 : (⟨S512x1, .f32⟩ : BufTy).Contents (Elt F) := (broadcastInDim S512x1 ![0] bcast_S512_S512x1_0) main_call4_v9
  have main_call4_v11 : (⟨S512x1, .f32⟩ : BufTy).Contents (Elt F) := (broadcastInDim S512x1 ![] bcast_S_S512x1) main_call4_v8
  have main_call4_v12 : (⟨S512x1, .f32⟩ : BufTy).Contents (Elt F) := Host.divf main_call4_v10 main_call4_v11
  have main_call4_cst_3 : (⟨S_, .f32⟩ : BufTy).Contents (Elt F) := (constant S_ .f32 0x00000000#32)
  have main_call4_v13 : (⟨S_, .i1⟩ : BufTy).Contents (Elt F) := (cmpf .ogt) main_call4_v8 main_call4_cst_3
  have main_call4_cst_4 : (⟨S_, .f32⟩ : BufTy).Contents (Elt F) := (constant S_ .f32 0x7FC00000#32)
  have main_call4_call0_v0 : (⟨S_, .f32⟩ : BufTy).Contents (Elt F) := id main_call4_cst_4
  have main_call4_call0_v1 : (⟨S512x1, .f32⟩ : BufTy).Contents (Elt F) := (broadcastInDim S512x1 ![] bcast_S_S512x1) main_call4_call0_v0
  have main_v111 : (⟨S512x1, .f32⟩ : BufTy).Contents (Elt F) := (fun p a b => select (broadcastInDim S512x1 ![] bcast_S_S512x1 p) a b) main_call4_v13 main_call4_v12 main_call4_call0_v1
  have main_v112 := (broadcastInDim S512x128 ![0, 1] bcast_S512x1_S512x128_0_1 : (⟨S512x1, .f32⟩ : BufTy).Contents (Elt F) → (⟨S512x128, .f32⟩ : BufTy).Contents (Elt F)) main_v110
  have main_v113 := (subf : (⟨S512x128, .f32⟩ : BufTy).Contents (Elt F) → (⟨S512x128, .f32⟩ : BufTy).Contents (Elt F) → (⟨S512x128, .f32⟩ : BufTy).Contents (Elt F)) main_v106 main_v112
  have main_cst_26 : (⟨S_, .f32⟩ : BufTy).Contents (Elt F) := (constant S_ .f32 0x3727C5AC#32)
  have main_v114 := (broadcastInDim S512x1 ![] bcast_S_S512x1 : (⟨S_, .f32⟩ : BufTy).Contents (Elt F) → (⟨S512x1, .f32⟩ : BufTy).Contents (Elt F)) main_cst_26
  have main_v115 := (addf : (⟨S512x1, .f32⟩ : BufTy).Contents (Elt F) → (⟨S512x1, .f32⟩ : BufTy).Contents (Elt F) → (⟨S512x1, .f32⟩ : BufTy).Contents (Elt F)) main_v111 main_v114
  have main_v116 := (Host.rsqrt : (⟨S512x1, .f32⟩ : BufTy).Contents (Elt F) → (⟨S512x1, .f32⟩ : BufTy).Contents (Elt F)) main_v115
  have main_v117 := (broadcastInDim S512x128 ![0, 1] bcast_S512x1_S512x128_0_1 : (⟨S512x1, .f32⟩ : BufTy).Contents (Elt F) → (⟨S512x128, .f32⟩ : BufTy).Contents (Elt F)) main_v116
  have main_v118 := (mulf : (⟨S512x128, .f32⟩ : BufTy).Contents (Elt F) → (⟨S512x128, .f32⟩ : BufTy).Contents (Elt F) → (⟨S512x128, .f32⟩ : BufTy).Contents (Elt F)) main_v113 main_v117
  have main_v119 := (broadcastInDim S1x128 ![1] bcast_S128_S1x128_1 : (⟨S128, .f32⟩ : BufTy).Contents (Elt F) → (⟨S1x128, .f32⟩ : BufTy).Contents (Elt F)) main_arg11
  have main_v120 := (broadcastInDim S512x128 ![0, 1] bcast_S1x128_S512x128_0_1 : (⟨S1x128, .f32⟩ : BufTy).Contents (Elt F) → (⟨S512x128, .f32⟩ : BufTy).Contents (Elt F)) main_v119
  have main_v121 := (mulf : (⟨S512x128, .f32⟩ : BufTy).Contents (Elt F) → (⟨S512x128, .f32⟩ : BufTy).Contents (Elt F) → (⟨S512x128, .f32⟩ : BufTy).Contents (Elt F)) main_v118 main_v120
  have main_v122 := (broadcastInDim S1x128 ![1] bcast_S128_S1x128_1 : (⟨S128, .f32⟩ : BufTy).Contents (Elt F) → (⟨S1x128, .f32⟩ : BufTy).Contents (Elt F)) main_arg12
  have main_v123 := (broadcastInDim S512x128 ![0, 1] bcast_S1x128_S512x128_0_1 : (⟨S1x128, .f32⟩ : BufTy).Contents (Elt F) → (⟨S512x128, .f32⟩ : BufTy).Contents (Elt F)) main_v122
  have main_v124 := (addf : (⟨S512x128, .f32⟩ : BufTy).Contents (Elt F) → (⟨S512x128, .f32⟩ : BufTy).Contents (Elt F) → (⟨S512x128, .f32⟩ : BufTy).Contents (Elt F)) main_v121 main_v123
  have main_call5_cst : (⟨S_, .f32⟩ : BufTy).Contents (Elt F) := (constant S_ .f32 0x00000000#32)
  have main_call5_v0 : (⟨S512x128, .f32⟩ : BufTy).Contents (Elt F) := (broadcastInDim S512x128 ![] bcast_S_S512x128) main_call5_cst
  have main_v125 : (⟨S512x128, .f32⟩ : BufTy).Contents (Elt F) := maximumf main_v124 main_call5_v0
  main_v125

/-- The head's second block and output: affine and rectified, normalized along each row, scaled and shifted, then the output affine map. -/
def head2 (main_v125 : (⟨S512x128, .f32⟩ : BufTy).Contents (Elt F)) (main_arg13 : (⟨S128x128, .f32⟩ : BufTy).Contents (Elt F)) (main_arg14 : (⟨S128, .f32⟩ : BufTy).Contents (Elt F)) (main_arg15 : (⟨S128, .f32⟩ : BufTy).Contents (Elt F)) (main_arg16 : (⟨S128, .f32⟩ : BufTy).Contents (Elt F)) (main_arg17 : (⟨S128x128, .f32⟩ : BufTy).Contents (Elt F)) (main_arg18 : (⟨S128, .f32⟩ : BufTy).Contents (Elt F)) :=
  have main_v126 := ((fun l r => Host.dotGeneral dot_S512x128_S128x128_S512x128_1_0_0_1_n_n none l r) : (⟨S512x128, .f32⟩ : BufTy).Contents (Elt F) → (⟨S128x128, .f32⟩ : BufTy).Contents (Elt F) → (⟨S512x128, .f32⟩ : BufTy).Contents (Elt F)) main_v125 main_arg13
  have main_v127 := (broadcastInDim S1x128 ![1] bcast_S128_S1x128_1 : (⟨S128, .f32⟩ : BufTy).Contents (Elt F) → (⟨S1x128, .f32⟩ : BufTy).Contents (Elt F)) main_arg14
  have main_v128 := (broadcastInDim S512x128 ![0, 1] bcast_S1x128_S512x128_0_1 : (⟨S1x128, .f32⟩ : BufTy).Contents (Elt F) → (⟨S512x128, .f32⟩ : BufTy).Contents (Elt F)) main_v127
  have main_v129 := (addf : (⟨S512x128, .f32⟩ : BufTy).Contents (Elt F) → (⟨S512x128, .f32⟩ : BufTy).Contents (Elt F) → (⟨S512x128, .f32⟩ : BufTy).Contents (Elt F)) main_v126 main_v128
  have main_call6_cst : (⟨S_, .f32⟩ : BufTy).Contents (Elt F) := (constant S_ .f32 0x00000000#32)
  have main_call6_v0 : (⟨S512x128, .f32⟩ : BufTy).Contents (Elt F) := (broadcastInDim S512x128 ![] bcast_S_S512x128) main_call6_cst
  have main_v130 : (⟨S512x128, .f32⟩ : BufTy).Contents (Elt F) := maximumf main_v129 main_call6_v0
  have main_cst_27 : (⟨S_, .f32⟩ : BufTy).Contents (Elt F) := (constant S_ .f32 0x00000000#32)
  have main_v131 := ((fun x v => Host.reduceAdd x v reducesTo_S512x128_S512_d1 h_S_) : (⟨S512x128, .f32⟩ : BufTy).Contents (Elt F) → (⟨S_, .f32⟩ : BufTy).Contents (Elt F) → (⟨S512, .f32⟩ : BufTy).Contents (Elt F)) main_v130 main_cst_27
  have main_v132 := (broadcastInDim S512x1 ![0] bcast_S512_S512x1_0 : (⟨S512, .f32⟩ : BufTy).Contents (Elt F) → (⟨S512x1, .f32⟩ : BufTy).Contents (Elt F)) main_v131
  have main_cst_28 : (⟨S_, .f32⟩ : BufTy).Contents (Elt F) := (constant S_ .f32 0x43000000#32)
  have main_v133 := (broadcastInDim S512x1 ![] bcast_S_S512x1 : (⟨S_, .f32⟩ : BufTy).Contents (Elt F) → (⟨S512x1, .f32⟩ : BufTy).Contents (Elt F)) main_cst_28
  have main_v134 := (Host.divf : (⟨S512x1, .f32⟩ : BufTy).Contents (Elt F) → (⟨S512x1, .f32⟩ : BufTy).Contents (Elt F) → (⟨S512x1, .f32⟩ : BufTy).Contents (Elt F)) main_v132 main_v133
  have main_c_29 : (⟨S_, .i32⟩ : BufTy).Contents (Elt F) := (constantI S_ 32 0#32)
  have main_call7_cst : (⟨S_, .f32⟩ : BufTy).Contents (Elt F) := (constant S_ .f32 0x00000000#32)
  have main_call7_v0 : (⟨S512, .f32⟩ : BufTy).Contents (Elt F) := (fun x v => Host.reduceAdd x v reducesTo_S512x128_S512_d1 h_S_) main_v130 main_call7_cst
  have main_call7_v1 : (⟨S512x1, .f32⟩ : BufTy).Contents (Elt F) := (broadcastInDim S512x1 ![0] bcast_S512_S512x1_0) main_call7_v0
  have main_call7_cst_0 : (⟨S_, .f32⟩ : BufTy).Contents (Elt F) := (constant S_ .f32 0x43000000#32)
  have main_call7_v2 : (⟨S512x1, .f32⟩ : BufTy).Contents (Elt F) := (broadcastInDim S512x1 ![] bcast_S_S512x1) main_call7_cst_0
  have main_call7_v3 : (⟨S512x1, .f32⟩ : BufTy).Contents (Elt F) := Host.divf main_call7_v1 main_call7_v2
  have main_call7_v4 : (⟨S512x128, .f32⟩ : BufTy).Contents (Elt F) := (broadcastInDim S512x128 ![0, 1] bcast_S512x1_S512x128_0_1) main_call7_v3
  have main_call7_v5 : (⟨S512x128, .f32⟩ : BufTy).Contents (Elt F) := subf main_v130 main_call7_v4
  have main_call7_v6 : (⟨S512x128, .f32⟩ : BufTy).Contents (Elt F) := mulf main_call7_v5 main_call7_v5
  have main_call7_v7 : (⟨S_, .f32⟩ : BufTy).Contents (Elt F) := (sitofp .f32) main_c_29
  have main_call7_cst_1 : (⟨S_, .f32⟩ : BufTy).Contents (Elt F) := (constant S_ .f32 0x43000000#32)
  have main_call7_v8 : (⟨S_, .f32⟩ : BufTy).Contents (Elt F) := subf main_call7_cst_1 main_call7_v7
  have main_call7_cst_2 : (⟨S_, .f32⟩ : BufTy).Contents (Elt F) := (constant S_ .f32 0x00000000#32)
  have main_call7_v9 : (⟨S512, .f32⟩ : BufTy).Contents (Elt F) := (fun x v => Host.reduceAdd x v reducesTo_S512x128_S512_d1 h_S_) main_call7_v6 main_call7_cst_2
  have main_call7_v10 : (⟨S512x1, .f32⟩ : BufTy).Contents (Elt F) := (broadcastInDim S512x1 ![0] bcast_S512_S512x1_0) main_call7_v9
  have main_call7_v11 : (⟨S512x1, .f32⟩ : BufTy).Contents (Elt F) := (broadcastInDim S512x1 ![] bcast_S_S512x1) main_call7_v8
  have main_call7_v12 : (⟨S512x1, .f32⟩ : BufTy).Contents (Elt F) := Host.divf main_call7_v10 main_call7_v11
  have main_call7_cst_3 : (⟨S_, .f32⟩ : BufTy).Contents (Elt F) := (constant S_ .f32 0x00000000#32)
  have main_call7_v13 : (⟨S_, .i1⟩ : BufTy).Contents (Elt F) := (cmpf .ogt) main_call7_v8 main_call7_cst_3
  have main_call7_cst_4 : (⟨S_, .f32⟩ : BufTy).Contents (Elt F) := (constant S_ .f32 0x7FC00000#32)
  have main_call7_call0_v0 : (⟨S_, .f32⟩ : BufTy).Contents (Elt F) := id main_call7_cst_4
  have main_call7_call0_v1 : (⟨S512x1, .f32⟩ : BufTy).Contents (Elt F) := (broadcastInDim S512x1 ![] bcast_S_S512x1) main_call7_call0_v0
  have main_v135 : (⟨S512x1, .f32⟩ : BufTy).Contents (Elt F) := (fun p a b => select (broadcastInDim S512x1 ![] bcast_S_S512x1 p) a b) main_call7_v13 main_call7_v12 main_call7_call0_v1
  have main_v136 := (broadcastInDim S512x128 ![0, 1] bcast_S512x1_S512x128_0_1 : (⟨S512x1, .f32⟩ : BufTy).Contents (Elt F) → (⟨S512x128, .f32⟩ : BufTy).Contents (Elt F)) main_v134
  have main_v137 := (subf : (⟨S512x128, .f32⟩ : BufTy).Contents (Elt F) → (⟨S512x128, .f32⟩ : BufTy).Contents (Elt F) → (⟨S512x128, .f32⟩ : BufTy).Contents (Elt F)) main_v130 main_v136
  have main_cst_30 : (⟨S_, .f32⟩ : BufTy).Contents (Elt F) := (constant S_ .f32 0x3727C5AC#32)
  have main_v138 := (broadcastInDim S512x1 ![] bcast_S_S512x1 : (⟨S_, .f32⟩ : BufTy).Contents (Elt F) → (⟨S512x1, .f32⟩ : BufTy).Contents (Elt F)) main_cst_30
  have main_v139 := (addf : (⟨S512x1, .f32⟩ : BufTy).Contents (Elt F) → (⟨S512x1, .f32⟩ : BufTy).Contents (Elt F) → (⟨S512x1, .f32⟩ : BufTy).Contents (Elt F)) main_v135 main_v138
  have main_v140 := (Host.rsqrt : (⟨S512x1, .f32⟩ : BufTy).Contents (Elt F) → (⟨S512x1, .f32⟩ : BufTy).Contents (Elt F)) main_v139
  have main_v141 := (broadcastInDim S512x128 ![0, 1] bcast_S512x1_S512x128_0_1 : (⟨S512x1, .f32⟩ : BufTy).Contents (Elt F) → (⟨S512x128, .f32⟩ : BufTy).Contents (Elt F)) main_v140
  have main_v142 := (mulf : (⟨S512x128, .f32⟩ : BufTy).Contents (Elt F) → (⟨S512x128, .f32⟩ : BufTy).Contents (Elt F) → (⟨S512x128, .f32⟩ : BufTy).Contents (Elt F)) main_v137 main_v141
  have main_v143 := (broadcastInDim S1x128 ![1] bcast_S128_S1x128_1 : (⟨S128, .f32⟩ : BufTy).Contents (Elt F) → (⟨S1x128, .f32⟩ : BufTy).Contents (Elt F)) main_arg15
  have main_v144 := (broadcastInDim S512x128 ![0, 1] bcast_S1x128_S512x128_0_1 : (⟨S1x128, .f32⟩ : BufTy).Contents (Elt F) → (⟨S512x128, .f32⟩ : BufTy).Contents (Elt F)) main_v143
  have main_v145 := (mulf : (⟨S512x128, .f32⟩ : BufTy).Contents (Elt F) → (⟨S512x128, .f32⟩ : BufTy).Contents (Elt F) → (⟨S512x128, .f32⟩ : BufTy).Contents (Elt F)) main_v142 main_v144
  have main_v146 := (broadcastInDim S1x128 ![1] bcast_S128_S1x128_1 : (⟨S128, .f32⟩ : BufTy).Contents (Elt F) → (⟨S1x128, .f32⟩ : BufTy).Contents (Elt F)) main_arg16
  have main_v147 := (broadcastInDim S512x128 ![0, 1] bcast_S1x128_S512x128_0_1 : (⟨S1x128, .f32⟩ : BufTy).Contents (Elt F) → (⟨S512x128, .f32⟩ : BufTy).Contents (Elt F)) main_v146
  have main_v148 := (addf : (⟨S512x128, .f32⟩ : BufTy).Contents (Elt F) → (⟨S512x128, .f32⟩ : BufTy).Contents (Elt F) → (⟨S512x128, .f32⟩ : BufTy).Contents (Elt F)) main_v145 main_v147
  have main_v149 := ((fun l r => Host.dotGeneral dot_S512x128_S128x128_S512x128_1_0_0_1_n_n none l r) : (⟨S512x128, .f32⟩ : BufTy).Contents (Elt F) → (⟨S128x128, .f32⟩ : BufTy).Contents (Elt F) → (⟨S512x128, .f32⟩ : BufTy).Contents (Elt F)) main_v148 main_arg17
  have main_v150 := (broadcastInDim S1x128 ![1] bcast_S128_S1x128_1 : (⟨S128, .f32⟩ : BufTy).Contents (Elt F) → (⟨S1x128, .f32⟩ : BufTy).Contents (Elt F)) main_arg18
  have main_v151 := (broadcastInDim S512x128 ![0, 1] bcast_S1x128_S512x128_0_1 : (⟨S1x128, .f32⟩ : BufTy).Contents (Elt F) → (⟨S512x128, .f32⟩ : BufTy).Contents (Elt F)) main_v150
  have main_v152 := (addf : (⟨S512x128, .f32⟩ : BufTy).Contents (Elt F) → (⟨S512x128, .f32⟩ : BufTy).Contents (Elt F) → (⟨S512x128, .f32⟩ : BufTy).Contents (Elt F)) main_v149 main_v151
  main_v152

end Cert.ReferenceIdeal.Spec

end
-- ==== Proof.LibDotIdx.lean ====
import Idealize.ShloMosaic.Lib.ValueIdx
import Idealize.ShloMosaic.PureOps.Ideal.Laws

/-!
# A matrix product into a zero accumulator, read at an index

Two arrangements of a rank-2 product with one contracted axis, at the exact extended reals: the plain one
(rows of the left operand against columns of the right) and the one that contracts the second axis of BOTH
operands (rows against rows).  Read at `(a, b)`, each is the sum over the contracted coordinate of the products
of the two entries; the zero accumulator contributes nothing.
-/

noncomputable section

namespace DotIdx

open Idealize.ShloMosaic Idealize.ShloMosaic.ValueIdx

variable {m k n : ℕ} {φ₁ φ₂ : FTy}

/-- Rows against columns: `[m, k] × [k, n] → [m, n]`. -/
theorem matmul_plain_zero_apply
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (⟨[1], [0], [0], [1], [], [], w⟩ : DotDims _ _ _) prec A B
        (constant ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- Rows against rows: `[m, k] × [n, k] → [m, n]`, the second axis of both operands contracted. -/
theorem matmul_rows_zero_apply
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂)
    (a : Fin m) (b : Fin n) :
    matmul (⟨[1], [1], [0], [0], [], [], w⟩ : DotDims _ _ _) prec A B
        (constant ⟨2, ![m, n]⟩ .f32 0x00000000#32) (ix2 a b)
      = ∑ c : Fin k, A (ix2 a c) * B (ix2 b c) := by
  show FloatOps.matmul _ prec A B _ (ix2 a b) = _
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end DotIdx

end
-- ==== Proof.LibKeepdims.lean ====
/-
  The small readings the kernel's body needs at an index: the two keepdims layout forms (a column
  of row results cast to one column, and one column broadcast along the rows), the result index of a
  reduction along the rows with the reduced coordinate put back, a one-bit comparison word widened to
  32 bits and converted to a float as `0` or `1`, the word arithmetic of a row offset below 8192, and
  a fold of `max` from minus infinity as a supremum.
-/
import Idealize.ShloMosaic.Lib.ValueIdx
import Idealize.ShloMosaic.Lib.Pipeline.Value
import Idealize.ShloMosaic.Lib.ValueLayout
import Idealize.ShloMosaic.Lib.Affine
import Idealize.ShloMosaic.PureOps.Ideal.Laws

noncomputable section

namespace Cert.SupCon.Ker

open Idealize.ShloMosaic Idealize.ShloMosaic.ValueIdx

/-! ## The keepdims layout forms -/

/-- A vector `[a]` cast to one column `[a, 1]` reads, at `(i, 0)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- One column `[a, 1]` broadcast along the rows to `[a, b]` reads, at `(p, c)`, the operand at `(p, 0)`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index of a `[a, b]` array that reduces along the rows into `i`, with column `k`, is `(i, k)`. -/
theorem lift_rows {a b : ℕ} (h : (⟨2, ![a, b]⟩ : Shape).Reduces [1] ⟨1, ![a]⟩) (i : Fin a) (k : Fin b) :
    h.lift (ix1 i) k = ix2 i k :=
  funext fun ax => Fin.ext (by
    match ax with
    | ⟨0, _⟩ => rfl
    | ⟨1, _⟩ => rfl)

/-! ## A comparison word as a float -/

/-- A one-bit word widened to 32 bits and converted as a signed integer is `1` or `0`. -/
theorem sitofp_setWidth (b : BitVec 1) :
    FloatOps.sitofp (F := Ideal) .f32 (b.setWidth 32) = if b = 1#1 then (1 : EReal) else 0 := by
  have e0 : ((0#1 : BitVec 1).setWidth 32).toInt = 0 := by decide
  have e1 : ((1#1 : BitVec 1).setWidth 32).toInt = 1 := by decide
  rcases (by decide : ∀ b : BitVec 1, b = 0#1 ∨ b = 1#1) b with rfl | rfl
  · show (((((0#1 : BitVec 1).setWidth 32).toInt : ℤ) : ℝ) : EReal) = _
    rw [e0, if_neg (by decide)]; simp
  · show (((((1#1 : BitVec 1).setWidth 32).toInt : ℤ) : ℝ) : EReal) = _
    rw [e1, if_pos rfl]; simp

/-- The float of an equality comparison of two words. -/
theorem mask_eq {w : ℕ} (x y : BitVec w) :
    FloatOps.sitofp (F := Ideal) .f32 ((IntOp.cmpi .eq x y).setWidth 32) = if x = y then (1 : EReal) else 0 := by
  rw [sitofp_setWidth]
  exact if_congr IntOp.cmpi_eq rfl rfl

/-- The float of an inequality comparison of two words. -/
theorem mask_ne {w : ℕ} (x y : BitVec w) :
    FloatOps.sitofp (F := Ideal) .f32 ((IntOp.cmpi .ne x y).setWidth 32) = if x = y then (0 : EReal) else 1 := by
  rw [sitofp_setWidth]
  by_cases hxy : x = y
  · rw [if_pos hxy, if_neg (fun h => (IntOp.cmpi_ne.mp h) hxy)]
  · rw [if_neg hxy, if_pos (IntOp.cmpi_ne.mpr hxy)]

/-- Row `128 t + r` as 32-bit words, the block's offset `t * 128` a product of words, meets column `j`
    exactly when the two numbers are equal: nothing wraps below 8192. -/
theorem row_word_eq (t r j : ℕ) (ht : t < 64) (hr : r < 128) (hj : j < 8192) :
    IntOp.addi (Scalar.muli (BitVec.ofNat 32 t) 128#32) (BitVec.ofNat 32 r) = BitVec.ofNat 32 j ↔ 128 * t + r = j := by
  show BitVec.ofNat 32 t * 128#32 + BitVec.ofNat 32 r = BitVec.ofNat 32 j ↔ _
  rw [← BitVec.toNat_inj]
  simp only [BitVec.toNat_add, BitVec.toNat_mul, BitVec.toNat_ofNat]
  omega

/-! ## The largest entry of a row -/

/-- The single-precision word `0xFF800000` is minus infinity. -/
theorem ofBits_negInf : Ideal.ofBits .f32 0xFF800000#32 = ⊥ := by simp [Ideal.ofBits, Ideal.ieee]

/-- A fold of `max` from minus infinity is the supremum. -/
theorem fold_max_bot {ι : Type*} (s : Finset ι) (f : ι → EReal) : s.fold max ⊥ f = s.sup f := rfl

end Cert.SupCon.Ker

end
-- ==== Proof.LibRowOps.lean ====
/-
  Rank-2 arrays read row by row at the exact extended reals, in the two spellings a kernel body and a host program
  give each form: a bias vector laid along every row; a column of per-row results laid along every column; the maximum
  and the sum of a row; the host's plain matrix product as a sum over the contracted coordinate. Each lemma reads the
  form at an index `(p, q)` and says which entries of the operand it depends on.
-/
import Idealize.ShloMosaic.Lib.ValueIdx
import Idealize.ShloMosaic.Lib.Pipeline.Value
import Idealize.ShloMosaic.Lib.KernelVsHost
import Idealize.ShloMosaic.PureOps.Ideal.Laws
import proofs.«127112_j63660005261872_1_alg».proof.Proof.LibDotIdx
import proofs.«127112_j63660005261872_1_alg».proof.Proof.LibKeepdims

noncomputable section

namespace Cert.LibRowOps

open Idealize.ShloMosaic Idealize.ShloMosaic.ValueIdx

variable {α : Type}

/-! ## A vector laid along every row -/

/-- The kernel's spelling: the vector cast to one row, the row broadcast down `m` rows. At `(p, q)` it is entry `q`. -/
theorem rowVec_kernel_apply {m n : Nat} (x : (⟨1, ![n]⟩ : Shape).Idx → α)
    (h1 : (⟨1, ![n]⟩ : Shape).ShapeCasts ⟨2, ![1, n]⟩) (hb : (⟨2, ![1, n]⟩ : Shape).Broadcasts ⟨2, ![m, n]⟩)
    (p : Fin m) (q : Fin n) :
    broadcastTo ⟨2, ![m, n]⟩ (shapeCast ⟨2, ![1, n]⟩ x h1) hb (ix2 p q) = x (ix1 q) := by
  have e1 := broadcastTo_apply (shapeCast ⟨2, ![1, n]⟩ x h1) hb (ix2 p q) (ix2 (0 : Fin 1) q) (by
    intro a
    match a with
    | ⟨0, _⟩ => rfl
    | ⟨1, _⟩ =>
      show q.val = if n = 1 then 0 else q.val
      split
      · have e : q.val < n := q.isLt; omega
      · rfl)
  have e2 := shapeCast_apply x h1 (ix2 (0 : Fin 1) q) (ix1 q) (by
    rw [Shape.rowMajor_val_two, Shape.rowMajor_val_one]; show q.val = 0 * n + q.val; omega)
  exact e1.trans e2

/-- The host's spelling: the vector broadcast along axis 1 to one row, the row broadcast along both axes. At `(p, q)`
    it is entry `q`. -/
theorem rowVec_host_apply {m n : Nat} (x : (⟨1, ![n]⟩ : Shape).Idx → α)
    (hd1 : (⟨1, ![n]⟩ : Shape).BroadcastsInDim ⟨2, ![1, n]⟩ ![1])
    (hd : (⟨2, ![1, n]⟩ : Shape).BroadcastsInDim ⟨2, ![m, n]⟩ ![0, 1]) (p : Fin m) (q : Fin n) :
    broadcastInDim ⟨2, ![m, n]⟩ ![0, 1] hd (broadcastInDim ⟨2, ![1, n]⟩ ![1] hd1 x) (ix2 p q) = x (ix1 q) := by
  rw [broadcastInDim_oneRow_apply]
  refine broadcastInDim_apply ![1] hd1 x (ix2 (0 : Fin 1) q) (ix1 q) ?_
  intro a
  match a with
  | ⟨0, _⟩ =>
    show q.val = if n = 1 then 0 else q.val
    split
    · have e : q.val < n := q.isLt; omega
    · rfl

/-! ## A column of per-row results laid along every column -/

/-- The kernel's spelling: the vector of row results cast to one column, the column broadcast along the rows. At
    `(p, q)` it is entry `p`. -/
theorem colVec_kernel_apply {a b : Nat} (v : (⟨1, ![a]⟩ : Shape).Idx → α)
    (h1 : (⟨1, ![a]⟩ : Shape).ShapeCasts ⟨2, ![a, 1]⟩) (hb : (⟨2, ![a, 1]⟩ : Shape).Broadcasts ⟨2, ![a, b]⟩)
    (p : Fin a) (q : Fin b) :
    broadcastTo ⟨2, ![a, b]⟩ (shapeCast ⟨2, ![a, 1]⟩ v h1) hb (ix2 p q) = v (ix1 p) := by
  rw [Cert.SupCon.Ker.broadcastTo_a1_ab_apply, Cert.SupCon.Ker.shapeCast_a_a1_apply]

/-- The host's column laid along the columns: one column broadcast along both axes reads, at `(p, q)`, its entry `(p, 0)`. -/
theorem colBcast_host_apply {a b : Nat} (y : (⟨2, ![a, 1]⟩ : Shape).Idx → α)
    (hd : (⟨2, ![a, 1]⟩ : Shape).BroadcastsInDim ⟨2, ![a, b]⟩ ![0, 1]) (p : Fin a) (q : Fin b) :
    broadcastInDim ⟨2, ![a, b]⟩ ![0, 1] hd y (ix2 p q) = y (ix2 p (0 : Fin 1)) :=
  broadcastInDim_apply ![0, 1] hd y (ix2 p q) (ix2 p (0 : Fin 1)) (by
    intro ax
    match ax with
    | ⟨0, _⟩ =>
      show p.val = if a = 1 then 0 else p.val
      split
      · have e : p.val < a := p.isLt; omega
      · rfl
    | ⟨1, _⟩ => rfl)

/-- The host's vector as one column: broadcast along axis 0 it reads, at `(p, 0)`, entry `p`. -/
theorem col1_host_apply {a : Nat} (v : (⟨1, ![a]⟩ : Shape).Idx → α)
    (hd0 : (⟨1, ![a]⟩ : Shape).BroadcastsInDim ⟨2, ![a, 1]⟩ ![0]) (p : Fin a) :
    broadcastInDim ⟨2, ![a, 1]⟩ ![0] hd0 v (ix2 p (0 : Fin 1)) = v (ix1 p) :=
  broadcastInDim_apply ![0] hd0 v (ix2 p (0 : Fin 1)) (ix1 p) (by
    intro ax
    match ax with
    | ⟨0, _⟩ =>
      show p.val = if a = 1 then 0 else p.val
      split
      · have e : p.val < a := p.isLt; omega
      · rfl)

/-- The host's spelling: the vector broadcast along axis 0 to one column, the column broadcast along both axes. At
    `(p, q)` it is entry `p`. -/
theorem colVec_host_apply {a b : Nat} (v : (⟨1, ![a]⟩ : Shape).Idx → α)
    (hd0 : (⟨1, ![a]⟩ : Shape).BroadcastsInDim ⟨2, ![a, 1]⟩ ![0])
    (hd : (⟨2, ![a, 1]⟩ : Shape).BroadcastsInDim ⟨2, ![a, b]⟩ ![0, 1]) (p : Fin a) (q : Fin b) :
    broadcastInDim ⟨2, ![a, b]⟩ ![0, 1] hd (broadcastInDim ⟨2, ![a, 1]⟩ ![0] hd0 v) (ix2 p q) = v (ix1 p) := by
  rw [colBcast_host_apply, col1_host_apply]

/-! ## The pointwise transcendentals at an index -/

theorem hostLog_apply {s : Shape} {φ : FTy} (x : FVec Ideal s φ) (i : s.Idx) : Host.log x i = Ideal.log (x i) := rfl
theorem hostExp_apply {s : Shape} {φ : FTy} (x : FVec Ideal s φ) (i : s.Idx) : Host.exp x i = Ideal.exp (x i) := rfl
theorem log_apply {s : Shape} {φ : FTy} (x : FVec Ideal s φ) (i : s.Idx) : log x i = Ideal.log (x i) := rfl
theorem exp_apply {s : Shape} {φ : FTy} (x : FVec Ideal s φ) (i : s.Idx) : exp x i = Ideal.exp (x i) := rfl

/-! ## The maximum and the sum of a row -/

/-- The kernel's maximum along the rows, at row `p`: the fold of `max` from the accumulator's value over the row. -/
theorem rowMax_kernel_apply {a b : Nat} {φ : FTy} (src : FVec Ideal ⟨2, ![a, b]⟩ φ) (acc : BitVec φ.bits)
    (h : (⟨2, ![a, b]⟩ : Shape).Reduces [1] ⟨1, ![a]⟩) (hφ : FKind.Formats φ)
    (hacc : acc = FKind.maximumf.neutral φ hφ) (p : Fin a) :
    multiReduction .maximumf [1] ⟨1, ![a]⟩ src acc h hφ hacc (ix1 p)
      = (Finset.univ : Finset (Fin b)).fold max (FloatOps.ofBits φ acc) (fun k => src (ix2 p k)) := by
  rw [Ideal.multiReduction_maximumf_single]
  have hf : (src ∘ h.lift (ix1 p)) = fun k : Fin b => src (ix2 p k) :=
    funext fun k => congrArg src (Cert.SupCon.Ker.lift_rows h p k)
  exact congrArg (fun f => Finset.fold max (FloatOps.ofBits φ acc) f (Finset.univ : Finset (Fin b))) hf

/-- The host's maximum along the rows, at row `p`: the fold of `max` from the initial value over the row. -/
theorem rowMax_host_apply {a b : Nat} {φ : FTy} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduce FloatOps.maximumf x init h' hu (ix1 p)
      = (Finset.univ : Finset (Fin b)).fold max (init (Shape.Idx.first hu)) (fun k => x (ix2 p k)) := by
  rw [Host.reduce_eq_fold_single FloatOps.maximumf x init h' h hu]
  have hf : (x ∘ h.lift (ix1 p)) = fun k : Fin b => x (ix2 p k) :=
    funext fun k => congrArg x (Cert.SupCon.Ker.lift_rows h p k)
  exact congrArg (fun f => Finset.fold max (init (Shape.Idx.first hu)) f (Finset.univ : Finset (Fin b))) hf

/-- The kernel's sum along the rows, at row `p`: the sum of the row (the neutral accumulator adds nothing). -/
theorem rowSum_kernel_apply {a b : Nat} {φ : FTy} (src : FVec Ideal ⟨2, ![a, b]⟩ φ) (acc : BitVec φ.bits)
    (h : (⟨2, ![a, b]⟩ : Shape).Reduces [1] ⟨1, ![a]⟩) (hφ : FKind.Formats φ)
    (hacc : acc = FKind.add.neutral φ hφ) (p : Fin a) :
    multiReduction .add [1] ⟨1, ![a]⟩ src acc h hφ hacc (ix1 p) = ∑ k : Fin b, src (ix2 p k) := by
  rw [Ideal.multiReduction_add_single]
  exact Finset.sum_congr rfl fun k _ => congrArg src (Cert.SupCon.Ker.lift_rows h p k)

/-- The host's sum along the rows, at row `p`: the initial value plus the sum of the row. -/
theorem rowSum_host_apply {a b : Nat} {φ : FTy} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduceAdd x init h' hu (ix1 p) = init (Shape.Idx.first hu) + ∑ k : Fin b, x (ix2 p k) := by
  show Ideal.hostReduceAdd h' x (init (Shape.Idx.first hu)) (ix1 p) = _
  rw [Ideal.hostReduceAdd_single h' h]
  exact congrArg (_ + ·) (Finset.sum_congr rfl fun k _ => congrArg x (Cert.SupCon.Ker.lift_rows h p k))

/-! ## The host's plain matrix product -/

/-- Rows against columns on the host, `[m, k] × [k, n] → [m, n]`: at `(a, b)` the sum over the contracted coordinate
    of the products of the two entries. -/
theorem dotGeneral_plain_apply {m k n : Nat} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    Host.dotGeneral (⟨[1], [0], [0], [1], [], [], w⟩ : DotDims _ _ _) prec A B (ix2 a b)
      = ∑ c : Fin k, A (ix2 a c) * B (ix2 c b) :=
  (congrFun (matmul_zero_eq_dotGeneral (⟨[1], [0], [0], [1], [], [], w⟩ : DotDims _ _ _) prec A B) (ix2 a b)).symm.trans
    (DotIdx.matmul_plain_zero_apply w prec A B a b)

end Cert.LibRowOps

end
-- ==== Proof.LibNorm.lean ====
/-
  Rank-2 arrays normalized row by row, at the exact extended reals: the layout forms a row-wise normalization uses,
  each as ONE function of its operand that both a kernel body's spelling and a host program's spelling equal — a
  vector laid along every row; a vector of per-row results as one column; a column laid along every column of its
  row; the sums of the rows. Two programs that normalize rows with these forms then compute, form by form, the same
  arrays.
-/
import Idealize.ShloMosaic.Lib.ValueIdx
import Idealize.ShloMosaic.Lib.Pipeline.Value
import Idealize.ShloMosaic.Lib.KernelVsHost
import Idealize.ShloMosaic.PureOps.Ideal.Laws
import proofs.«127112_j63660005261872_1_alg».proof.Proof.LibRowOps

noncomputable section

namespace Cert.LibNorm

open Idealize.ShloMosaic Idealize.ShloMosaic.ValueIdx

variable {α : Type}

/-! ## A vector laid along every row -/

/-- Entry `(p, q)` is entry `q` of the vector. -/
def rowLaid (m : Nat) {n : Nat} (x : (⟨1, ![n]⟩ : Shape).Idx → α) : (⟨2, ![m, n]⟩ : Shape).Idx → α :=
  fun i => x (ix1 (i 1 : Fin n))

theorem rowLaid_kernel {m n : Nat} (x : (⟨1, ![n]⟩ : Shape).Idx → α)
    (h1 : (⟨1, ![n]⟩ : Shape).ShapeCasts ⟨2, ![1, n]⟩) (hb : (⟨2, ![1, n]⟩ : Shape).Broadcasts ⟨2, ![m, n]⟩) :
    broadcastTo ⟨2, ![m, n]⟩ (shapeCast ⟨2, ![1, n]⟩ x h1) hb = rowLaid m x := by
  funext i
  obtain ⟨p, q, rfl⟩ : ∃ (p : Fin m) (q : Fin n), i = ix2 p q := ⟨i 0, i 1, eq_ix2 i⟩
  exact Cert.LibRowOps.rowVec_kernel_apply x h1 hb p q

theorem rowLaid_host {m n : Nat} (x : (⟨1, ![n]⟩ : Shape).Idx → α)
    (hd1 : (⟨1, ![n]⟩ : Shape).BroadcastsInDim ⟨2, ![1, n]⟩ ![1])
    (hd : (⟨2, ![1, n]⟩ : Shape).BroadcastsInDim ⟨2, ![m, n]⟩ ![0, 1]) :
    broadcastInDim ⟨2, ![m, n]⟩ ![0, 1] hd (broadcastInDim ⟨2, ![1, n]⟩ ![1] hd1 x) = rowLaid m x := by
  funext i
  obtain ⟨p, q, rfl⟩ : ∃ (p : Fin m) (q : Fin n), i = ix2 p q := ⟨i 0, i 1, eq_ix2 i⟩
  exact Cert.LibRowOps.rowVec_host_apply x hd1 hd p q

/-! ## Per-row results as one column, and a column laid along the columns -/

/-- Entry `(p, 0)` is entry `p` of the vector. -/
def colOf {a : Nat} (v : (⟨1, ![a]⟩ : Shape).Idx → α) : (⟨2, ![a, 1]⟩ : Shape).Idx → α :=
  fun i => v (ix1 (i 0 : Fin a))

theorem colOf_kernel {a : Nat} (v : (⟨1, ![a]⟩ : Shape).Idx → α)
    (h1 : (⟨1, ![a]⟩ : Shape).ShapeCasts ⟨2, ![a, 1]⟩) : shapeCast ⟨2, ![a, 1]⟩ v h1 = colOf v := by
  funext i
  obtain ⟨p, u, rfl⟩ : ∃ (p : Fin a) (u : Fin 1), i = ix2 p u := ⟨i 0, i 1, eq_ix2 i⟩
  exact Cert.SupCon.Ker.shapeCast_a_a1_apply v h1 p u

theorem colOf_host {a : Nat} (v : (⟨1, ![a]⟩ : Shape).Idx → α)
    (hd0 : (⟨1, ![a]⟩ : Shape).BroadcastsInDim ⟨2, ![a, 1]⟩ ![0]) : broadcastInDim ⟨2, ![a, 1]⟩ ![0] hd0 v = colOf v := by
  funext i
  obtain ⟨p, u, rfl⟩ : ∃ (p : Fin a) (u : Fin 1), i = ix2 p u := ⟨i 0, i 1, eq_ix2 i⟩
  obtain rfl : u = 0 := Subsingleton.elim _ _
  exact Cert.LibRowOps.col1_host_apply v hd0 p

/-- Entry `(p, q)` is the column's entry `(p, 0)`. -/
def colLaid (b : Nat) {a : Nat} (y : (⟨2, ![a, 1]⟩ : Shape).Idx → α) : (⟨2, ![a, b]⟩ : Shape).Idx → α :=
  fun i => y (ix2 (i 0 : Fin a) (0 : Fin 1))

theorem colLaid_kernel {a b : Nat} (y : (⟨2, ![a, 1]⟩ : Shape).Idx → α)
    (hb : (⟨2, ![a, 1]⟩ : Shape).Broadcasts ⟨2, ![a, b]⟩) : broadcastTo ⟨2, ![a, b]⟩ y hb = colLaid b y := by
  funext i
  obtain ⟨p, q, rfl⟩ : ∃ (p : Fin a) (q : Fin b), i = ix2 p q := ⟨i 0, i 1, eq_ix2 i⟩
  exact Cert.SupCon.Ker.broadcastTo_a1_ab_apply y hb p q

theorem colLaid_host {a b : Nat} (y : (⟨2, ![a, 1]⟩ : Shape).Idx → α)
    (hd : (⟨2, ![a, 1]⟩ : Shape).BroadcastsInDim ⟨2, ![a, b]⟩ ![0, 1]) :
    broadcastInDim ⟨2, ![a, b]⟩ ![0, 1] hd y = colLaid b y := by
  funext i
  obtain ⟨p, q, rfl⟩ : ∃ (p : Fin a) (q : Fin b), i = ix2 p q := ⟨i 0, i 1, eq_ix2 i⟩
  exact Cert.LibRowOps.colBcast_host_apply y hd p q

/-! ## The sums of the rows -/

/-- Entry `p` is the sum of row `p`. -/
def rowSum {a b : Nat} (X : (⟨2, ![a, b]⟩ : Shape).Idx → EReal) : (⟨1, ![a]⟩ : Shape).Idx → EReal :=
  fun i => ∑ k : Fin b, X (ix2 (i 0 : Fin a) k)

theorem rowSum_kernel {a b : Nat} {φ : FTy} (X : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) :
    multiReduction .add [1] ⟨1, ![a]⟩ X acc h hφ hacc = rowSum X := by
  funext i
  obtain ⟨p, rfl⟩ : ∃ p : Fin a, i = ix1 p := ⟨i 0, eq_ix1 i⟩
  exact Cert.LibRowOps.rowSum_kernel_apply X acc h hφ hacc p

/-- The host's sum from an initial value that is zero. -/
theorem rowSum_host {a b : Nat} {φ : FTy} {u : Shape} (X : FVec Ideal ⟨2, ![a, b]⟩ φ) (init : u.Idx → Ideal φ)
    (h' : (⟨2, ![a, b]⟩ : Shape).ReducesTo [1] ⟨1, ![a]⟩) (hu : 0 < u.numel)
    (h : (⟨2, ![a, b]⟩ : Shape).Reduces [1] ⟨1, ![a]⟩) (h0 : init (Shape.Idx.first hu) = 0) :
    Host.reduceAdd X init h' hu = rowSum X := by
  funext i
  obtain ⟨p, rfl⟩ : ∃ p : Fin a, i = ix1 p := ⟨i 0, eq_ix1 i⟩
  rw [Cert.LibRowOps.rowSum_host_apply X init h' h hu p, h0, zero_add]
  rfl

end Cert.LibNorm

end
-- ==== Proof.HeadAlg.lean ====
/-
  The dense head, at the exact extended reals: the kernel body's value (two products of the pooled rows and of the
  embedding rows against the upper and lower rows of the combining weights, summed; bias; row normalization; scale,
  shift, rectifier; affine, rectifier, row normalization, scale, shift; affine) is the reference's (one product of the
  two arrays laid side by side against the whole combining weights, then the same steps in the host's spelling).
  Every step but the first is the same function in two spellings; the first is the sum over 192 contracted columns
  split at column 128. The reference's variance divides by 128 − 0 and keeps the quotient where 128 − 0 > 0: always.
-/
import proofs.«127112_j63660005261872_1_alg».proof.Proof.Gen.KernelIdeal.Frame
import proofs.«127112_j63660005261872_1_alg».proof.Proof.RefSpec
import proofs.«127112_j63660005261872_1_alg».proof.Proof.LibNorm

set_option maxRecDepth 16384

noncomputable section

namespace Cert.HeadAlg

open Idealize.ShloMosaic Idealize.ShloMosaic.ValueIdx Cert.LibNorm

/-! ## Spellings that are one function at the extended reals -/

theorem truncf_id {s : Shape} {φ ψ : FTy} (a : FVec Ideal s φ) (h : ψ.bits < φ.bits) :
    (truncf ψ a h : FVec Ideal s ψ) = a := rfl

theorem hostDivf_eq {s : Shape} {φ : FTy} (a b : FVec Ideal s φ) : Host.divf a b = divf a b := rfl
theorem hostRsqrt_eq {s : Shape} {φ : FTy} (a : FVec Ideal s φ) : Host.rsqrt a = rsqrt a := rfl

/-- The word of `128.0` is the real 128. -/
theorem ofBits_128 : Ideal.ofBits .f32 0x43000000#32 = ((128 : ℝ) : EReal) := by
  simp [Ideal.ofBits, Ideal.ieee, -EReal.coe_mul]; norm_num

/-- A constant minus the float of the integer zero is the constant. -/
theorem sub_sitofp_zero {s : Shape} (w : BitVec 32) :
    subf (constant (F := Ideal) s .f32 w) (sitofp .f32 (constantI s 32 0#32)) = constant s .f32 w := by
  funext j
  show Ideal.ofBits .f32 w - (Scalar.sitofp .f32 (0#32) : Ideal .f32) = Ideal.ofBits .f32 w
  rw [sitofp_zero, sub_zero]

/-- `128 > 0` holds, so a selection on it keeps its first array. -/
theorem select_128_pos {t : Shape} {α : Type} (h : (⟨0, ![]⟩ : Shape).BroadcastsInDim t ![]) (A B : t.Idx → α) :
    select (broadcastInDim t ![] h (cmpf .ogt (constant (F := Ideal) ⟨0, ![]⟩ .f32 0x43000000#32) (constant ⟨0, ![]⟩ .f32 0x00000000#32))) A B = A := by
  funext i
  rw [select_apply]
  have e : (broadcastInDim t ![] h (cmpf .ogt (constant (F := Ideal) ⟨0, ![]⟩ .f32 0x43000000#32) (constant ⟨0, ![]⟩ .f32 0x00000000#32))) i = 1#1 := by
    show Ideal.cmp .ogt (Ideal.ofBits .f32 0x43000000#32) (Ideal.ofBits .f32 0x00000000#32) = 1#1
    rw [ofBits_128, Ideal.ofBits_zero_f32]
    simp [Ideal.cmp]
  rw [e, select_one]

variable [Cert.KernelIdeal.Facts] [Cert.ReferenceIdeal.Facts]

/-- The kernel's sums of the rows of a 512 × 128 array. -/
theorem rowSumK (X : FVec Ideal Cert.KernelIdeal.S512x128 .f32)
    (h : Cert.KernelIdeal.S512x128.Reduces [1] Cert.KernelIdeal.S512) (hφ : FKind.Formats .f32)
    (hacc : (0x00000000#32 : BitVec FTy.f32.bits) = FKind.add.neutral .f32 hφ) :
    multiReduction .add [1] Cert.KernelIdeal.S512 X 0x00000000#32 h hφ hacc = rowSum X := rowSum_kernel X _ h hφ hacc

/-- The host's sums of the rows of a 512 × 128 array from the zero word. -/
theorem rowSumH {u : Shape} (X : FVec Ideal Cert.ReferenceIdeal.S512x128 .f32)
    (h' : Cert.ReferenceIdeal.S512x128.ReducesTo [1] Cert.ReferenceIdeal.S512) (hu : 0 < u.numel) :
    Host.reduceAdd X (constant u .f32 0x00000000#32) h' hu = rowSum X :=
  rowSum_host X _ h' hu Cert.KernelIdeal.Gen.reduces_S512x128_S512 (by rw [constant_apply]; exact Ideal.ofBits_zero_f32)

/-! ### The host's layout forms at the reference's shapes -/

theorem rowLaidH (x : Vec Ideal Cert.ReferenceIdeal.S128 .f32)
    (hd1 : Cert.ReferenceIdeal.S128.BroadcastsInDim Cert.ReferenceIdeal.S1x128 ![1])
    (hd : Cert.ReferenceIdeal.S1x128.BroadcastsInDim Cert.ReferenceIdeal.S512x128 ![0, 1]) :
    broadcastInDim Cert.ReferenceIdeal.S512x128 ![0, 1] hd (broadcastInDim Cert.ReferenceIdeal.S1x128 ![1] hd1 x)
      = rowLaid (α := EReal) 512 x := rowLaid_host x hd1 hd

theorem colOfH (v : Vec Ideal Cert.ReferenceIdeal.S512 .f32)
    (hd0 : Cert.ReferenceIdeal.S512.BroadcastsInDim Cert.ReferenceIdeal.S512x1 ![0]) :
    broadcastInDim Cert.ReferenceIdeal.S512x1 ![0] hd0 v = colOf (α := EReal) v := colOf_host v hd0

theorem colLaidH (y : Vec Ideal Cert.ReferenceIdeal.S512x1 .f32)
    (hd : Cert.ReferenceIdeal.S512x1.BroadcastsInDim Cert.ReferenceIdeal.S512x128 ![0, 1]) :
    broadcastInDim Cert.ReferenceIdeal.S512x128 ![0, 1] hd y = colLaid (α := EReal) 128 y := colLaid_host y hd

theorem guardH (h : Cert.ReferenceIdeal.S_.BroadcastsInDim Cert.ReferenceIdeal.S512x1 ![])
    (A B : Vec Ideal Cert.ReferenceIdeal.S512x1 .f32) :
    select (broadcastInDim Cert.ReferenceIdeal.S512x1 ![] h
        (cmpf .ogt (constant (F := Ideal) Cert.ReferenceIdeal.S_ .f32 0x43000000#32) (constant Cert.ReferenceIdeal.S_ .f32 0x00000000#32))) A B
      = A := select_128_pos h A B

/-! ## The products -/

/-- The host's rows-against-columns product at `(a, b)`, for a dimension record that is the plain one. -/
theorem hostDot_apply {m k n : Nat} {φ₁ φ₂ : FTy} (d : DotDims ⟨2, ![m, k]⟩ ⟨2, ![k, n]⟩ ⟨2, ![m, n]⟩)
    (w : DotDims.WF ⟨2, ![m, k]⟩ ⟨2, ![k, n]⟩ ⟨2, ![m, n]⟩ [1] [0] [0] [1] [] [])
    (hd : d = ⟨[1], [0], [0], [1], [], [], w⟩) (A : FVec Ideal ⟨2, ![m, k]⟩ φ₁) (B : FVec Ideal ⟨2, ![k, n]⟩ φ₂)
    (a : Fin m) (b : Fin n) :
    Host.dotGeneral d none A B (ix2 a b) = ∑ c : Fin k, A (ix2 a c) * B (ix2 c b) := by
  subst hd; exact Cert.LibRowOps.dotGeneral_plain_apply w none A B a b

/-- The 512 × 128 by 128 × 128 product does not depend on the operands' nominal float format nor on which program
    spells its dimension record. -/
theorem dot128_eq (A : FVec Ideal Cert.KernelIdeal.S512x128 .f32) (B : FVec Ideal Cert.KernelIdeal.S128x128 .f32) :
    Host.dotGeneral (φ₁ := .bf16) (φ₂ := .bf16) Cert.KernelIdeal.dot_S512x128_S128x128_S512x128_1_0_0_1_n_n none A B
      = Host.dotGeneral (φ₁ := .f32) (φ₂ := .f32) Cert.ReferenceIdeal.dot_S512x128_S128x128_S512x128_1_0_0_1_n_n none A B := by
  funext i
  obtain ⟨a, b, rfl⟩ : ∃ (a : Fin 512) (b : Fin 128), i = ix2 a b := ⟨i 0, i 1, eq_ix2 i⟩
  exact (hostDot_apply (φ₁ := .bf16) (φ₂ := .bf16) Cert.KernelIdeal.dot_S512x128_S128x128_S512x128_1_0_0_1_n_n
      Cert.KernelIdeal.dot_S512x128_S128x128_S512x128_1_0_0_1_n_n.wf rfl A B a b).trans
    (hostDot_apply (φ₁ := .f32) (φ₂ := .f32) Cert.ReferenceIdeal.dot_S512x128_S128x128_S512x128_1_0_0_1_n_n
      Cert.ReferenceIdeal.dot_S512x128_S128x128_S512x128_1_0_0_1_n_n.wf rfl A B a b).symm

/-- The sum over the 192 contracted columns split at column 128: the two arrays side by side against the whole
    combining weights are the first against the weights' rows 0 … 127 plus the second against rows 128 … 191. -/
theorem dot_split (g : FVec Ideal Cert.KernelIdeal.S512x128 .f32) (ce : FVec Ideal Cert.KernelIdeal.S512x64 .f32)
    (Wc : FVec Ideal Cert.KernelIdeal.S192x128 .f32)
    (hcat : Shape.Concatenates [Cert.ReferenceIdeal.S512x128, Cert.ReferenceIdeal.S512x64] Cert.ReferenceIdeal.S512x192 1) :
    Host.dotGeneral (φ₁ := .f32) (φ₂ := .f32) Cert.ReferenceIdeal.dot_S512x192_S192x128_S512x128_1_0_0_1_n_n none
        (concatenate Cert.ReferenceIdeal.S512x192 1 [⟨Cert.ReferenceIdeal.S512x128, g⟩, ⟨Cert.ReferenceIdeal.S512x64, ce⟩] hcat) Wc
      = addf (Host.dotGeneral (φ₁ := .f32) (φ₂ := .f32) Cert.ReferenceIdeal.dot_S512x128_S128x128_S512x128_1_0_0_1_n_n none g
                (View.ld (Val := Elt Ideal) Wc Cert.KernelIdeal.Gen.r2_2 : Vec Ideal Cert.KernelIdeal.S128x128 .f32))
          (Host.dotGeneral (φ₁ := .bf16) (φ₂ := .bf16) Cert.KernelIdeal.dot_S512x64_S64x128_S512x128_1_0_0_1_n_n none ce
                (View.ld (Val := Elt Ideal) Wc Cert.KernelIdeal.Gen.r2_3 : Vec Ideal Cert.KernelIdeal.S64x128 .f32)) := by
  funext i
  obtain ⟨a, b, rfl⟩ : ∃ (a : Fin 512) (b : Fin 128), i = ix2 a b := ⟨i 0, i 1, eq_ix2 i⟩
  rw [addf_apply,
    hostDot_apply (φ₁ := .f32) (φ₂ := .f32) Cert.ReferenceIdeal.dot_S512x192_S192x128_S512x128_1_0_0_1_n_n
      Cert.ReferenceIdeal.dot_S512x192_S192x128_S512x128_1_0_0_1_n_n.wf rfl _ Wc a b,
    hostDot_apply (φ₁ := .f32) (φ₂ := .f32) Cert.ReferenceIdeal.dot_S512x128_S128x128_S512x128_1_0_0_1_n_n
      Cert.ReferenceIdeal.dot_S512x128_S128x128_S512x128_1_0_0_1_n_n.wf rfl g _ a b,
    hostDot_apply (φ₁ := .bf16) (φ₂ := .bf16) Cert.KernelIdeal.dot_S512x64_S64x128_S512x128_1_0_0_1_n_n
      Cert.KernelIdeal.dot_S512x64_S64x128_S512x128_1_0_0_1_n_n.wf rfl ce _ a b]
  refine (Fin.sum_univ_add (a := 128) (b := 64) (fun c : Fin (128 + 64) =>
      concatenate Cert.ReferenceIdeal.S512x192 1 [⟨Cert.ReferenceIdeal.S512x128, g⟩, ⟨Cert.ReferenceIdeal.S512x64, ce⟩] hcat (ix2 a c)
        * Wc (ix2 c b))).trans ?_
  congr 1
  · refine Finset.sum_congr rfl fun c _ => ?_
    have e1 : concatenate Cert.ReferenceIdeal.S512x192 1 [⟨Cert.ReferenceIdeal.S512x128, g⟩, ⟨Cert.ReferenceIdeal.S512x64, ce⟩] hcat
        (ix2 a (Fin.castAdd 64 c)) = g (ix2 a c) :=
      concatenate_pair_apply_left 1 g ce hcat _ rfl (ix2 a c) (fun b' => by
        match b' with
        | ⟨0, _⟩ => rfl
        | ⟨1, _⟩ => rfl)
    have e2 : (View.ld (Val := Elt Ideal) Wc Cert.KernelIdeal.Gen.r2_2 : Vec Ideal Cert.KernelIdeal.S128x128 .f32) (ix2 c b) = Wc (ix2 (Fin.castAdd 64 c) b) := by
      show Wc _ = Wc _
      congr 1
      funext ax; apply Fin.ext
      match ax with
      | ⟨0, _⟩ => show 0 + 1 * c.val = c.val; omega
      | ⟨1, _⟩ => show 0 + 1 * b.val = b.val; omega
    rw [e1, e2]
  · refine Finset.sum_congr rfl fun c _ => ?_
    have e1 : concatenate Cert.ReferenceIdeal.S512x192 1 [⟨Cert.ReferenceIdeal.S512x128, g⟩, ⟨Cert.ReferenceIdeal.S512x64, ce⟩] hcat
        (ix2 a (Fin.natAdd 128 c)) = ce (ix2 a c) :=
      concatenate_pair_apply_right 1 g ce hcat _ rfl rfl (ix2 a c) (fun b' hb' => by
        match b', hb' with
        | ⟨0, _⟩, _ => rfl
        | ⟨1, _⟩, hb' => exact absurd rfl hb') (by show c.val + 128 = 128 + c.val; omega)
    have e2 : (View.ld (Val := Elt Ideal) Wc Cert.KernelIdeal.Gen.r2_3 : Vec Ideal Cert.KernelIdeal.S64x128 .f32) (ix2 c b) = Wc (ix2 (Fin.natAdd 128 c) b) := by
      show Wc _ = Wc _
      congr 1
      funext ax; apply Fin.ext
      match ax with
      | ⟨0, _⟩ => show 128 + 1 * c.val = 128 + c.val; omega
      | ⟨1, _⟩ => show 0 + 1 * b.val = b.val; omega
    rw [e1, e2]

end Cert.HeadAlg

end
-- ==== Proof.HeadEq.lean ====
/-
  The dense head's two spellings are one function: the kernel body's four payloads composed, against the reference's
  head stages composed. Both are opened; each spelling of a layout form, a row sum, a product, a quotient, a reciprocal
  root is replaced by one common form; the reference's product of the arrays laid side by side is split at column 128;
  its variance guard is decided; what is left is the same term.
-/
import proofs.«127112_j63660005261872_1_alg».proof.Proof.HeadAlg
set_option maxRecDepth 16384
noncomputable section
namespace Cert.HeadEq
open Idealize.ShloMosaic Idealize.ShloMosaic.ValueIdx Cert.LibNorm Cert.HeadAlg
variable [Cert.KernelIdeal.Facts] [Cert.ReferenceIdeal.Facts]

/-- The host's sums of the rows of a 512 × 128 array from the zero word, in the kernel's spelling. -/
theorem rowSumH' {u : Shape} (X : FVec Ideal Cert.ReferenceIdeal.S512x128 .f32)
    (h' : Cert.ReferenceIdeal.S512x128.ReducesTo [1] Cert.ReferenceIdeal.S512) (hu : 0 < u.numel) :
    Host.reduceAdd X (constant u .f32 0x00000000#32) h' hu
      = multiReduction .add [1] Cert.KernelIdeal.S512 X 0x00000000#32 Cert.KernelIdeal.Gen.reduces_S512x128_S512 (.inl rfl) rfl :=
  (rowSumH X h' hu).trans (rowSum_kernel X _ _ _ _).symm

/-! ## The head -/

/-- The kernel body's value on whole arrays — its four payloads composed as the body composes them, the one-row
    operands being the bias and scale vectors read as one-row matrices, the two weight operands of the first step the
    upper 128 and lower 64 rows of the combining weights — is the reference's head of the same arrays. -/
theorem head_eq
    (g : Vec Ideal Cert.KernelIdeal.S512x128 .f32) (ce : Vec Ideal Cert.KernelIdeal.S512x64 .f32)
    (Wc : Vec Ideal Cert.KernelIdeal.S192x128 .f32)
    (bc lw lb bf1 l1w l1b bf2 : Vec Ideal Cert.KernelIdeal.S128 .f32) (Wf1 Wf2 : Vec Ideal Cert.KernelIdeal.S128x128 .f32)
    (h1 : Cert.KernelIdeal.S128.ShapeCasts Cert.KernelIdeal.S1x128) :
    Cert.KernelIdeal.Gen.k2_pay1
      (Cert.KernelIdeal.Gen.k2_pay4
        (Cert.KernelIdeal.Gen.k2_pay2 g ce
          (View.ld (Val := Elt Ideal) Wc Cert.KernelIdeal.Gen.r2_2 : Vec Ideal Cert.KernelIdeal.S128x128 .f32)
          (View.ld (Val := Elt Ideal) Wc Cert.KernelIdeal.Gen.r2_3 : Vec Ideal Cert.KernelIdeal.S64x128 .f32)
          (shapeCast Cert.KernelIdeal.S1x128 bc h1))
        (Cert.KernelIdeal.Gen.k2_pay3 (shapeCast Cert.KernelIdeal.S1x128 lw h1))
        (shapeCast Cert.KernelIdeal.S1x128 lb h1) Wf1 (shapeCast Cert.KernelIdeal.S1x128 bf1 h1)
        (shapeCast Cert.KernelIdeal.S1x128 l1w h1))
      (shapeCast Cert.KernelIdeal.S1x128 l1b h1) Wf2 (shapeCast Cert.KernelIdeal.S1x128 bf2 h1)
    = Cert.ReferenceIdeal.Spec.head2 (Cert.ReferenceIdeal.Spec.head1 g ce Wc bc lw lb) Wf1 bf1 l1w l1b Wf2 bf2 := by
  unfold Cert.KernelIdeal.Gen.k2_pay1 Cert.KernelIdeal.Gen.k2_pay4 Cert.KernelIdeal.Gen.k2_pay2 Cert.KernelIdeal.Gen.k2_pay3
    Cert.ReferenceIdeal.Spec.head2 Cert.ReferenceIdeal.Spec.head1
  simp only [truncf_id, shapeCast_self, matmul_zero_eq_dotGeneral, broadcastInDim_constant, rowLaid_kernel,
    colOf_kernel, colLaid_kernel, rowSumH', hostDivf_eq, hostRsqrt_eq, sub_sitofp_zero, id, dot_split, dot128_eq]
  repeat rw [rowLaidH]
  repeat rw [colOfH]
  repeat rw [colLaidH]
  repeat rw [guardH]

end Cert.HeadEq
end
-- ==== Proof.KerKeep.lean ====
import proofs.«127112_j63660005261872_1_alg».proof.Proof.Gen.KernelIdeal.Frame

/-!
# Buffers the kernel program's host stretches leave alone

Each stretch of host operations between the regions writes a known list of buffers, one per operation.  A buffer
outside a stretch's list holds after the stretch what it held before; a buffer that is no array of a region holds
after the region what it held before.  Chaining these from the launch gives, at each region's entry, the contents
of every buffer nothing has written yet: its launch contents.
-/

noncomputable section

namespace Cert.KernelIdeal.KerValue

open Cert.KernelIdeal Cert.KernelIdeal.Gen
open Idealize.ShloMosaic Idealize.ShloMosaic.TcCoe Idealize.ShloMosaic.StableHlo

variable {F : FTy → Type} [FloatOps F]

/-- The buffers hostOps0 writes, in order. -/
abbrev hostOps0_W : List (Ref sig .tc) := [main_v0, main_v1, main_v2, main_v3]

set_option maxRecDepth 16384 in
/-- Each operation of hostOps0 writes one buffer, listed in hostOps0_W. -/
theorem hostOps0_writes : (hostOps0 (F := F) : List (HloOp τ sig (Elt F))).Forall fun op =>
    op.writes ⊆ (hostOps0_W.map (Proc.devRef (τ := τ) .tc)).toFinset := by
  simp only [List.Forall]
  repeat' apply And.intro
  all_goals
    simp only [nullary_writes, unary_writes, binary_writes, ternary_writes, quaternary_writes, reshape_writes,
      Finset.singleton_subset_iff, List.mem_toFinset]
    exact List.mem_map_of_mem (by decide)

/-- A buffer that no operation of hostOps0 writes keeps its contents through it. -/
theorem hostOps0_keep (V : Valuation τ sig (Elt F)) {r : Ref sig .tc} (h : r ∉ hostOps0_W) :
    StableHlo.after (hostOps0 (F := F)) V (Proc.devRef .tc r) = V (Proc.devRef .tc r) :=
  after_of_writes_sub _ V hostOps0_writes h

/-- The buffers hostOps1 writes, in order. -/
abbrev hostOps1_W : List (Ref sig .tc) := [main_v5, main_v6, main_v7, main_cst, main_v8, main_cst_0, main_v9, main_v10, main_v11, main_cst_1, main_v12, main_v13, main_v14, main_cst_2]

set_option maxRecDepth 16384 in
/-- Each operation of hostOps1 writes one buffer, listed in hostOps1_W. -/
theorem hostOps1_writes : (hostOps1 (F := F) : List (HloOp τ sig (Elt F))).Forall fun op =>
    op.writes ⊆ (hostOps1_W.map (Proc.devRef (τ := τ) .tc)).toFinset := by
  simp only [List.Forall]
  repeat' apply And.intro
  all_goals
    simp only [nullary_writes, unary_writes, binary_writes, ternary_writes, quaternary_writes, reshape_writes,
      Finset.singleton_subset_iff, List.mem_toFinset]
    exact List.mem_map_of_mem (by decide)

/-- A buffer that no operation of hostOps1 writes keeps its contents through it. -/
theorem hostOps1_keep (V : Valuation τ sig (Elt F)) {r : Ref sig .tc} (h : r ∉ hostOps1_W) :
    StableHlo.after (hostOps1 (F := F)) V (Proc.devRef .tc r) = V (Proc.devRef .tc r) :=
  after_of_writes_sub _ V hostOps1_writes h

/-- The buffers hostOps1_1 writes, in order. -/
abbrev hostOps1_1_W : List (Ref sig .tc) := [main_call0_v0, main_call0_v1, main_v15]

set_option maxRecDepth 16384 in
/-- Each operation of hostOps1_1 writes one buffer, listed in hostOps1_1_W. -/
theorem hostOps1_1_writes : (hostOps1_1 (F := F) : List (HloOp τ sig (Elt F))).Forall fun op =>
    op.writes ⊆ (hostOps1_1_W.map (Proc.devRef (τ := τ) .tc)).toFinset := by
  simp only [List.Forall]
  repeat' apply And.intro
  all_goals
    simp only [nullary_writes, unary_writes, binary_writes, ternary_writes, quaternary_writes, reshape_writes,
      Finset.singleton_subset_iff, List.mem_toFinset]
    exact List.mem_map_of_mem (by decide)

/-- A buffer that no operation of hostOps1_1 writes keeps its contents through it. -/
theorem hostOps1_1_keep (V : Valuation τ sig (Elt F)) {r : Ref sig .tc} (h : r ∉ hostOps1_1_W) :
    StableHlo.after (hostOps1_1 (F := F)) V (Proc.devRef .tc r) = V (Proc.devRef .tc r) :=
  after_of_writes_sub _ V hostOps1_1_writes h

/-- The buffers hostOps1_2 writes, in order. -/
abbrev hostOps1_2_W : List (Ref sig .tc) := [main_c, main_v16, main_v17, main_c_3, main_v18, main_v19, main_v20, main_v21, main_v22, main_c_4, main_v23, main_v24, main_c_5, main_v25, main_v26, main_v27, main_v28, main_v29, main_v30, main_c_6, main_v31, main_v32, main_c_7, main_v33, main_v34, main_v35, main_v36, main_v37, main_v38, main_v39, main_v40, main_cst_8, main_v41, main_v42, main_v43, main_v44, main_v45, main_v46]

set_option maxRecDepth 16384 in
/-- Each operation of hostOps1_2 writes one buffer, listed in hostOps1_2_W. -/
theorem hostOps1_2_writes : (hostOps1_2 (F := F) : List (HloOp τ sig (Elt F))).Forall fun op =>
    op.writes ⊆ (hostOps1_2_W.map (Proc.devRef (τ := τ) .tc)).toFinset := by
  simp only [List.Forall]
  repeat' apply And.intro
  all_goals
    simp only [nullary_writes, unary_writes, binary_writes, ternary_writes, quaternary_writes, reshape_writes,
      Finset.singleton_subset_iff, List.mem_toFinset]
    exact List.mem_map_of_mem (by decide)

/-- A buffer that no operation of hostOps1_2 writes keeps its contents through it. -/
theorem hostOps1_2_keep (V : Valuation τ sig (Elt F)) {r : Ref sig .tc} (h : r ∉ hostOps1_2_W) :
    StableHlo.after (hostOps1_2 (F := F)) V (Proc.devRef .tc r) = V (Proc.devRef .tc r) :=
  after_of_writes_sub _ V hostOps1_2_writes h

/-- The buffers hostOps1_3 writes, in order. -/
abbrev hostOps1_3_W : List (Ref sig .tc) := [main_call1_cst, main_call1_v0, main_v47]

set_option maxRecDepth 16384 in
/-- Each operation of hostOps1_3 writes one buffer, listed in hostOps1_3_W. -/
theorem hostOps1_3_writes : (hostOps1_3 (F := F) : List (HloOp τ sig (Elt F))).Forall fun op =>
    op.writes ⊆ (hostOps1_3_W.map (Proc.devRef (τ := τ) .tc)).toFinset := by
  simp only [List.Forall]
  repeat' apply And.intro
  all_goals
    simp only [nullary_writes, unary_writes, binary_writes, ternary_writes, quaternary_writes, reshape_writes,
      Finset.singleton_subset_iff, List.mem_toFinset]
    exact List.mem_map_of_mem (by decide)

/-- A buffer that no operation of hostOps1_3 writes keeps its contents through it. -/
theorem hostOps1_3_keep (V : Valuation τ sig (Elt F)) {r : Ref sig .tc} (h : r ∉ hostOps1_3_W) :
    StableHlo.after (hostOps1_3 (F := F)) V (Proc.devRef .tc r) = V (Proc.devRef .tc r) :=
  after_of_writes_sub _ V hostOps1_3_writes h

/-- The buffers hostOps2 writes, in order. -/
abbrev hostOps2_W : List (Ref sig .tc) := [main_v49, main_v50, main_v51, main_cst_9, main_v52, main_cst_10, main_v53, main_v54, main_v55, main_cst_11, main_v56, main_v57, main_v58, main_cst_12]

set_option maxRecDepth 16384 in
/-- Each operation of hostOps2 writes one buffer, listed in hostOps2_W. -/
theorem hostOps2_writes : (hostOps2 (F := F) : List (HloOp τ sig (Elt F))).Forall fun op =>
    op.writes ⊆ (hostOps2_W.map (Proc.devRef (τ := τ) .tc)).toFinset := by
  simp only [List.Forall]
  repeat' apply And.intro
  all_goals
    simp only [nullary_writes, unary_writes, binary_writes, ternary_writes, quaternary_writes, reshape_writes,
      Finset.singleton_subset_iff, List.mem_toFinset]
    exact List.mem_map_of_mem (by decide)

/-- A buffer that no operation of hostOps2 writes keeps its contents through it. -/
theorem hostOps2_keep (V : Valuation τ sig (Elt F)) {r : Ref sig .tc} (h : r ∉ hostOps2_W) :
    StableHlo.after (hostOps2 (F := F)) V (Proc.devRef .tc r) = V (Proc.devRef .tc r) :=
  after_of_writes_sub _ V hostOps2_writes h

/-- The buffers hostOps2_1 writes, in order. -/
abbrev hostOps2_1_W : List (Ref sig .tc) := [main_call2_v0, main_call2_v1, main_v59]

set_option maxRecDepth 16384 in
/-- Each operation of hostOps2_1 writes one buffer, listed in hostOps2_1_W. -/
theorem hostOps2_1_writes : (hostOps2_1 (F := F) : List (HloOp τ sig (Elt F))).Forall fun op =>
    op.writes ⊆ (hostOps2_1_W.map (Proc.devRef (τ := τ) .tc)).toFinset := by
  simp only [List.Forall]
  repeat' apply And.intro
  all_goals
    simp only [nullary_writes, unary_writes, binary_writes, ternary_writes, quaternary_writes, reshape_writes,
      Finset.singleton_subset_iff, List.mem_toFinset]
    exact List.mem_map_of_mem (by decide)

/-- A buffer that no operation of hostOps2_1 writes keeps its contents through it. -/
theorem hostOps2_1_keep (V : Valuation τ sig (Elt F)) {r : Ref sig .tc} (h : r ∉ hostOps2_1_W) :
    StableHlo.after (hostOps2_1 (F := F)) V (Proc.devRef .tc r) = V (Proc.devRef .tc r) :=
  after_of_writes_sub _ V hostOps2_1_writes h

/-- The buffers hostOps2_2 writes, in order. -/
abbrev hostOps2_2_W : List (Ref sig .tc) := [main_c_13, main_v60, main_v61, main_c_14, main_v62, main_v63, main_v64, main_v65, main_v66, main_c_15, main_v67, main_v68, main_c_16, main_v69, main_v70, main_v71, main_v72, main_v73, main_v74, main_c_17, main_v75, main_v76, main_c_18, main_v77, main_v78, main_v79, main_v80, main_v81, main_v82, main_v83, main_v84, main_cst_19, main_v85, main_v86, main_v87, main_v88, main_v89, main_v90]

set_option maxRecDepth 16384 in
/-- Each operation of hostOps2_2 writes one buffer, listed in hostOps2_2_W. -/
theorem hostOps2_2_writes : (hostOps2_2 (F := F) : List (HloOp τ sig (Elt F))).Forall fun op =>
    op.writes ⊆ (hostOps2_2_W.map (Proc.devRef (τ := τ) .tc)).toFinset := by
  simp only [List.Forall]
  repeat' apply And.intro
  all_goals
    simp only [nullary_writes, unary_writes, binary_writes, ternary_writes, quaternary_writes, reshape_writes,
      Finset.singleton_subset_iff, List.mem_toFinset]
    exact List.mem_map_of_mem (by decide)

/-- A buffer that no operation of hostOps2_2 writes keeps its contents through it. -/
theorem hostOps2_2_keep (V : Valuation τ sig (Elt F)) {r : Ref sig .tc} (h : r ∉ hostOps2_2_W) :
    StableHlo.after (hostOps2_2 (F := F)) V (Proc.devRef .tc r) = V (Proc.devRef .tc r) :=
  after_of_writes_sub _ V hostOps2_2_writes h

/-- The buffers hostOps2_3 writes, in order. -/
abbrev hostOps2_3_W : List (Ref sig .tc) := [main_call3_cst, main_call3_v0, main_v91]

set_option maxRecDepth 16384 in
/-- Each operation of hostOps2_3 writes one buffer, listed in hostOps2_3_W. -/
theorem hostOps2_3_writes : (hostOps2_3 (F := F) : List (HloOp τ sig (Elt F))).Forall fun op =>
    op.writes ⊆ (hostOps2_3_W.map (Proc.devRef (τ := τ) .tc)).toFinset := by
  simp only [List.Forall]
  repeat' apply And.intro
  all_goals
    simp only [nullary_writes, unary_writes, binary_writes, ternary_writes, quaternary_writes, reshape_writes,
      Finset.singleton_subset_iff, List.mem_toFinset]
    exact List.mem_map_of_mem (by decide)

/-- A buffer that no operation of hostOps2_3 writes keeps its contents through it. -/
theorem hostOps2_3_keep (V : Valuation τ sig (Elt F)) {r : Ref sig .tc} (h : r ∉ hostOps2_3_W) :
    StableHlo.after (hostOps2_3 (F := F)) V (Proc.devRef .tc r) = V (Proc.devRef .tc r) :=
  after_of_writes_sub _ V hostOps2_3_writes h

/-- The buffers hostOps2_4 writes, in order. -/
abbrev hostOps2_4_W : List (Ref sig .tc) := [main_cst_20, main_v92, main_v93, main_v94, main_c_21, main_v95, main_v96, main_c_22, main_v97, main_v98, main_v99, main_v100, main_v101, main_v102, main_v103, main_v104, main_v105, main_v106, main_v107, main_v108]

set_option maxRecDepth 16384 in
/-- Each operation of hostOps2_4 writes one buffer, listed in hostOps2_4_W. -/
theorem hostOps2_4_writes : (hostOps2_4 (F := F) : List (HloOp τ sig (Elt F))).Forall fun op =>
    op.writes ⊆ (hostOps2_4_W.map (Proc.devRef (τ := τ) .tc)).toFinset := by
  simp only [List.Forall]
  repeat' apply And.intro
  all_goals
    simp only [nullary_writes, unary_writes, binary_writes, ternary_writes, quaternary_writes, reshape_writes,
      Finset.singleton_subset_iff, List.mem_toFinset]
    exact List.mem_map_of_mem (by decide)

/-- A buffer that no operation of hostOps2_4 writes keeps its contents through it. -/
theorem hostOps2_4_keep (V : Valuation τ sig (Elt F)) {r : Ref sig .tc} (h : r ∉ hostOps2_4_W) :
    StableHlo.after (hostOps2_4 (F := F)) V (Proc.devRef .tc r) = V (Proc.devRef .tc r) :=
  after_of_writes_sub _ V hostOps2_4_writes h

variable (m : (ℓ : Loc nD τ sig) → Buf (Elt F) ℓ) (ρ : Dev nD → PrngReg)

/-- At region 0's entry, a buffer the first stretch does not write is as launched. -/
theorem W1_keep (c : Dev nD) {r : Ref sig .tc} (h : r ∉ hostOps0_W) :
    W1 m ρ c (Proc.devRef .tc r) = m ((c.tc : Thread nD τ).loc r) :=
  hostOps0_keep (W0 m ρ c) h

/-- At region 0's exit, a buffer that is no array of the region is as at its entry. -/
theorem W2_keep (c : Dev nD) {r : Ref sig .tc} (h : r ∉ hostOps0_W) (hA : ∀ w, Pipeline.arrRef spec0 w ≠ r) :
    W2 m ρ c (Proc.devRef .tc r) = m ((c.tc : Thread nD τ).loc r) :=
  (W2_of_ne m ρ c r hA).trans (W1_keep m ρ c h)

/-- Through the first layer's four stretches, a buffer none of them writes is as at region 0's exit. -/
theorem W6_W2 (c : Dev nD) {r : Ref sig .tc}
    (h : r ∉ hostOps1_W ∧ r ∉ hostOps1_1_W ∧ r ∉ hostOps1_2_W ∧ r ∉ hostOps1_3_W) :
    W6 m ρ c (Proc.devRef .tc r) = W2 m ρ c (Proc.devRef .tc r) :=
  (hostOps1_3_keep _ h.2.2.2).trans ((hostOps1_2_keep _ h.2.2.1).trans ((hostOps1_1_keep _ h.2.1).trans (hostOps1_keep _ h.1)))

/-- At region 1's exit, a buffer nothing has written yet is as launched. -/
theorem W7_keep (c : Dev nD) {r : Ref sig .tc} (h0 : r ∉ hostOps0_W) (hA0 : ∀ w, Pipeline.arrRef spec0 w ≠ r)
    (h : r ∉ hostOps1_W ∧ r ∉ hostOps1_1_W ∧ r ∉ hostOps1_2_W ∧ r ∉ hostOps1_3_W)
    (hA1 : ∀ w, Pipeline.arrRef spec1 w ≠ r) :
    W7 m ρ c (Proc.devRef .tc r) = m ((c.tc : Thread nD τ).loc r) :=
  (W7_of_ne m ρ c r hA1).trans ((W6_W2 m ρ c h).trans (W2_keep m ρ c h0 hA0))

/-- Through the second layer's first four stretches, a buffer none of them writes is as at region 1's exit. -/
theorem W11_W7 (c : Dev nD) {r : Ref sig .tc}
    (h : r ∉ hostOps2_W ∧ r ∉ hostOps2_1_W ∧ r ∉ hostOps2_2_W ∧ r ∉ hostOps2_3_W) :
    W11 m ρ c (Proc.devRef .tc r) = W7 m ρ c (Proc.devRef .tc r) :=
  (hostOps2_3_keep _ h.2.2.2).trans ((hostOps2_2_keep _ h.2.2.1).trans ((hostOps2_1_keep _ h.2.1).trans (hostOps2_keep _ h.1)))

/-- Before the last stretch, a buffer nothing has written yet is as launched. -/
theorem W11_keep (c : Dev nD) {r : Ref sig .tc} (h0 : r ∉ hostOps0_W) (hA0 : ∀ w, Pipeline.arrRef spec0 w ≠ r)
    (h1 : r ∉ hostOps1_W ∧ r ∉ hostOps1_1_W ∧ r ∉ hostOps1_2_W ∧ r ∉ hostOps1_3_W)
    (hA1 : ∀ w, Pipeline.arrRef spec1 w ≠ r)
    (h2 : r ∉ hostOps2_W ∧ r ∉ hostOps2_1_W ∧ r ∉ hostOps2_2_W ∧ r ∉ hostOps2_3_W) :
    W11 m ρ c (Proc.devRef .tc r) = m ((c.tc : Thread nD τ).loc r) :=
  (W11_W7 m ρ c h2).trans (W7_keep m ρ c h0 hA0 h1 hA1)

/-- At region 2's entry, a buffer nothing has written yet is as launched. -/
theorem W12_keep (c : Dev nD) {r : Ref sig .tc} (h0 : r ∉ hostOps0_W) (hA0 : ∀ w, Pipeline.arrRef spec0 w ≠ r)
    (h1 : r ∉ hostOps1_W ∧ r ∉ hostOps1_1_W ∧ r ∉ hostOps1_2_W ∧ r ∉ hostOps1_3_W)
    (hA1 : ∀ w, Pipeline.arrRef spec1 w ≠ r)
    (h2 : r ∉ hostOps2_W ∧ r ∉ hostOps2_1_W ∧ r ∉ hostOps2_2_W ∧ r ∉ hostOps2_3_W) (h3 : r ∉ hostOps2_4_W) :
    W12 m ρ c (Proc.devRef .tc r) = m ((c.tc : Thread nD τ).loc r) :=
  (hostOps2_4_keep _ h3).trans (W11_keep m ρ c h0 hA0 h1 hA1 h2)

end Cert.KernelIdeal.KerValue

end
-- ==== Proof.MatmulPay.lean ====
import proofs.«127112_j63660005261872_1_alg».proof.Proof.Gen.KernelIdeal.Skeleton
import proofs.«127112_j63660005261872_1_alg».proof.Proof.LibDotIdx
import Idealize.ShloMosaic.Lib.Pipeline.Value

/-!
# The matmul kernels' payload, read at an index

Both row-blocked matmul kernels compute, on one block of 5000 rows `x` and the whole 128×128 weight `w`, the
product `x · w` into a zero accumulator after narrowing both operands to bf16.  At the exact extended reals the
narrowing is the identity, so the entry at row `p`, column `q` is `∑ k, x (p, k) * w (k, q)`.
-/

noncomputable section

namespace Cert.KernelIdeal.MatVal

open Idealize.ShloMosaic Idealize.ShloMosaic.ValueIdx

/-- The first matmul kernel's stored value at `(p, q)`. -/
theorem k0_pay1_apply (x0 : Vec Ideal S5000x128 .f32) (x1 : Vec Ideal S128x128 .f32) (p : Fin 5000) (q : Fin 128) :
    Gen.k0_pay1 (F := Ideal) x0 x1 (ix2 p q) = ∑ k : Fin 128, x0 (ix2 p k) * x1 (ix2 k q) := by
  unfold Gen.k0_pay1
  exact DotIdx.matmul_plain_zero_apply (m := 5000) (k := 128) (n := 128)
    dot_S5000x128_S128x128_S5000x128_1_0_0_1_n_n.wf none x0 x1 p q

/-- The second matmul kernel's stored value at `(p, q)`: the same product (its extra reshape is to the same shape). -/
theorem k1_pay1_apply (x0 : Vec Ideal S5000x128 .f32) (x1 : Vec Ideal S128x128 .f32) (p : Fin 5000) (q : Fin 128) :
    Gen.k1_pay1 (F := Ideal) x0 x1 (ix2 p q) = ∑ k : Fin 128, x0 (ix2 p k) * x1 (ix2 k q) := by
  unfold Gen.k1_pay1
  rw [shapeCast_self]
  exact DotIdx.matmul_plain_zero_apply (m := 5000) (k := 128) (n := 128)
    dot_S5000x128_S128x128_S5000x128_1_0_0_1_n_n.wf none x0 x1 p q

end Cert.KernelIdeal.MatVal

end
-- ==== Proof.MatmulBlocks.lean ====
import proofs.«127112_j63660005261872_1_alg».proof.Proof.Gen.KernelIdeal.Frame
import proofs.«127112_j63660005261872_1_alg».proof.Proof.MatmulPay
import Idealize.ShloMosaic.Lib.Pipeline.Value

/-!
# The two row-blocked matmul regions, as whole-array products

Each of the first two regions multiplies a 50000×128 array, read in ten blocks of 5000 rows, by a 128×128 weight
read whole at every grid point, and writes the 50000×128 product back in the same ten row blocks.  Point `t`
writes rows `5000 t … 5000 t + 4999`; row `r` of the product only needs row `r` of the left operand, so the ten
blocks written are exactly the ten row blocks of the whole product, and since they tile the output array it ends
holding `∑ k, x (a, k) * w (k, b)` at every `(a, b)`.
-/

noncomputable section

namespace Cert.KernelIdeal.MatVal

open Cert.KernelIdeal Idealize.ShloMosaic Idealize.ShloMosaic.ValueIdx Idealize.ShloMosaic.TcCoe Idealize.SL.Sem
open Idealize.ShloMosaic.Pipeline (Dat)

/-- The product of a 50000×128 array with a 128×128 one, index by index. -/
def mm (X : S50000x128.Idx → EReal) (W : S128x128.Idx → EReal) : S50000x128.Idx → EReal :=
  fun i => ∑ k : Fin 128, X (ix2 (i 0) k) * W (ix2 k (i 1))

theorem mm_apply (X : S50000x128.Idx → EReal) (W : S128x128.Idx → EReal) (a : Fin 50000) (b : Fin 128) :
    mm X W (ix2 a b) = ∑ k : Fin 128, X (ix2 a k) * W (ix2 k b) := rfl

/-- The zero offsets of a whole-buffer access. -/
theorem hz : (![0, 0] : Fin 2 → Nat) = fun _ => 0 := funext fun a => by fin_cases a <;> rfl

variable (V : (c : Dev nD) → (b : Ref sig .tc) → Buf (Elt Ideal) ((c : Thread nD τ).loc b))

/-! ## Region 0 -/

section Region0

/-- What the body leaves in the output block, at row `p` and column `q` of the block. -/
theorem out0_apply (x0 : Vec Ideal S5000x128 .f32) (x1 : Vec Ideal S128x128 .f32) (p : Fin 5000) (q : Fin 128) :
    Gen.out0_2 (F := Ideal) x0 x1 (ix2 p q) = ∑ k : Fin 128, x0 (ix2 p k) * x1 (ix2 k q) := by
  unfold Gen.out0_2
  rw [View.canon_unit_zero hz]
  simp only [View.ld_unit_zero (S := S5000x128) hz, View.ld_unit_zero (S := S128x128) hz]
  exact k0_pay1_apply x0 x1 p q

/-- The printed index maps over the ten grid points: the row-blocked windows sit at block `(t, 0)`, the weight's at `(0, 0)`. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row `p` of the left operand's block at point `t` is row `5000 t + p` of the array. -/
theorem lhs0_apply (c : Dev nD) (t : Fin cfg0.N) (p : Fin 5000) (k : Fin 128) (r : Fin 50000)
    (hr : r.val = t.val * 5000 + p.val) :
    (Gen.iblk0 V c 0 t : Vec Ideal S5000x128 .f32) (ix2 p k)
      = (V c (Pipeline.arrRef spec0 0) : S50000x128.Idx → EReal) (ix2 r k) := by
  obtain ⟨e0, e1, -⟩ := idx0 t
  unfold Gen.iblk0
  rw [View.read_apply]
  refine congrArg (V c (Pipeline.arrRef spec0 0) : S50000x128.Idx → EReal) ?_
  funext a
  apply Fin.ext
  match a with
  | ⟨0, _⟩ => show win0_0.index t (0 : Fin 2) * 5000 + 1 * p.val = r.val; rw [e0, hr]; omega
  | ⟨1, _⟩ => show win0_0.index t (1 : Fin 2) * 128 + 1 * k.val = k.val; rw [e1]; omega

/-- The weight's block at every point is the whole weight. -/
theorem rhs0_apply (c : Dev nD) (t : Fin cfg0.N) (k q : Fin 128) :
    (Gen.iblk0 V c 1 t : Vec Ideal S128x128 .f32) (ix2 k q)
      = (V c (Pipeline.arrRef spec0 1) : S128x128.Idx → EReal) (ix2 k q) := by
  obtain ⟨-, -, e2, e3, -⟩ := idx0 t
  unfold Gen.iblk0
  rw [View.read_apply]
  refine congrArg (V c (Pipeline.arrRef spec0 1) : S128x128.Idx → EReal) ?_
  funext a
  apply Fin.ext
  match a with
  | ⟨0, _⟩ => show win0_1.index t (0 : Fin 2) * 128 + 1 * k.val = k.val; rw [e2]; omega
  | ⟨1, _⟩ => show win0_1.index t (1 : Fin 2) * 128 + 1 * q.val = q.val; rw [e3]; omega

/-- What point `t` writes back is block `t` of the product of the two arrays as the region finds them. -/
theorem flushed0_eq (c : Dev nD) (t : Fin cfg0.N) :
    (Gen.dat0 (F := Ideal) V c).flushed 2 t = ((cfg0.win 2).blk t).view.read (Elt Ideal)
      (mm (V c (Pipeline.arrRef spec0 0)) (V c (Pipeline.arrRef spec0 1))) := by
  show (cfg0.win 2).cut (grid0.coords t) ((Gen.dat0 V c).after 2 t) = _
  rw [Gen.after0_2]
  funext j
  obtain ⟨p, q, rfl⟩ : ∃ (p : Fin 5000) (q : Fin 128), j = ix2 p q := ⟨j 0, j 1, eq_ix2 j⟩
  have ht : t.val < 10 := lt_of_lt_of_eq t.isLt (show cfg0.N = 10 from Gen.N_0)
  obtain ⟨-, -, -, -, e4, e5⟩ := idx0 t
  have hemb : ((cfg0.win 2).blk t).view.emb (ix2 p q)
      = (ix2 (⟨t.val * 5000 + p.val, by omega⟩ : Fin 50000) q : S50000x128.Idx) := by
    funext a
    apply Fin.ext
    match a with
    | ⟨0, _⟩ => show win0_2.index t (0 : Fin 2) * 5000 + 1 * p.val = t.val * 5000 + p.val; rw [e4]; omega
    | ⟨1, _⟩ => show win0_2.index t (1 : Fin 2) * 128 + 1 * q.val = q.val; rw [e5]; omega
  rw [View.read_apply, hemb, mm_apply]
  refine (out0_apply _ _ p q).trans ?_
  refine Finset.sum_congr rfl fun k _ => ?_
  rw [lhs0_apply V c t p k ⟨t.val * 5000 + p.val, by omega⟩ rfl, rhs0_apply V c t k q]

/-- An index of the array is in point `t`'s block iff each coordinate is in the block's range on its axis. -/
theorem mem_blk0 (t : Fin cfg0.N) (i : S50000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v4).slice (win0_2.rect t)).set ↔ _
  rw [View.set_slice_whole, Rect.mem_set_unit]
  exact Iff.rfl

/-- Every index of the output array is in some point's block: row `r` is in block `r / 5000`. -/
theorem cover0 (i : S50000x128.Idx) :
    ∃ t : Fin cfg0.N, (cfg0.win 2).flush t = true ∧ i ∈ ((cfg0.win 2).blk t).view.set := by
  have hi0 : (i 0).val < 50000 := idx2_lt0 i
  have hi1 : (i 1).val < 128 := idx2_lt1 i
  have hN : cfg0.N = 10 := Gen.N_0
  let t : Fin cfg0.N := ⟨(i 0).val / 5000, by rw [hN]; omega⟩
  obtain ⟨-, -, -, -, e4, e5⟩ := idx0 t
  have e4' : win0_2.index t (0 : Fin 2) = (i 0).val / 5000 := e4
  refine ⟨t, Gen.flush0_2 t, ?_⟩
  rw [mem_blk0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- After the region the output array holds the product of the two input arrays as the region found them. -/
theorem region0_eq (c : Dev nD) :
    (Gen.dat0 (F := Ideal) V c).arrAt 2 cfg0.N
      = mm (V c (Pipeline.arrRef spec0 0)) (V c (Pipeline.arrRef spec0 1)) :=
  (Gen.dat0 V c).arrAt_eq_of_cover 2 _ (fun t _ => flushed0_eq V c t) cover0

/-- The same, read at row `a` and column `b`, with the two input arrays named. -/
theorem region0_apply (c : Dev nD) (X : S50000x128.Idx → EReal) (W : S128x128.Idx → EReal)
    (hX : V c (Pipeline.arrRef spec0 0) = X) (hW : V c (Pipeline.arrRef spec0 1) = W)
    (a : Fin 50000) (b : Fin 128) :
    ((Gen.dat0 (F := Ideal) V c).arrAt 2 cfg0.N : S50000x128.Idx → EReal) (ix2 a b)
      = ∑ k : Fin 128, X (ix2 a k) * W (ix2 k b) := by
  subst hX hW
  rw [region0_eq]
  rfl

end Region0

/-! ## Region 1 -/

section Region1

/-- What the body leaves in the output block, at row `p` and column `q` of the block. -/
theorem out1_apply (x0 : Vec Ideal S5000x128 .f32) (x1 : Vec Ideal S128x128 .f32) (p : Fin 5000) (q : Fin 128) :
    Gen.out1_2 (F := Ideal) x0 x1 (ix2 p q) = ∑ k : Fin 128, x0 (ix2 p k) * x1 (ix2 k q) := by
  unfold Gen.out1_2
  rw [View.canon_unit_zero hz]
  simp only [View.ld_unit_zero (S := S5000x128) hz, View.ld_unit_zero (S := S128x128) hz]
  exact k1_pay1_apply x0 x1 p q

/-- The printed index maps over the ten grid points: the row-blocked windows sit at block `(t, 0)`, the weight's at `(0, 0)`. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Row `p` of the left operand's block at point `t` is row `5000 t + p` of the array. -/
theorem lhs1_apply (c : Dev nD) (t : Fin cfg1.N) (p : Fin 5000) (k : Fin 128) (r : Fin 50000)
    (hr : r.val = t.val * 5000 + p.val) :
    (Gen.iblk1 V c 0 t : Vec Ideal S5000x128 .f32) (ix2 p k)
      = (V c (Pipeline.arrRef spec1 0) : S50000x128.Idx → EReal) (ix2 r k) := by
  obtain ⟨e0, e1, -⟩ := idx1 t
  unfold Gen.iblk1
  rw [View.read_apply]
  refine congrArg (V c (Pipeline.arrRef spec1 0) : S50000x128.Idx → EReal) ?_
  funext a
  apply Fin.ext
  match a with
  | ⟨0, _⟩ => show win1_0.index t (0 : Fin 2) * 5000 + 1 * p.val = r.val; rw [e0, hr]; omega
  | ⟨1, _⟩ => show win1_0.index t (1 : Fin 2) * 128 + 1 * k.val = k.val; rw [e1]; omega

/-- The weight's block at every point is the whole weight. -/
theorem rhs1_apply (c : Dev nD) (t : Fin cfg1.N) (k q : Fin 128) :
    (Gen.iblk1 V c 1 t : Vec Ideal S128x128 .f32) (ix2 k q)
      = (V c (Pipeline.arrRef spec1 1) : S128x128.Idx → EReal) (ix2 k q) := by
  obtain ⟨-, -, e2, e3, -⟩ := idx1 t
  unfold Gen.iblk1
  rw [View.read_apply]
  refine congrArg (V c (Pipeline.arrRef spec1 1) : S128x128.Idx → EReal) ?_
  funext a
  apply Fin.ext
  match a with
  | ⟨0, _⟩ => show win1_1.index t (0 : Fin 2) * 128 + 1 * k.val = k.val; rw [e2]; omega
  | ⟨1, _⟩ => show win1_1.index t (1 : Fin 2) * 128 + 1 * q.val = q.val; rw [e3]; omega

/-- What point `t` writes back is block `t` of the product of the two arrays as the region finds them. -/
theorem flushed1_eq (c : Dev nD) (t : Fin cfg1.N) :
    (Gen.dat1 (F := Ideal) V c).flushed 2 t = ((cfg1.win 2).blk t).view.read (Elt Ideal)
      (mm (V c (Pipeline.arrRef spec1 0)) (V c (Pipeline.arrRef spec1 1))) := by
  show (cfg1.win 2).cut (grid1.coords t) ((Gen.dat1 V c).after 2 t) = _
  rw [Gen.after1_2]
  funext j
  obtain ⟨p, q, rfl⟩ : ∃ (p : Fin 5000) (q : Fin 128), j = ix2 p q := ⟨j 0, j 1, eq_ix2 j⟩
  have ht : t.val < 10 := lt_of_lt_of_eq t.isLt (show cfg1.N = 10 from Gen.N_1)
  obtain ⟨-, -, -, -, e4, e5⟩ := idx1 t
  have hemb : ((cfg1.win 2).blk t).view.emb (ix2 p q)
      = (ix2 (⟨t.val * 5000 + p.val, by omega⟩ : Fin 50000) q : S50000x128.Idx) := by
    funext a
    apply Fin.ext
    match a with
    | ⟨0, _⟩ => show win1_2.index t (0 : Fin 2) * 5000 + 1 * p.val = t.val * 5000 + p.val; rw [e4]; omega
    | ⟨1, _⟩ => show win1_2.index t (1 : Fin 2) * 128 + 1 * q.val = q.val; rw [e5]; omega
  rw [View.read_apply, hemb, mm_apply]
  refine (out1_apply _ _ p q).trans ?_
  refine Finset.sum_congr rfl fun k _ => ?_
  rw [lhs1_apply V c t p k ⟨t.val * 5000 + p.val, by omega⟩ rfl, rhs1_apply V c t k q]

/-- An index of the array is in point `t`'s block iff each coordinate is in the block's range on its axis. -/
theorem mem_blk1 (t : Fin cfg1.N) (i : S50000x128.Idx) :
    i ∈ ((cfg1.win 2).blk t).view.set ↔ ∀ a : Fin 2, win1_2.index t a * S5000x128.size a ≤ (i a).val
      ∧ (i a).val < win1_2.index t a * S5000x128.size a + S5000x128.size a := by
  show i ∈ ((View.whole main_v48).slice (win1_2.rect t)).set ↔ _
  rw [View.set_slice_whole, Rect.mem_set_unit]
  exact Iff.rfl

/-- Every index of the output array is in some point's block: row `r` is in block `r / 5000`. -/
theorem cover1 (i : S50000x128.Idx) :
    ∃ t : Fin cfg1.N, (cfg1.win 2).flush t = true ∧ i ∈ ((cfg1.win 2).blk t).view.set := by
  have hi0 : (i 0).val < 50000 := idx2_lt0 i
  have hi1 : (i 1).val < 128 := idx2_lt1 i
  have hN : cfg1.N = 10 := Gen.N_1
  let t : Fin cfg1.N := ⟨(i 0).val / 5000, by rw [hN]; omega⟩
  obtain ⟨-, -, -, -, e4, e5⟩ := idx1 t
  have e4' : win1_2.index t (0 : Fin 2) = (i 0).val / 5000 := e4
  refine ⟨t, Gen.flush1_2 t, ?_⟩
  rw [mem_blk1]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-- After the region the output array holds the product of the two input arrays as the region found them. -/
theorem region1_eq (c : Dev nD) :
    (Gen.dat1 (F := Ideal) V c).arrAt 2 cfg1.N
      = mm (V c (Pipeline.arrRef spec1 0)) (V c (Pipeline.arrRef spec1 1)) :=
  (Gen.dat1 V c).arrAt_eq_of_cover 2 _ (fun t _ => flushed1_eq V c t) cover1

/-- The same, read at row `a` and column `b`, with the two input arrays named. -/
theorem region1_apply (c : Dev nD) (X : S50000x128.Idx → EReal) (W : S128x128.Idx → EReal)
    (hX : V c (Pipeline.arrRef spec1 0) = X) (hW : V c (Pipeline.arrRef spec1 1) = W)
    (a : Fin 50000) (b : Fin 128) :
    ((Gen.dat1 (F := Ideal) V c).arrAt 2 cfg1.N : S50000x128.Idx → EReal) (ix2 a b)
      = ∑ k : Fin 128, X (ix2 a k) * W (ix2 k b) := by
  subst hX hW
  rw [region1_eq]
  rfl

end Region1

end Cert.KernelIdeal.MatVal

end
-- ==== Proof.KerStages.lean ====
import proofs.«127112_j63660005261872_1_alg».proof.Proof.KerKeep
import proofs.«127112_j63660005261872_1_alg».proof.Proof.MatmulBlocks

/-!
# The kernel program's boundary contents, at the frame's own valuations

The contents of the buffers at the segment boundaries of the kernel program, read back to the launch memory `m`:
the two matmul regions' outputs as whole-array products of what the regions find; the argument arrays, which no
host operation and no region writes, as launched wherever a later stretch or region reads them; and the two rows
of the edge list, written once by the first stretch and read again by both layers.
-/

noncomputable section

namespace Cert.KernelIdeal.KerValue

open Cert.KernelIdeal Cert.KernelIdeal.Gen Cert.KernelIdeal.MatVal
open Idealize.ShloMosaic Idealize.ShloMosaic.TcCoe Idealize.ShloMosaic.StableHlo

variable (m : (ℓ : Loc nD τ sig) → Buf (Elt Ideal) ℓ) (ρ : Dev nD → PrngReg)

/-! ## The boundaries as folds -/

/-- The launch contents of a buffer are the launch memory's. -/
theorem W0_eq (c : Dev nD) (r : Ref sig .tc) : W0 m ρ c (Proc.devRef .tc r) = m ((c.tc : Thread nD τ).loc r) := rfl

/-- Region 1's entry contents: the first layer's four stretches folded over region 0's exit contents. -/
theorem W6_eq (c : Dev nD) :
    W6 m ρ c = StableHlo.after (hostOps1_3 (F := Ideal)) (StableHlo.after (hostOps1_2 (F := Ideal))
      (StableHlo.after (hostOps1_1 (F := Ideal)) (StableHlo.after (hostOps1 (F := Ideal)) (W2 m ρ c)))) := rfl

/-- Region 2's entry contents: the last five stretches folded over region 1's exit contents. -/
theorem W12_eq (c : Dev nD) :
    W12 m ρ c = StableHlo.after (hostOps2_4 (F := Ideal)) (StableHlo.after (hostOps2_3 (F := Ideal))
      (StableHlo.after (hostOps2_2 (F := Ideal)) (StableHlo.after (hostOps2_1 (F := Ideal))
        (StableHlo.after (hostOps2 (F := Ideal)) (W7 m ρ c))))) := rfl

/-! ## The two matmul regions -/

/-- Region 0 leaves the product of the node features and the first weight. -/
theorem K1 (c : Dev nD) :
    W2 m ρ c (Proc.devRef .tc main_v4) = mm (m ((c.tc : Thread nD τ).loc main_arg0)) (m ((c.tc : Thread nD τ).loc main_arg4)) := by
  have e0 : V1 m ρ c (Pipeline.arrRef spec0 0) = m ((c.tc : Thread nD τ).loc main_arg0) := W1_keep m ρ c (by decide)
  have e1 : V1 m ρ c (Pipeline.arrRef spec0 1) = m ((c.tc : Thread nD τ).loc main_arg4) := W1_keep m ρ c (by decide)
  refine ((W2_arr m ρ c 2).trans (region0_eq (V1 m ρ) c)).trans ?_
  rw [e0, e1]

/-- The second weight is as launched when region 1 is entered. -/
theorem W6_arg6 (c : Dev nD) : W6 m ρ c (Proc.devRef .tc main_arg6) = m ((c.tc : Thread nD τ).loc main_arg6) :=
  (W6_W2 m ρ c (by decide)).trans (W2_keep m ρ c (by decide) (by decide))

/-- Region 1 leaves the product of the first layer's output and the second weight. -/
theorem K3 (c : Dev nD) :
    W7 m ρ c (Proc.devRef .tc main_v48) = mm (W6 m ρ c (Proc.devRef .tc main_v47)) (m ((c.tc : Thread nD τ).loc main_arg6)) := by
  have e1 : V6 m ρ c (Pipeline.arrRef spec1 1) = m ((c.tc : Thread nD τ).loc main_arg6) := W6_arg6 m ρ c
  refine ((W7_arr m ρ c 2).trans (region1_eq (V6 m ρ) c)).trans ?_
  rw [e1]

/-! ## Arguments as launched -/

/-- The edge list at region 0's exit. -/
theorem W2_arg1 (c : Dev nD) : W2 m ρ c (Proc.devRef .tc main_arg1) = m ((c.tc : Thread nD τ).loc main_arg1) :=
  W2_keep m ρ c (by decide) (by decide)
/-- The first bias at region 0's exit. -/
theorem W2_arg5 (c : Dev nD) : W2 m ρ c (Proc.devRef .tc main_arg5) = m ((c.tc : Thread nD τ).loc main_arg5) :=
  W2_keep m ρ c (by decide) (by decide)
/-- Argument 1 at region 1's exit. -/
theorem W7_arg1 (c : Dev nD) : W7 m ρ c (Proc.devRef .tc main_arg1) = m ((c.tc : Thread nD τ).loc main_arg1) :=
  W7_keep m ρ c (by decide) (by decide) (by decide) (by decide)
/-- Argument 2 at region 1's exit. -/
theorem W7_arg2 (c : Dev nD) : W7 m ρ c (Proc.devRef .tc main_arg2) = m ((c.tc : Thread nD τ).loc main_arg2) :=
  W7_keep m ρ c (by decide) (by decide) (by decide) (by decide)
/-- Argument 3 at region 1's exit. -/
theorem W7_arg3 (c : Dev nD) : W7 m ρ c (Proc.devRef .tc main_arg3) = m ((c.tc : Thread nD τ).loc main_arg3) :=
  W7_keep m ρ c (by decide) (by decide) (by decide) (by decide)
/-- Argument 7 at region 1's exit. -/
theorem W7_arg7 (c : Dev nD) : W7 m ρ c (Proc.devRef .tc main_arg7) = m ((c.tc : Thread nD τ).loc main_arg7) :=
  W7_keep m ρ c (by decide) (by decide) (by decide) (by decide)
/-- Argument 8 at region 1's exit. -/
theorem W7_arg8 (c : Dev nD) : W7 m ρ c (Proc.devRef .tc main_arg8) = m ((c.tc : Thread nD τ).loc main_arg8) :=
  W7_keep m ρ c (by decide) (by decide) (by decide) (by decide)
/-- Argument 9 at region 1's exit. -/
theorem W7_arg9 (c : Dev nD) : W7 m ρ c (Proc.devRef .tc main_arg9) = m ((c.tc : Thread nD τ).loc main_arg9) :=
  W7_keep m ρ c (by decide) (by decide) (by decide) (by decide)
/-- Argument 10 at region 1's exit. -/
theorem W7_arg10 (c : Dev nD) : W7 m ρ c (Proc.devRef .tc main_arg10) = m ((c.tc : Thread nD τ).loc main_arg10) :=
  W7_keep m ρ c (by decide) (by decide) (by decide) (by decide)
/-- Argument 11 at region 1's exit. -/
theorem W7_arg11 (c : Dev nD) : W7 m ρ c (Proc.devRef .tc main_arg11) = m ((c.tc : Thread nD τ).loc main_arg11) :=
  W7_keep m ρ c (by decide) (by decide) (by decide) (by decide)
/-- Argument 12 at region 1's exit. -/
theorem W7_arg12 (c : Dev nD) : W7 m ρ c (Proc.devRef .tc main_arg12) = m ((c.tc : Thread nD τ).loc main_arg12) :=
  W7_keep m ρ c (by decide) (by decide) (by decide) (by decide)
/-- Argument 13 at region 1's exit. -/
theorem W7_arg13 (c : Dev nD) : W7 m ρ c (Proc.devRef .tc main_arg13) = m ((c.tc : Thread nD τ).loc main_arg13) :=
  W7_keep m ρ c (by decide) (by decide) (by decide) (by decide)
/-- Argument 14 at region 1's exit. -/
theorem W7_arg14 (c : Dev nD) : W7 m ρ c (Proc.devRef .tc main_arg14) = m ((c.tc : Thread nD τ).loc main_arg14) :=
  W7_keep m ρ c (by decide) (by decide) (by decide) (by decide)
/-- Argument 15 at region 1's exit. -/
theorem W7_arg15 (c : Dev nD) : W7 m ρ c (Proc.devRef .tc main_arg15) = m ((c.tc : Thread nD τ).loc main_arg15) :=
  W7_keep m ρ c (by decide) (by decide) (by decide) (by decide)
/-- Argument 16 at region 1's exit. -/
theorem W7_arg16 (c : Dev nD) : W7 m ρ c (Proc.devRef .tc main_arg16) = m ((c.tc : Thread nD τ).loc main_arg16) :=
  W7_keep m ρ c (by decide) (by decide) (by decide) (by decide)
/-- Argument 17 at region 1's exit. -/
theorem W7_arg17 (c : Dev nD) : W7 m ρ c (Proc.devRef .tc main_arg17) = m ((c.tc : Thread nD τ).loc main_arg17) :=
  W7_keep m ρ c (by decide) (by decide) (by decide) (by decide)
/-- Argument 18 at region 1's exit. -/
theorem W7_arg18 (c : Dev nD) : W7 m ρ c (Proc.devRef .tc main_arg18) = m ((c.tc : Thread nD τ).loc main_arg18) :=
  W7_keep m ρ c (by decide) (by decide) (by decide) (by decide)
/-- Argument 9, an array of region 2, at its entry. -/
theorem W12_arg9 (c : Dev nD) : W12 m ρ c (Proc.devRef .tc main_arg9) = m ((c.tc : Thread nD τ).loc main_arg9) :=
  W12_keep m ρ c (by decide) (by decide) (by decide) (by decide) (by decide) (by decide)
/-- Argument 13, an array of region 2, at its entry. -/
theorem W12_arg13 (c : Dev nD) : W12 m ρ c (Proc.devRef .tc main_arg13) = m ((c.tc : Thread nD τ).loc main_arg13) :=
  W12_keep m ρ c (by decide) (by decide) (by decide) (by decide) (by decide) (by decide)
/-- Argument 17, an array of region 2, at its entry. -/
theorem W12_arg17 (c : Dev nD) : W12 m ρ c (Proc.devRef .tc main_arg17) = m ((c.tc : Thread nD τ).loc main_arg17) :=
  W12_keep m ρ c (by decide) (by decide) (by decide) (by decide) (by decide) (by decide)

/-! ## The edge list's two rows -/

/-- The first row at region 0's exit is what the first stretch wrote. -/
theorem W2_v1 (c : Dev nD) : W2 m ρ c (Proc.devRef .tc main_v1)
    = StableHlo.after (hostOps0 (F := Ideal)) (W0 m ρ c) (Proc.devRef .tc main_v1) := W2_of_ne m ρ c main_v1 (by decide)
/-- The second row at region 0's exit is what the first stretch wrote. -/
theorem W2_v3 (c : Dev nD) : W2 m ρ c (Proc.devRef .tc main_v3)
    = StableHlo.after (hostOps0 (F := Ideal)) (W0 m ρ c) (Proc.devRef .tc main_v3) := W2_of_ne m ρ c main_v3 (by decide)
/-- The first row at region 1's exit is still what the first stretch wrote. -/
theorem W7_v1 (c : Dev nD) : W7 m ρ c (Proc.devRef .tc main_v1)
    = StableHlo.after (hostOps0 (F := Ideal)) (W0 m ρ c) (Proc.devRef .tc main_v1) :=
  (W7_of_ne m ρ c main_v1 (by decide)).trans ((W6_W2 m ρ c (by decide)).trans (W2_v1 m ρ c))
/-- The second row at region 1's exit is still what the first stretch wrote. -/
theorem W7_v3 (c : Dev nD) : W7 m ρ c (Proc.devRef .tc main_v3)
    = StableHlo.after (hostOps0 (F := Ideal)) (W0 m ρ c) (Proc.devRef .tc main_v3) :=
  (W7_of_ne m ρ c main_v3 (by decide)).trans ((W6_W2 m ρ c (by decide)).trans (W2_v3 m ρ c))

end Cert.KernelIdeal.KerValue

end
-- ==== Proof.KerRead.lean ====
/-
  The kernel program's host stretches, read as functions of arrays. From ANY contents W of the buffers: the first
  stretch leaves the edge list's two rows; the stretches between the first and the second region leave one
  graph-convolution layer (the reference's stage function) of the first region's product; the stretches between the second
  and the third region leave the third region's inputs — the second layer of the second region's product summed per
  graph, the embedding rows, and the seven bias and scale vectors as one-row matrices. Each fold computes, operation by
  operation, to the tree of the operations' functions, which is the stage function with its shared subterms named.
-/
import proofs.«127112_j63660005261872_1_alg».proof.Proof.Gen.KernelIdeal.Launch
import proofs.«127112_j63660005261872_1_alg».proof.Proof.RefSpec
import Idealize.ShloMosaic.Lib.StableHlo.Run

noncomputable section

namespace Cert.KernelIdeal.KerRead

open Cert.KernelIdeal Cert.KernelIdeal.Gen Idealize.ShloMosaic Idealize.ShloMosaic.TcCoe Idealize.SL.Sem Idealize.ShloMosaic.StableHlo

variable {F : FTy → Type} [FloatOps F] [Cert.KernelIdeal.Facts] [Cert.ReferenceIdeal.Facts]

/-! ## The edge list's two rows -/

set_option maxRecDepth 8192 in
set_option maxHeartbeats 4000000 in
/-- The first stretch leaves the edge list's first row. -/
theorem kread0_v1 (W : Valuation τ sig (Elt F)) :
    after hostOps0 W (Proc.devRef .tc main_v1) = shapeCast _ (extractStridedSlice S1x800000 ![0, 0] (W (Proc.devRef .tc main_arg1)) slices_S2x800000_S1x800000_0_0) shapeCasts_S1x800000_S800000 := by
  after_results_simp
  rfl

set_option maxRecDepth 8192 in
set_option maxHeartbeats 4000000 in
/-- The first stretch leaves the edge list's second row. -/
theorem kread0_v3 (W : Valuation τ sig (Elt F)) :
    after hostOps0 W (Proc.devRef .tc main_v3) = shapeCast _ (extractStridedSlice S1x800000 ![1, 0] (W (Proc.devRef .tc main_arg1)) slices_S2x800000_S1x800000_1_0) shapeCasts_S1x800000_S800000 := by
  after_results_simp
  rfl

/-! ## The first layer

The two rows joined to the node indices sit in a list of arrays paired with their shapes; the reads of the rows and of
the indices there go through the results of the operations before them, and are rewritten in place. -/

set_option maxRecDepth 8192 in
set_option maxHeartbeats 4000000 in
/-- From contents whose two row buffers hold the rows of an edge list E: the stretches after the first region leave
    the layer of the first region's product, over E and the first bias. -/
theorem kread1 (W : Valuation τ sig (Elt F)) (E : (⟨S2x800000, .i32⟩ : BufTy).Contents (Elt F))
    (h1 : W (Proc.devRef .tc main_v1) = shapeCast _ (extractStridedSlice S1x800000 ![0, 0] E slices_S2x800000_S1x800000_0_0) shapeCasts_S1x800000_S800000)
    (h3 : W (Proc.devRef .tc main_v3) = shapeCast _ (extractStridedSlice S1x800000 ![1, 0] E slices_S2x800000_S1x800000_1_0) shapeCasts_S1x800000_S800000) :
    after hostOps1_3 (after hostOps1_2 (after hostOps1_1 (after hostOps1 W))) (Proc.devRef .tc main_v47)
      = Cert.ReferenceIdeal.Spec.layer (W (Proc.devRef .tc main_v4)) E (W (Proc.devRef .tc main_arg5)) := by
  after_results_simp
  repeat (first
    | rw [nullary_result] | rw [binary_result]
    | (rw [nullary_result_ne]; rotate_left; decide)
    | (rw [binary_result_ne]; rotate_left; decide))
  rw [h1, h3]
  rfl

/-! ## The third region's inputs -/

set_option maxRecDepth 8192 in
set_option maxHeartbeats 4000000 in
/-- From contents whose two row buffers hold the rows of an edge list E: the stretches after the second region leave,
    in the pooled rows' buffer, the second layer of the second region's product summed per graph. -/
theorem kread2_pool (W : Valuation τ sig (Elt F)) (E : (⟨S2x800000, .i32⟩ : BufTy).Contents (Elt F))
    (h1 : W (Proc.devRef .tc main_v1) = shapeCast _ (extractStridedSlice S1x800000 ![0, 0] E slices_S2x800000_S1x800000_0_0) shapeCasts_S1x800000_S800000)
    (h3 : W (Proc.devRef .tc main_v3) = shapeCast _ (extractStridedSlice S1x800000 ![1, 0] E slices_S2x800000_S1x800000_1_0) shapeCasts_S1x800000_S800000) :
    after hostOps2_4 (after hostOps2_3 (after hostOps2_2 (after hostOps2_1 (after hostOps2 W)))) (Proc.devRef .tc main_v94)
      = Cert.ReferenceIdeal.Spec.pool (Cert.ReferenceIdeal.Spec.layer2 (W (Proc.devRef .tc main_v48)) E (W (Proc.devRef .tc main_arg7))) (W (Proc.devRef .tc main_arg2)) := by
  after_results_simp
  repeat (first
    | rw [nullary_result] | rw [binary_result]
    | (rw [nullary_result_ne]; rotate_left; decide)
    | (rw [binary_result_ne]; rotate_left; decide))
  rw [h1, h3]
  rfl

set_option maxRecDepth 8192 in
set_option maxHeartbeats 4000000 in
/-- The stretches after the second region leave the embedding rows of the graphs' cell lines. -/
theorem kread2_cell (W : Valuation τ sig (Elt F)) :
    after hostOps2_4 (after hostOps2_3 (after hostOps2_2 (after hostOps2_1 (after hostOps2 W)))) (Proc.devRef .tc main_v101)
      = Cert.ReferenceIdeal.Spec.cellRows (W (Proc.devRef .tc main_arg8)) (W (Proc.devRef .tc main_arg3)) := by
  after_results_simp
  rfl

set_option maxRecDepth 8192 in
set_option maxHeartbeats 4000000 in
/-- The stretches after the second region leave, in window 3's array, argument 10's vector as a one-row matrix. -/
theorem kread2_row3 (W : Valuation τ sig (Elt F)) :
    after hostOps2_4 (after hostOps2_3 (after hostOps2_2 (after hostOps2_1 (after hostOps2 W)))) (Proc.devRef .tc main_v102)
      = shapeCast S1x128 (W (Proc.devRef .tc main_arg10)) shapeCasts_S128_S1x128 := by
  after_results_simp
  rfl

set_option maxRecDepth 8192 in
set_option maxHeartbeats 4000000 in
/-- The stretches after the second region leave, in window 4's array, argument 11's vector as a one-row matrix. -/
theorem kread2_row4 (W : Valuation τ sig (Elt F)) :
    after hostOps2_4 (after hostOps2_3 (after hostOps2_2 (after hostOps2_1 (after hostOps2 W)))) (Proc.devRef .tc main_v103)
      = shapeCast S1x128 (W (Proc.devRef .tc main_arg11)) shapeCasts_S128_S1x128 := by
  after_results_simp
  rfl

set_option maxRecDepth 8192 in
set_option maxHeartbeats 4000000 in
/-- The stretches after the second region leave, in window 5's array, argument 12's vector as a one-row matrix. -/
theorem kread2_row5 (W : Valuation τ sig (Elt F)) :
    after hostOps2_4 (after hostOps2_3 (after hostOps2_2 (after hostOps2_1 (after hostOps2 W)))) (Proc.devRef .tc main_v104)
      = shapeCast S1x128 (W (Proc.devRef .tc main_arg12)) shapeCasts_S128_S1x128 := by
  after_results_simp
  rfl

set_option maxRecDepth 8192 in
set_option maxHeartbeats 4000000 in
/-- The stretches after the second region leave, in window 7's array, argument 14's vector as a one-row matrix. -/
theorem kread2_row7 (W : Valuation τ sig (Elt F)) :
    after hostOps2_4 (after hostOps2_3 (after hostOps2_2 (after hostOps2_1 (after hostOps2 W)))) (Proc.devRef .tc main_v105)
      = shapeCast S1x128 (W (Proc.devRef .tc main_arg14)) shapeCasts_S128_S1x128 := by
  after_results_simp
  rfl

set_option maxRecDepth 8192 in
set_option maxHeartbeats 4000000 in
/-- The stretches after the second region leave, in window 8's array, argument 15's vector as a one-row matrix. -/
theorem kread2_row8 (W : Valuation τ sig (Elt F)) :
    after hostOps2_4 (after hostOps2_3 (after hostOps2_2 (after hostOps2_1 (after hostOps2 W)))) (Proc.devRef .tc main_v106)
      = shapeCast S1x128 (W (Proc.devRef .tc main_arg15)) shapeCasts_S128_S1x128 := by
  after_results_simp
  rfl

set_option maxRecDepth 8192 in
set_option maxHeartbeats 4000000 in
/-- The stretches after the second region leave, in window 9's array, argument 16's vector as a one-row matrix. -/
theorem kread2_row9 (W : Valuation τ sig (Elt F)) :
    after hostOps2_4 (after hostOps2_3 (after hostOps2_2 (after hostOps2_1 (after hostOps2 W)))) (Proc.devRef .tc main_v107)
      = shapeCast S1x128 (W (Proc.devRef .tc main_arg16)) shapeCasts_S128_S1x128 := by
  after_results_simp
  rfl

set_option maxRecDepth 8192 in
set_option maxHeartbeats 4000000 in
/-- The stretches after the second region leave, in window 11's array, argument 18's vector as a one-row matrix. -/
theorem kread2_row11 (W : Valuation τ sig (Elt F)) :
    after hostOps2_4 (after hostOps2_3 (after hostOps2_2 (after hostOps2_1 (after hostOps2 W)))) (Proc.devRef .tc main_v108)
      = shapeCast S1x128 (W (Proc.devRef .tc main_arg18)) shapeCasts_S128_S1x128 := by
  after_results_simp
  rfl

end Cert.KernelIdeal.KerRead

end
-- ==== Proof.DotBridge.lean ====
/-
  The dense product of the node features against a weight matrix, in its two spellings: the sum over the 128 contracted
  columns that the kernel's row blocks add up to, and the host's rows-against-columns product. At the extended reals
  they are one function.
-/
import proofs.«127112_j63660005261872_1_alg».proof.Proof.HeadAlg
import proofs.«127112_j63660005261872_1_alg».proof.Proof.MatmulBlocks

noncomputable section

namespace Cert.DotBridge

open Idealize.ShloMosaic Idealize.ShloMosaic.ValueIdx

variable [Cert.KernelIdeal.Facts] [Cert.ReferenceIdeal.Facts]

/-- The 50000 × 128 by 128 × 128 product as a plain sum over the contracted index is the host's product: at each
    (row, column) both are the sum of the 128 products along the row and down the column. -/
theorem mm_eq_dot (X : Vec Ideal Cert.KernelIdeal.S50000x128 .f32) (W : Vec Ideal Cert.KernelIdeal.S128x128 .f32) :
    Cert.KernelIdeal.MatVal.mm X W
      = Host.dotGeneral (F := Ideal) (φ₁ := .f32) (φ₂ := .f32) Cert.ReferenceIdeal.dot_S50000x128_S128x128_S50000x128_1_0_0_1_n_n none X W := by
  funext i
  obtain ⟨a, b, rfl⟩ : ∃ (a : Fin 50000) (b : Fin 128), i = ix2 a b := ⟨i 0, i 1, eq_ix2 i⟩
  exact (Cert.HeadAlg.hostDot_apply (φ₁ := .f32) (φ₂ := .f32) Cert.ReferenceIdeal.dot_S50000x128_S128x128_S50000x128_1_0_0_1_n_n
    Cert.ReferenceIdeal.dot_S50000x128_S128x128_S50000x128_1_0_0_1_n_n.wf rfl X W a b).symm

end Cert.DotBridge

end
-- ==== Proof.KerValue.lean ====
/-
  The idealized kernel program's result, from the launch memory. The result buffer is the last region's output array;
  that region's value is the dense head of its twelve entry arrays; those are, going back through the host stretches
  and the two row-blocked products, the reference's stage functions of the launch arrays.
-/
import proofs.«127112_j63660005261872_1_alg».proof.Proof.HeadBlocks
import proofs.«127112_j63660005261872_1_alg».proof.Proof.HeadEq
import proofs.«127112_j63660005261872_1_alg».proof.Proof.KerStages
import proofs.«127112_j63660005261872_1_alg».proof.Proof.KerRead
import proofs.«127112_j63660005261872_1_alg».proof.Proof.DotBridge

set_option maxRecDepth 16384

noncomputable section

namespace Cert.KernelIdeal.KerValue

open Cert.KernelIdeal Cert.KernelIdeal.Gen
open Idealize.ShloMosaic Idealize.ShloMosaic.ValueIdx Idealize.ShloMosaic.TcCoe Idealize.SL.Sem Idealize.ShloMosaic.StableHlo

variable [Cert.KernelIdeal.Facts] [Cert.ReferenceIdeal.Facts]

/-- The result buffer holds the reference's head of the last region's entry arrays, the seven one-row operands being
    vectors read as one-row matrices. -/
theorem ker_head (m : (ℓ : Loc nD τ sig) → Buf (Elt Ideal) ℓ) (ρ : Dev nD → PrngReg) (c : Dev nD)
    (g : Vec Ideal S512x128 .f32) (ce : Vec Ideal S512x64 .f32) (Wc : Vec Ideal S192x128 .f32)
    (bc lw lb bf1 l1w l1b bf2 : Vec Ideal S128 .f32) (Wf1 Wf2 : Vec Ideal S128x128 .f32)
    (hs : S128.ShapeCasts S1x128)
    (h0 : Gen.V12 (F := Ideal) m ρ c (Pipeline.arrRef spec2 0) = g)
    (h1 : Gen.V12 (F := Ideal) m ρ c (Pipeline.arrRef spec2 1) = ce)
    (h2 : Gen.V12 (F := Ideal) m ρ c (Pipeline.arrRef spec2 2) = Wc)
    (h3 : Gen.V12 (F := Ideal) m ρ c (Pipeline.arrRef spec2 3) = shapeCast S1x128 bc hs)
    (h4 : Gen.V12 (F := Ideal) m ρ c (Pipeline.arrRef spec2 4) = shapeCast S1x128 lw hs)
    (h5 : Gen.V12 (F := Ideal) m ρ c (Pipeline.arrRef spec2 5) = shapeCast S1x128 lb hs)
    (h6 : Gen.V12 (F := Ideal) m ρ c (Pipeline.arrRef spec2 6) = Wf1)
    (h7 : Gen.V12 (F := Ideal) m ρ c (Pipeline.arrRef spec2 7) = shapeCast S1x128 bf1 hs)
    (h8 : Gen.V12 (F := Ideal) m ρ c (Pipeline.arrRef spec2 8) = shapeCast S1x128 l1w hs)
    (h9 : Gen.V12 (F := Ideal) m ρ c (Pipeline.arrRef spec2 9) = shapeCast S1x128 l1b hs)
    (h10 : Gen.V12 (F := Ideal) m ρ c (Pipeline.arrRef spec2 10) = Wf2)
    (h11 : Gen.V12 (F := Ideal) m ρ c (Pipeline.arrRef spec2 11) = shapeCast S1x128 bf2 hs) :
    Gen.W13 (F := Ideal) m ρ c (Proc.devRef .tc main_v109)
      = Cert.ReferenceIdeal.Spec.head2 (Cert.ReferenceIdeal.Spec.head1 g ce Wc bc lw lb) Wf1 bf1 l1w l1b Wf2 bf2 :=
  ((Gen.W13_arr (F := Ideal) m ρ c 12).trans
    (MatVal.region2_eq (Gen.V12 (F := Ideal) m ρ) c _ _ _ _ _ _ _ _ _ _ _ _ h0 h1 h2 h3 h4 h5 h6 h7 h8 h9 h10 h11)).trans
    (Cert.HeadEq.head_eq g ce Wc bc lw lb bf1 l1w l1b bf2 Wf1 Wf2 hs)

variable (m : (ℓ : Loc nD τ sig) → Buf (Elt Ideal) ℓ) (ρ : Dev nD → PrngReg) (c : Dev nD)

/-! ## The edge list's rows, from the launch memory -/

theorem row0_W2 : W2 m ρ c (Proc.devRef .tc main_v1) = shapeCast _ (extractStridedSlice S1x800000 ![0, 0] (m ((c.tc : Thread nD τ).loc main_arg1)) slices_S2x800000_S1x800000_0_0) shapeCasts_S1x800000_S800000 :=
  (W2_v1 m ρ c).trans (KerRead.kread0_v1 (F := Ideal) (W0 m ρ c))
theorem row1_W2 : W2 m ρ c (Proc.devRef .tc main_v3) = shapeCast _ (extractStridedSlice S1x800000 ![1, 0] (m ((c.tc : Thread nD τ).loc main_arg1)) slices_S2x800000_S1x800000_1_0) shapeCasts_S1x800000_S800000 :=
  (W2_v3 m ρ c).trans (KerRead.kread0_v3 (F := Ideal) (W0 m ρ c))
theorem row0_W7 : W7 m ρ c (Proc.devRef .tc main_v1) = shapeCast _ (extractStridedSlice S1x800000 ![0, 0] (m ((c.tc : Thread nD τ).loc main_arg1)) slices_S2x800000_S1x800000_0_0) shapeCasts_S1x800000_S800000 :=
  (W7_v1 m ρ c).trans (KerRead.kread0_v1 (F := Ideal) (W0 m ρ c))
theorem row1_W7 : W7 m ρ c (Proc.devRef .tc main_v3) = shapeCast _ (extractStridedSlice S1x800000 ![1, 0] (m ((c.tc : Thread nD τ).loc main_arg1)) slices_S2x800000_S1x800000_1_0) shapeCasts_S1x800000_S800000 :=
  (W7_v3 m ρ c).trans (KerRead.kread0_v3 (F := Ideal) (W0 m ρ c))

/-! ## The two layers -/

/-- Region 0's product is the host's. -/
theorem prod0 : W2 m ρ c (Proc.devRef .tc main_v4) = Host.dotGeneral (F := Ideal) (φ₁ := .f32) (φ₂ := .f32) Cert.ReferenceIdeal.dot_S50000x128_S128x128_S50000x128_1_0_0_1_n_n none (m ((c.tc : Thread nD τ).loc main_arg0)) (m ((c.tc : Thread nD τ).loc main_arg4)) :=
  (K1 m ρ c).trans (Cert.DotBridge.mm_eq_dot _ _)

/-- The first layer's output, at region 1's entry. -/
theorem layer1_val : W6 m ρ c (Proc.devRef .tc main_v47) = (Cert.ReferenceIdeal.Spec.layer (Host.dotGeneral (F := Ideal) (φ₁ := .f32) (φ₂ := .f32) Cert.ReferenceIdeal.dot_S50000x128_S128x128_S50000x128_1_0_0_1_n_n none (m ((c.tc : Thread nD τ).loc main_arg0)) (m ((c.tc : Thread nD τ).loc main_arg4))) (m ((c.tc : Thread nD τ).loc main_arg1)) (m ((c.tc : Thread nD τ).loc main_arg5))) := by
  refine (congrFun (W6_eq m ρ c) _).trans ?_
  refine (KerRead.kread1 (F := Ideal) (W2 m ρ c) (m ((c.tc : Thread nD τ).loc main_arg1)) (row0_W2 m ρ c) (row1_W2 m ρ c)).trans ?_
  rw [prod0 m ρ c, W2_arg5 m ρ c]

/-- Region 1's product is the host's, of the first layer's output. -/
theorem prod1 : W7 m ρ c (Proc.devRef .tc main_v48) = Host.dotGeneral (F := Ideal) (φ₁ := .f32) (φ₂ := .f32) Cert.ReferenceIdeal.dot_S50000x128_S128x128_S50000x128_1_0_0_1_n_n none (Cert.ReferenceIdeal.Spec.layer (Host.dotGeneral (F := Ideal) (φ₁ := .f32) (φ₂ := .f32) Cert.ReferenceIdeal.dot_S50000x128_S128x128_S50000x128_1_0_0_1_n_n none (m ((c.tc : Thread nD τ).loc main_arg0)) (m ((c.tc : Thread nD τ).loc main_arg4))) (m ((c.tc : Thread nD τ).loc main_arg1)) (m ((c.tc : Thread nD τ).loc main_arg5))) (m ((c.tc : Thread nD τ).loc main_arg6)) := by
  refine (K3 m ρ c).trans ?_
  rw [layer1_val m ρ c]
  exact Cert.DotBridge.mm_eq_dot _ _

/-! ## Region 2's entry arrays -/

theorem entry0 : V12 m ρ c (Pipeline.arrRef spec2 0) = (Cert.ReferenceIdeal.Spec.pool (Cert.ReferenceIdeal.Spec.layer2 (Host.dotGeneral (F := Ideal) (φ₁ := .f32) (φ₂ := .f32) Cert.ReferenceIdeal.dot_S50000x128_S128x128_S50000x128_1_0_0_1_n_n none (Cert.ReferenceIdeal.Spec.layer (Host.dotGeneral (F := Ideal) (φ₁ := .f32) (φ₂ := .f32) Cert.ReferenceIdeal.dot_S50000x128_S128x128_S50000x128_1_0_0_1_n_n none (m ((c.tc : Thread nD τ).loc main_arg0)) (m ((c.tc : Thread nD τ).loc main_arg4))) (m ((c.tc : Thread nD τ).loc main_arg1)) (m ((c.tc : Thread nD τ).loc main_arg5))) (m ((c.tc : Thread nD τ).loc main_arg6))) (m ((c.tc : Thread nD τ).loc main_arg1)) (m ((c.tc : Thread nD τ).loc main_arg7))) (m ((c.tc : Thread nD τ).loc main_arg2))) := by
  show W12 m ρ c (Proc.devRef .tc main_v94) = _
  refine (congrFun (W12_eq m ρ c) _).trans ?_
  refine (KerRead.kread2_pool (F := Ideal) (W7 m ρ c) (m ((c.tc : Thread nD τ).loc main_arg1)) (row0_W7 m ρ c) (row1_W7 m ρ c)).trans ?_
  rw [prod1 m ρ c, W7_arg7 m ρ c, W7_arg2 m ρ c]

theorem entry1 : V12 m ρ c (Pipeline.arrRef spec2 1) = (Cert.ReferenceIdeal.Spec.cellRows (m ((c.tc : Thread nD τ).loc main_arg8)) (m ((c.tc : Thread nD τ).loc main_arg3))) := by
  show W12 m ρ c (Proc.devRef .tc main_v101) = _
  refine (congrFun (W12_eq m ρ c) _).trans ?_
  refine (KerRead.kread2_cell (F := Ideal) (W7 m ρ c)).trans ?_
  rw [W7_arg8 m ρ c, W7_arg3 m ρ c]

theorem entry3 : V12 m ρ c (Pipeline.arrRef spec2 3) = shapeCast S1x128 (m ((c.tc : Thread nD τ).loc main_arg10)) shapeCasts_S128_S1x128 := by
  show W12 m ρ c (Proc.devRef .tc main_v102) = _
  refine (congrFun (W12_eq m ρ c) _).trans ?_
  refine (KerRead.kread2_row3 (F := Ideal) (W7 m ρ c)).trans ?_
  rw [W7_arg10 m ρ c]

theorem entry4 : V12 m ρ c (Pipeline.arrRef spec2 4) = shapeCast S1x128 (m ((c.tc : Thread nD τ).loc main_arg11)) shapeCasts_S128_S1x128 := by
  show W12 m ρ c (Proc.devRef .tc main_v103) = _
  refine (congrFun (W12_eq m ρ c) _).trans ?_
  refine (KerRead.kread2_row4 (F := Ideal) (W7 m ρ c)).trans ?_
  rw [W7_arg11 m ρ c]

theorem entry5 : V12 m ρ c (Pipeline.arrRef spec2 5) = shapeCast S1x128 (m ((c.tc : Thread nD τ).loc main_arg12)) shapeCasts_S128_S1x128 := by
  show W12 m ρ c (Proc.devRef .tc main_v104) = _
  refine (congrFun (W12_eq m ρ c) _).trans ?_
  refine (KerRead.kread2_row5 (F := Ideal) (W7 m ρ c)).trans ?_
  rw [W7_arg12 m ρ c]

theorem entry7 : V12 m ρ c (Pipeline.arrRef spec2 7) = shapeCast S1x128 (m ((c.tc : Thread nD τ).loc main_arg14)) shapeCasts_S128_S1x128 := by
  show W12 m ρ c (Proc.devRef .tc main_v105) = _
  refine (congrFun (W12_eq m ρ c) _).trans ?_
  refine (KerRead.kread2_row7 (F := Ideal) (W7 m ρ c)).trans ?_
  rw [W7_arg14 m ρ c]

theorem entry8 : V12 m ρ c (Pipeline.arrRef spec2 8) = shapeCast S1x128 (m ((c.tc : Thread nD τ).loc main_arg15)) shapeCasts_S128_S1x128 := by
  show W12 m ρ c (Proc.devRef .tc main_v106) = _
  refine (congrFun (W12_eq m ρ c) _).trans ?_
  refine (KerRead.kread2_row8 (F := Ideal) (W7 m ρ c)).trans ?_
  rw [W7_arg15 m ρ c]

theorem entry9 : V12 m ρ c (Pipeline.arrRef spec2 9) = shapeCast S1x128 (m ((c.tc : Thread nD τ).loc main_arg16)) shapeCasts_S128_S1x128 := by
  show W12 m ρ c (Proc.devRef .tc main_v107) = _
  refine (congrFun (W12_eq m ρ c) _).trans ?_
  refine (KerRead.kread2_row9 (F := Ideal) (W7 m ρ c)).trans ?_
  rw [W7_arg16 m ρ c]

theorem entry11 : V12 m ρ c (Pipeline.arrRef spec2 11) = shapeCast S1x128 (m ((c.tc : Thread nD τ).loc main_arg18)) shapeCasts_S128_S1x128 := by
  show W12 m ρ c (Proc.devRef .tc main_v108) = _
  refine (congrFun (W12_eq m ρ c) _).trans ?_
  refine (KerRead.kread2_row11 (F := Ideal) (W7 m ρ c)).trans ?_
  rw [W7_arg18 m ρ c]

/-! ## The result -/

/-- The result buffer holds the reference's stage functions composed over the launch memory's argument arrays. -/
theorem ker_value :
    Gen.W13 (F := Ideal) m ρ c (Proc.devRef .tc main_v109)
      = Cert.ReferenceIdeal.Spec.head2 (Cert.ReferenceIdeal.Spec.head1 (Cert.ReferenceIdeal.Spec.pool (Cert.ReferenceIdeal.Spec.layer2 (Host.dotGeneral (F := Ideal) (φ₁ := .f32) (φ₂ := .f32) Cert.ReferenceIdeal.dot_S50000x128_S128x128_S50000x128_1_0_0_1_n_n none (Cert.ReferenceIdeal.Spec.layer (Host.dotGeneral (F := Ideal) (φ₁ := .f32) (φ₂ := .f32) Cert.ReferenceIdeal.dot_S50000x128_S128x128_S50000x128_1_0_0_1_n_n none (m ((c.tc : Thread nD τ).loc main_arg0)) (m ((c.tc : Thread nD τ).loc main_arg4))) (m ((c.tc : Thread nD τ).loc main_arg1)) (m ((c.tc : Thread nD τ).loc main_arg5))) (m ((c.tc : Thread nD τ).loc main_arg6))) (m ((c.tc : Thread nD τ).loc main_arg1)) (m ((c.tc : Thread nD τ).loc main_arg7))) (m ((c.tc : Thread nD τ).loc main_arg2))) (Cert.ReferenceIdeal.Spec.cellRows (m ((c.tc : Thread nD τ).loc main_arg8)) (m ((c.tc : Thread nD τ).loc main_arg3))) (m ((c.tc : Thread nD τ).loc main_arg9)) (m ((c.tc : Thread nD τ).loc main_arg10)) (m ((c.tc : Thread nD τ).loc main_arg11)) (m ((c.tc : Thread nD τ).loc main_arg12))) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) :=
  ker_head m ρ c _ _ _ _ _ _ _ _ _ _ _ _ shapeCasts_S128_S1x128
    (entry0 m ρ c) (entry1 m ρ c) (W12_arg9 m ρ c) (entry3 m ρ c) (entry4 m ρ c) (entry5 m ρ c) (W12_arg13 m ρ c)
    (entry7 m ρ c) (entry8 m ρ c) (entry9 m ρ c) (W12_arg17 m ρ c) (entry11 m ρ c)

end Cert.KernelIdeal.KerValue

end
-- ==== Proof.RefOps.lean ====
/-
  The reference program's @main as a list of host operations, in the program's order: each statement of @main is one
  operation; a call is its callee's operations over the call's own buffers, the callee's arguments read at the call's
  operands (a call nested in a callee likewise). The list is cut into eight consecutive pieces, each ending where an
  intermediate array of the computation is complete; beside each piece, the buffers its operations write and that every
  operation touches TensorCore buffers only.
-/
import proofs.«127112_j63660005261872_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 1 … 63 of the reference's 242, in order (statements 1 … 59 of @main, a call's
    body listed at the call over the call's buffers); the last writes main_v47. -/
abbrev ops1 : List (HloOp τ sig (Elt F)) :=
  [ StableHlo.unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v0 main_v1 rfl shapeCasts_S1x800000_S800000,
    StableHlo.unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v2 main_v3 rfl shapeCasts_S1x800000_S800000,
    StableHlo.nullary main_v4 (iotaInDim S50000 32 0),
    StableHlo.binary main_v1 main_v4 main_v5 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.binary main_v3 main_v4 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.nullary main_cst (constant S_ .f32 0x3F800000#32),
    StableHlo.unary main_cst main_v7 (broadcastInDim S850000 ![] bcast_S_S850000 : (⟨S_, .f32⟩ : BufTy).Contents (Elt F) → (⟨S850000, .f32⟩ : BufTy).Contents (Elt F)),
    StableHlo.nullary main_cst_0 (constant S_ .f32 0x00000000#32),
    StableHlo.unary main_cst_0 main_v8 (broadcastInDim S50000 ![] bcast_S_S50000 : (⟨S_, .f32⟩ : BufTy).Contents (Elt F) → (⟨S50000, .f32⟩ : BufTy).Contents (Elt F)),
    StableHlo.unary main_v6 main_v9 (broadcastInDim S850000x1 ![0] bcast_S850000_S850000x1_0 : (⟨S850000, .i32⟩ : BufTy).Contents (Elt F) → (⟨S850000x1, .i32⟩ : BufTy).Contents (Elt F)),
    StableHlo.ternary main_v8 main_v9 main_v7 main_v10 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    StableHlo.nullary main_cst_1 (constant S_ .f32 0x00000000#32),
    StableHlo.unary main_cst_1 main_v11 (broadcastInDim S50000 ![] bcast_S_S50000 : (⟨S_, .f32⟩ : BufTy).Contents (Elt F) → (⟨S50000, .f32⟩ : BufTy).Contents (Elt F)),
    StableHlo.binary main_v10 main_v11 main_v12 (cmpf .ogt : (⟨S50000, .f32⟩ : BufTy).Contents (Elt F) → (⟨S50000, .f32⟩ : BufTy).Contents (Elt F) → (⟨S50000, .i1⟩ : BufTy).Contents (Elt F)),
    StableHlo.unary main_v10 main_v13 (Host.rsqrt : (⟨S50000, .f32⟩ : BufTy).Contents (Elt F) → (⟨S50000, .f32⟩ : BufTy).Contents (Elt F)),
    StableHlo.nullary main_cst_2 (constant S_ .f32 0x00000000#32),
    StableHlo.TRef.unary (.of main_cst_2 : StableHlo.TRef sig ⟨S_, .f32⟩) main_call0.v0 id,
    StableHlo.TRef.unary main_call0.v0 main_call0.v1 (broadcastInDim S50000 ![] bcast_S_S50000),
    StableHlo.TRef.ternary (.of main_v12 : StableHlo.TRef sig ⟨S50000, .i1⟩) (.of main_v13 : StableHlo.TRef sig ⟨S50000, .f32⟩) main_call0.v1 main_call0.v2 select,
    StableHlo.nullary main_c (constantI S_ 32 0#32),
    StableHlo.unary main_c main_v15 (broadcastInDim S850000 ![] bcast_S_S850000 : (⟨S_, .i32⟩ : BufTy).Contents (Elt F) → (⟨S850000, .i32⟩ : BufTy).Contents (Elt F)),
    StableHlo.binary main_v5 main_v15 main_v16 (cmpi .slt : (⟨S850000, .i32⟩ : BufTy).Contents (Elt F) → (⟨S850000, .i32⟩ : BufTy).Contents (Elt F) → (⟨S850000, .i1⟩ : BufTy).Contents (Elt F)),
    StableHlo.nullary main_c_3 (constantI S_ 32 50000#32),
    StableHlo.unary main_c_3 main_v17 (broadcastInDim S850000 ![] bcast_S_S850000 : (⟨S_, .i32⟩ : BufTy).Contents (Elt F) → (⟨S850000, .i32⟩ : BufTy).Contents (Elt F)),
    StableHlo.binary main_v5 main_v17 main_v18 (addi : (⟨S850000, .i32⟩ : BufTy).Contents (Elt F) → (⟨S850000, .i32⟩ : BufTy).Contents (Elt F) → (⟨S850000, .i32⟩ : BufTy).Contents (Elt F)),
    StableHlo.ternary main_v16 main_v18 main_v5 main_v19 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v19 main_v20 (broadcastInDim S850000x1 ![0] bcast_S850000_S850000x1_0 : (⟨S850000, .i32⟩ : BufTy).Contents (Elt F) → (⟨S850000x1, .i32⟩ : BufTy).Contents (Elt F)),
    StableHlo.binary main_v14 main_v20 main_v21 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.nullary main_c_4 (constantI S_ 32 0#32),
    StableHlo.unary main_c_4 main_v22 (broadcastInDim S850000 ![] bcast_S_S850000 : (⟨S_, .i32⟩ : BufTy).Contents (Elt F) → (⟨S850000, .i32⟩ : BufTy).Contents (Elt F)),
    StableHlo.binary main_v6 main_v22 main_v23 (cmpi .slt : (⟨S850000, .i32⟩ : BufTy).Contents (Elt F) → (⟨S850000, .i32⟩ : BufTy).Contents (Elt F) → (⟨S850000, .i1⟩ : BufTy).Contents (Elt F)),
    StableHlo.nullary main_c_5 (constantI S_ 32 50000#32),
    StableHlo.unary main_c_5 main_v24 (broadcastInDim S850000 ![] bcast_S_S850000 : (⟨S_, .i32⟩ : BufTy).Contents (Elt F) → (⟨S850000, .i32⟩ : BufTy).Contents (Elt F)),
    StableHlo.binary main_v6 main_v24 main_v25 (addi : (⟨S850000, .i32⟩ : BufTy).Contents (Elt F) → (⟨S850000, .i32⟩ : BufTy).Contents (Elt F) → (⟨S850000, .i32⟩ : BufTy).Contents (Elt F)),
    StableHlo.ternary main_v23 main_v25 main_v6 main_v26 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v26 main_v27 (broadcastInDim S850000x1 ![0] bcast_S850000_S850000x1_0 : (⟨S850000, .i32⟩ : BufTy).Contents (Elt F) → (⟨S850000x1, .i32⟩ : BufTy).Contents (Elt F)),
    StableHlo.binary main_v14 main_v27 main_v28 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.binary main_v21 main_v28 main_v29 (mulf : (⟨S850000, .f32⟩ : BufTy).Contents (Elt F) → (⟨S850000, .f32⟩ : BufTy).Contents (Elt F) → (⟨S850000, .f32⟩ : BufTy).Contents (Elt F)),
    StableHlo.binary main_arg0 main_arg4 main_v30 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_c_6 (constantI S_ 32 0#32),
    StableHlo.unary main_c_6 main_v31 (broadcastInDim S850000 ![] bcast_S_S850000 : (⟨S_, .i32⟩ : BufTy).Contents (Elt F) → (⟨S850000, .i32⟩ : BufTy).Contents (Elt F)),
    StableHlo.binary main_v5 main_v31 main_v32 (cmpi .slt : (⟨S850000, .i32⟩ : BufTy).Contents (Elt F) → (⟨S850000, .i32⟩ : BufTy).Contents (Elt F) → (⟨S850000, .i1⟩ : BufTy).Contents (Elt F)),
    StableHlo.nullary main_c_7 (constantI S_ 32 50000#32),
    StableHlo.unary main_c_7 main_v33 (broadcastInDim S850000 ![] bcast_S_S850000 : (⟨S_, .i32⟩ : BufTy).Contents (Elt F) → (⟨S850000, .i32⟩ : BufTy).Contents (Elt F)),
    StableHlo.binary main_v5 main_v33 main_v34 (addi : (⟨S850000, .i32⟩ : BufTy).Contents (Elt F) → (⟨S850000, .i32⟩ : BufTy).Contents (Elt F) → (⟨S850000, .i32⟩ : BufTy).Contents (Elt F)),
    StableHlo.ternary main_v32 main_v34 main_v5 main_v35 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v35 main_v36 (broadcastInDim S850000x1 ![0] bcast_S850000_S850000x1_0 : (⟨S850000, .i32⟩ : BufTy).Contents (Elt F) → (⟨S850000x1, .i32⟩ : BufTy).Contents (Elt F)),
    StableHlo.binary main_v30 main_v36 main_v37 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    StableHlo.unary main_v29 main_v38 (broadcastInDim S850000x1 ![0] bcast_S850000_S850000x1_0 : (⟨S850000, .f32⟩ : BufTy).Contents (Elt F) → (⟨S850000x1, .f32⟩ : BufTy).Contents (Elt F)),
    StableHlo.unary main_v38 main_v39 (broadcastInDim S850000x128 ![0, 1] bcast_S850000x1_S850000x128_0_1 : (⟨S850000x1, .f32⟩ : BufTy).Contents (Elt F) → (⟨S850000x128, .f32⟩ : BufTy).Contents (Elt F)),
    StableHlo.binary main_v37 main_v39 main_v40 (mulf : (⟨S850000x128, .f32⟩ : BufTy).Contents (Elt F) → (⟨S850000x128, .f32⟩ : BufTy).Contents (Elt F) → (⟨S850000x128, .f32⟩ : BufTy).Contents (Elt F)),
    StableHlo.nullary main_cst_8 (constant S_ .f32 0x00000000#32),
    StableHlo.unary main_cst_8 main_v41 (broadcastInDim S50000x128 ![] bcast_S_S50000x128 : (⟨S_, .f32⟩ : BufTy).Contents (Elt F) → (⟨S50000x128, .f32⟩ : BufTy).Contents (Elt F)),
    StableHlo.unary main_v6 main_v42 (broadcastInDim S850000x1 ![0] bcast_S850000_S850000x1_0 : (⟨S850000, .i32⟩ : BufTy).Contents (Elt F) → (⟨S850000x1, .i32⟩ : BufTy).Contents (Elt F)),
    StableHlo.ternary main_v41 main_v42 main_v40 main_v43 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    StableHlo.unary main_arg5 main_v44 (broadcastInDim S1x128 ![1] bcast_S128_S1x128_1 : (⟨S128, .f32⟩ : BufTy).Contents (Elt F) → (⟨S1x128, .f32⟩ : BufTy).Contents (Elt F)),
    StableHlo.unary main_v44 main_v45 (broadcastInDim S50000x128 ![0, 1] bcast_S1x128_S50000x128_0_1 : (⟨S1x128, .f32⟩ : BufTy).Contents (Elt F) → (⟨S50000x128, .f32⟩ : BufTy).Contents (Elt F)),
    StableHlo.binary main_v43 main_v45 main_v46 (addf : (⟨S50000x128, .f32⟩ : BufTy).Contents (Elt F) → (⟨S50000x128, .f32⟩ : BufTy).Contents (Elt F) → (⟨S50000x128, .f32⟩ : BufTy).Contents (Elt F)),
    StableHlo.TRef.nullary main_call1.cst (constant S_ .f32 0x00000000#32),
    StableHlo.TRef.unary main_call1.cst main_call1.v0 (broadcastInDim S50000x128 ![] bcast_S_S50000x128),
    StableHlo.TRef.binary (.of main_v46 : StableHlo.TRef sig ⟨S50000x128, .f32⟩) main_call1.v0 main_call1.v1 maximumf ]
/-- The buffers ops1's operations write, in order. -/
abbrev ops1_W : List (Ref sig .tc) :=
  [main_v0, main_v1, main_v2, main_v3, main_v4, main_v5, main_v6, main_cst, main_v7, main_cst_0, main_v8, main_v9, main_v10, main_cst_1, main_v11, main_v12, main_v13, main_cst_2, main_call0_v0, main_call0_v1, main_v14, main_c, main_v15, main_v16, main_c_3, main_v17, main_v18, main_v19, main_v20, main_v21, main_c_4, main_v22, main_v23, main_c_5, main_v24, main_v25, main_v26, main_v27, main_v28, main_v29, main_v30, main_c_6, main_v31, main_v32, main_c_7, main_v33, main_v34, main_v35, main_v36, main_v37, main_v38, main_v39, main_v40, main_cst_8, main_v41, main_v42, main_v43, main_v44, main_v45, main_v46, main_call1_cst, main_call1_v0, main_v47]
set_option maxRecDepth 8192 in
/-- Each operation of ops1 touches TensorCore references only. -/
theorem ops1_sub : (ops1 : List (HloOp τ sig (Elt F))).Forall fun op => op.bufs ⊆ tcRefs τ sig :=
  ⟨unary_bufs_sub .., reshape_bufs_sub .., unary_bufs_sub .., reshape_bufs_sub .., nullary_bufs_sub .., binary_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub ..⟩

/-- Operations 64 … 64 of the reference's 242, in order (statements 60 … 60 of @main, a call's
    body listed at the call over the call's buffers); the last writes main_v48. -/
abbrev ops2 : List (HloOp τ sig (Elt F)) :=
  [ StableHlo.nullary main_v48 (iotaInDim S50000 32 0) ]
/-- The buffers ops2's operations write, in order. -/
abbrev ops2_W : List (Ref sig .tc) :=
  [main_v48]
set_option maxRecDepth 8192 in
/-- Each operation of ops2 touches TensorCore references only. -/
theorem ops2_sub : (ops2 : List (HloOp τ sig (Elt F))).Forall fun op => op.bufs ⊆ tcRefs τ sig :=
  nullary_bufs_sub ..

/-- Operations 65 … 122 of the reference's 242, in order (statements 61 … 114 of @main, a call's
    body listed at the call over the call's buffers); the last writes main_v91. -/
abbrev ops3 : List (HloOp τ sig (Elt F)) :=
  [ StableHlo.binary main_v1 main_v48 main_v49 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.binary main_v3 main_v48 main_v50 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.nullary main_cst_9 (constant S_ .f32 0x3F800000#32),
    StableHlo.unary main_cst_9 main_v51 (broadcastInDim S850000 ![] bcast_S_S850000 : (⟨S_, .f32⟩ : BufTy).Contents (Elt F) → (⟨S850000, .f32⟩ : BufTy).Contents (Elt F)),
    StableHlo.nullary main_cst_10 (constant S_ .f32 0x00000000#32),
    StableHlo.unary main_cst_10 main_v52 (broadcastInDim S50000 ![] bcast_S_S50000 : (⟨S_, .f32⟩ : BufTy).Contents (Elt F) → (⟨S50000, .f32⟩ : BufTy).Contents (Elt F)),
    StableHlo.unary main_v50 main_v53 (broadcastInDim S850000x1 ![0] bcast_S850000_S850000x1_0 : (⟨S850000, .i32⟩ : BufTy).Contents (Elt F) → (⟨S850000x1, .i32⟩ : BufTy).Contents (Elt F)),
    StableHlo.ternary main_v52 main_v53 main_v51 main_v54 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    StableHlo.nullary main_cst_11 (constant S_ .f32 0x00000000#32),
    StableHlo.unary main_cst_11 main_v55 (broadcastInDim S50000 ![] bcast_S_S50000 : (⟨S_, .f32⟩ : BufTy).Contents (Elt F) → (⟨S50000, .f32⟩ : BufTy).Contents (Elt F)),
    StableHlo.binary main_v54 main_v55 main_v56 (cmpf .ogt : (⟨S50000, .f32⟩ : BufTy).Contents (Elt F) → (⟨S50000, .f32⟩ : BufTy).Contents (Elt F) → (⟨S50000, .i1⟩ : BufTy).Contents (Elt F)),
    StableHlo.unary main_v54 main_v57 (Host.rsqrt : (⟨S50000, .f32⟩ : BufTy).Contents (Elt F) → (⟨S50000, .f32⟩ : BufTy).Contents (Elt F)),
    StableHlo.nullary main_cst_12 (constant S_ .f32 0x00000000#32),
    StableHlo.TRef.unary (.of main_cst_12 : StableHlo.TRef sig ⟨S_, .f32⟩) main_call2.v0 id,
    StableHlo.TRef.unary main_call2.v0 main_call2.v1 (broadcastInDim S50000 ![] bcast_S_S50000),
    StableHlo.TRef.ternary (.of main_v56 : StableHlo.TRef sig ⟨S50000, .i1⟩) (.of main_v57 : StableHlo.TRef sig ⟨S50000, .f32⟩) main_call2.v1 main_call2.v2 select,
    StableHlo.nullary main_c_13 (constantI S_ 32 0#32),
    StableHlo.unary main_c_13 main_v59 (broadcastInDim S850000 ![] bcast_S_S850000 : (⟨S_, .i32⟩ : BufTy).Contents (Elt F) → (⟨S850000, .i32⟩ : BufTy).Contents (Elt F)),
    StableHlo.binary main_v49 main_v59 main_v60 (cmpi .slt : (⟨S850000, .i32⟩ : BufTy).Contents (Elt F) → (⟨S850000, .i32⟩ : BufTy).Contents (Elt F) → (⟨S850000, .i1⟩ : BufTy).Contents (Elt F)),
    StableHlo.nullary main_c_14 (constantI S_ 32 50000#32),
    StableHlo.unary main_c_14 main_v61 (broadcastInDim S850000 ![] bcast_S_S850000 : (⟨S_, .i32⟩ : BufTy).Contents (Elt F) → (⟨S850000, .i32⟩ : BufTy).Contents (Elt F)),
    StableHlo.binary main_v49 main_v61 main_v62 (addi : (⟨S850000, .i32⟩ : BufTy).Contents (Elt F) → (⟨S850000, .i32⟩ : BufTy).Contents (Elt F) → (⟨S850000, .i32⟩ : BufTy).Contents (Elt F)),
    StableHlo.ternary main_v60 main_v62 main_v49 main_v63 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v63 main_v64 (broadcastInDim S850000x1 ![0] bcast_S850000_S850000x1_0 : (⟨S850000, .i32⟩ : BufTy).Contents (Elt F) → (⟨S850000x1, .i32⟩ : BufTy).Contents (Elt F)),
    StableHlo.binary main_v58 main_v64 main_v65 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.nullary main_c_15 (constantI S_ 32 0#32),
    StableHlo.unary main_c_15 main_v66 (broadcastInDim S850000 ![] bcast_S_S850000 : (⟨S_, .i32⟩ : BufTy).Contents (Elt F) → (⟨S850000, .i32⟩ : BufTy).Contents (Elt F)),
    StableHlo.binary main_v50 main_v66 main_v67 (cmpi .slt : (⟨S850000, .i32⟩ : BufTy).Contents (Elt F) → (⟨S850000, .i32⟩ : BufTy).Contents (Elt F) → (⟨S850000, .i1⟩ : BufTy).Contents (Elt F)),
    StableHlo.nullary main_c_16 (constantI S_ 32 50000#32),
    StableHlo.unary main_c_16 main_v68 (broadcastInDim S850000 ![] bcast_S_S850000 : (⟨S_, .i32⟩ : BufTy).Contents (Elt F) → (⟨S850000, .i32⟩ : BufTy).Contents (Elt F)),
    StableHlo.binary main_v50 main_v68 main_v69 (addi : (⟨S850000, .i32⟩ : BufTy).Contents (Elt F) → (⟨S850000, .i32⟩ : BufTy).Contents (Elt F) → (⟨S850000, .i32⟩ : BufTy).Contents (Elt F)),
    StableHlo.ternary main_v67 main_v69 main_v50 main_v70 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v70 main_v71 (broadcastInDim S850000x1 ![0] bcast_S850000_S850000x1_0 : (⟨S850000, .i32⟩ : BufTy).Contents (Elt F) → (⟨S850000x1, .i32⟩ : BufTy).Contents (Elt F)),
    StableHlo.binary main_v58 main_v71 main_v72 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.binary main_v65 main_v72 main_v73 (mulf : (⟨S850000, .f32⟩ : BufTy).Contents (Elt F) → (⟨S850000, .f32⟩ : BufTy).Contents (Elt F) → (⟨S850000, .f32⟩ : BufTy).Contents (Elt F)),
    StableHlo.binary main_v47 main_arg6 main_v74 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_c_17 (constantI S_ 32 0#32),
    StableHlo.unary main_c_17 main_v75 (broadcastInDim S850000 ![] bcast_S_S850000 : (⟨S_, .i32⟩ : BufTy).Contents (Elt F) → (⟨S850000, .i32⟩ : BufTy).Contents (Elt F)),
    StableHlo.binary main_v49 main_v75 main_v76 (cmpi .slt : (⟨S850000, .i32⟩ : BufTy).Contents (Elt F) → (⟨S850000, .i32⟩ : BufTy).Contents (Elt F) → (⟨S850000, .i1⟩ : BufTy).Contents (Elt F)),
    StableHlo.nullary main_c_18 (constantI S_ 32 50000#32),
    StableHlo.unary main_c_18 main_v77 (broadcastInDim S850000 ![] bcast_S_S850000 : (⟨S_, .i32⟩ : BufTy).Contents (Elt F) → (⟨S850000, .i32⟩ : BufTy).Contents (Elt F)),
    StableHlo.binary main_v49 main_v77 main_v78 (addi : (⟨S850000, .i32⟩ : BufTy).Contents (Elt F) → (⟨S850000, .i32⟩ : BufTy).Contents (Elt F) → (⟨S850000, .i32⟩ : BufTy).Contents (Elt F)),
    StableHlo.ternary main_v76 main_v78 main_v49 main_v79 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v79 main_v80 (broadcastInDim S850000x1 ![0] bcast_S850000_S850000x1_0 : (⟨S850000, .i32⟩ : BufTy).Contents (Elt F) → (⟨S850000x1, .i32⟩ : BufTy).Contents (Elt F)),
    StableHlo.binary main_v74 main_v80 main_v81 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    StableHlo.unary main_v73 main_v82 (broadcastInDim S850000x1 ![0] bcast_S850000_S850000x1_0 : (⟨S850000, .f32⟩ : BufTy).Contents (Elt F) → (⟨S850000x1, .f32⟩ : BufTy).Contents (Elt F)),
    StableHlo.unary main_v82 main_v83 (broadcastInDim S850000x128 ![0, 1] bcast_S850000x1_S850000x128_0_1 : (⟨S850000x1, .f32⟩ : BufTy).Contents (Elt F) → (⟨S850000x128, .f32⟩ : BufTy).Contents (Elt F)),
    StableHlo.binary main_v81 main_v83 main_v84 (mulf : (⟨S850000x128, .f32⟩ : BufTy).Contents (Elt F) → (⟨S850000x128, .f32⟩ : BufTy).Contents (Elt F) → (⟨S850000x128, .f32⟩ : BufTy).Contents (Elt F)),
    StableHlo.nullary main_cst_19 (constant S_ .f32 0x00000000#32),
    StableHlo.unary main_cst_19 main_v85 (broadcastInDim S50000x128 ![] bcast_S_S50000x128 : (⟨S_, .f32⟩ : BufTy).Contents (Elt F) → (⟨S50000x128, .f32⟩ : BufTy).Contents (Elt F)),
    StableHlo.unary main_v50 main_v86 (broadcastInDim S850000x1 ![0] bcast_S850000_S850000x1_0 : (⟨S850000, .i32⟩ : BufTy).Contents (Elt F) → (⟨S850000x1, .i32⟩ : BufTy).Contents (Elt F)),
    StableHlo.ternary main_v85 main_v86 main_v84 main_v87 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    StableHlo.unary main_arg7 main_v88 (broadcastInDim S1x128 ![1] bcast_S128_S1x128_1 : (⟨S128, .f32⟩ : BufTy).Contents (Elt F) → (⟨S1x128, .f32⟩ : BufTy).Contents (Elt F)),
    StableHlo.unary main_v88 main_v89 (broadcastInDim S50000x128 ![0, 1] bcast_S1x128_S50000x128_0_1 : (⟨S1x128, .f32⟩ : BufTy).Contents (Elt F) → (⟨S50000x128, .f32⟩ : BufTy).Contents (Elt F)),
    StableHlo.binary main_v87 main_v89 main_v90 (addf : (⟨S50000x128, .f32⟩ : BufTy).Contents (Elt F) → (⟨S50000x128, .f32⟩ : BufTy).Contents (Elt F) → (⟨S50000x128, .f32⟩ : BufTy).Contents (Elt F)),
    StableHlo.TRef.nullary main_call3.cst (constant S_ .f32 0x00000000#32),
    StableHlo.TRef.unary main_call3.cst main_call3.v0 (broadcastInDim S50000x128 ![] bcast_S_S50000x128),
    StableHlo.TRef.binary (.of main_v90 : StableHlo.TRef sig ⟨S50000x128, .f32⟩) main_call3.v0 main_call3.v1 maximumf ]
/-- The buffers ops3's operations write, in order. -/
abbrev ops3_W : List (Ref sig .tc) :=
  [main_v49, main_v50, main_cst_9, main_v51, main_cst_10, main_v52, main_v53, main_v54, main_cst_11, main_v55, main_v56, main_v57, main_cst_12, main_call2_v0, main_call2_v1, main_v58, main_c_13, main_v59, main_v60, main_c_14, main_v61, main_v62, main_v63, main_v64, main_v65, main_c_15, main_v66, main_v67, main_c_16, main_v68, main_v69, main_v70, main_v71, main_v72, main_v73, main_v74, main_c_17, main_v75, main_v76, main_c_18, main_v77, main_v78, main_v79, main_v80, main_v81, main_v82, main_v83, main_v84, main_cst_19, main_v85, main_v86, main_v87, main_v88, main_v89, main_v90, main_call3_cst, main_call3_v0, main_v91]
set_option maxRecDepth 8192 in
/-- Each operation of ops3 touches TensorCore references only. -/
theorem ops3_sub : (ops3 : List (HloOp τ sig (Elt F))).Forall fun op => op.bufs ⊆ tcRefs τ sig :=
  ⟨binary_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub ..⟩

/-- Operations 123 … 128 of the reference's 242, in order (statements 115 … 120 of @main, a call's
    body listed at the call over the call's buffers); the last writes main_v95. -/
abbrev ops4 : List (HloOp τ sig (Elt F)) :=
  [ StableHlo.nullary main_cst_20 (constant S_ .f32 0x00000000#32),
    StableHlo.unary main_cst_20 main_v92 (broadcastInDim S512x128 ![] bcast_S_S512x128 : (⟨S_, .f32⟩ : BufTy).Contents (Elt F) → (⟨S512x128, .f32⟩ : BufTy).Contents (Elt F)),
    StableHlo.unary main_arg2 main_v93 (broadcastInDim S50000x1 ![0] bcast_S50000_S50000x1_0 : (⟨S50000, .i32⟩ : BufTy).Contents (Elt F) → (⟨S50000x1, .i32⟩ : BufTy).Contents (Elt F)),
    StableHlo.ternary main_v92 main_v93 main_v91 main_v94 ((fun x i u => Host.scatterAdd scatter_S512x128_S50000x1_S50000x128_1_0_0_1 x i u) : (⟨S512x128, .f32⟩ : BufTy).Contents (Elt F) → (⟨S50000x1, .i32⟩ : BufTy).Contents (Elt F) → (⟨S50000x128, .f32⟩ : BufTy).Contents (Elt F) → (⟨S512x128, .f32⟩ : BufTy).Contents (Elt F)),
    StableHlo.nullary main_c_21 (constantI S_ 32 0#32),
    StableHlo.unary main_c_21 main_v95 (broadcastInDim S512 ![] bcast_S_S512 : (⟨S_, .i32⟩ : BufTy).Contents (Elt F) → (⟨S512, .i32⟩ : BufTy).Contents (Elt F)) ]
/-- The buffers ops4's operations write, in order. -/
abbrev ops4_W : List (Ref sig .tc) :=
  [main_cst_20, main_v92, main_v93, main_v94, main_c_21, main_v95]
set_option maxRecDepth 8192 in
/-- Each operation of ops4 touches TensorCore references only. -/
theorem ops4_sub : (ops4 : List (HloOp τ sig (Elt F))).Forall fun op => op.bufs ⊆ tcRefs τ sig :=
  ⟨nullary_bufs_sub .., unary_bufs_sub .., unary_bufs_sub .., ternary_bufs_sub .., nullary_bufs_sub .., unary_bufs_sub ..⟩

/-- Operations 129 … 136 of the reference's 242, in order (statements 121 … 128 of @main, a call's
    body listed at the call over the call's buffers); the last writes main_v102. -/
abbrev ops5 : List (HloOp τ sig (Elt F)) :=
  [ StableHlo.binary main_arg3 main_v95 main_v96 (cmpi .slt : (⟨S512, .i32⟩ : BufTy).Contents (Elt F) → (⟨S512, .i32⟩ : BufTy).Contents (Elt F) → (⟨S512, .i1⟩ : BufTy).Contents (Elt F)),
    StableHlo.nullary main_c_22 (constantI S_ 32 1000#32),
    StableHlo.unary main_c_22 main_v97 (broadcastInDim S512 ![] bcast_S_S512 : (⟨S_, .i32⟩ : BufTy).Contents (Elt F) → (⟨S512, .i32⟩ : BufTy).Contents (Elt F)),
    StableHlo.binary main_arg3 main_v97 main_v98 (addi : (⟨S512, .i32⟩ : BufTy).Contents (Elt F) → (⟨S512, .i32⟩ : BufTy).Contents (Elt F) → (⟨S512, .i32⟩ : BufTy).Contents (Elt F)),
    StableHlo.ternary main_v96 main_v98 main_arg3 main_v99 (select : (⟨S512, .i1⟩ : BufTy).Contents (Elt F) → (⟨S512, .i32⟩ : BufTy).Contents (Elt F) → (⟨S512, .i32⟩ : BufTy).Contents (Elt F) → (⟨S512, .i32⟩ : BufTy).Contents (Elt F)),
    StableHlo.unary main_v99 main_v100 (broadcastInDim S512x1 ![0] bcast_S512_S512x1_0 : (⟨S512, .i32⟩ : BufTy).Contents (Elt F) → (⟨S512x1, .i32⟩ : BufTy).Contents (Elt F)),
    StableHlo.binary main_arg8 main_v100 main_v101 ((fun x i => Host.gather gather_S1000x64_S512x1_S512x64_1_0_n_n_0_1_164 x i) : (⟨S1000x64, .f32⟩ : BufTy).Contents (Elt F) → (⟨S512x1, .i32⟩ : BufTy).Contents (Elt F) → (⟨S512x64, .f32⟩ : BufTy).Contents (Elt F)),
    StableHlo.binary main_v94 main_v101 main_v102 ((fun a b => concatenate S512x192 1 [⟨S512x128, a⟩, ⟨S512x64, b⟩] concatenates_S512x128_S512x64_S512x192_d1) : (⟨S512x128, .f32⟩ : BufTy).Contents (Elt F) → (⟨S512x64, .f32⟩ : BufTy).Contents (Elt F) → (⟨S512x192, .f32⟩ : BufTy).Contents (Elt F)) ]
/-- The buffers ops5's operations write, in order. -/
abbrev ops5_W : List (Ref sig .tc) :=
  [main_v96, main_c_22, main_v97, main_v98, main_v99, main_v100, main_v101, main_v102]
set_option maxRecDepth 8192 in
/-- Each operation of ops5 touches TensorCore references only. -/
theorem ops5_sub : (ops5 : List (HloOp τ sig (Elt F))).Forall fun op => op.bufs ⊆ tcRefs τ sig :=
  ⟨binary_bufs_sub .., nullary_bufs_sub .., unary_bufs_sub .., binary_bufs_sub .., ternary_bufs_sub .., unary_bufs_sub .., binary_bufs_sub .., binary_bufs_sub ..⟩

/-- Operations 137 … 187 of the reference's 242, in order (statements 129 … 155 of @main, a call's
    body listed at the call over the call's buffers); the last writes main_v125. -/
abbrev ops6 : List (HloOp τ sig (Elt F)) :=
  [ StableHlo.binary main_v102 main_arg9 main_v103 ((fun l r => Host.dotGeneral dot_S512x192_S192x128_S512x128_1_0_0_1_n_n none l r) : (⟨S512x192, .f32⟩ : BufTy).Contents (Elt F) → (⟨S192x128, .f32⟩ : BufTy).Contents (Elt F) → (⟨S512x128, .f32⟩ : BufTy).Contents (Elt F)),
    StableHlo.unary main_arg10 main_v104 (broadcastInDim S1x128 ![1] bcast_S128_S1x128_1 : (⟨S128, .f32⟩ : BufTy).Contents (Elt F) → (⟨S1x128, .f32⟩ : BufTy).Contents (Elt F)),
    StableHlo.unary main_v104 main_v105 (broadcastInDim S512x128 ![0, 1] bcast_S1x128_S512x128_0_1 : (⟨S1x128, .f32⟩ : BufTy).Contents (Elt F) → (⟨S512x128, .f32⟩ : BufTy).Contents (Elt F)),
    StableHlo.binary main_v103 main_v105 main_v106 (addf : (⟨S512x128, .f32⟩ : BufTy).Contents (Elt F) → (⟨S512x128, .f32⟩ : BufTy).Contents (Elt F) → (⟨S512x128, .f32⟩ : BufTy).Contents (Elt F)),
    StableHlo.nullary main_cst_23 (constant S_ .f32 0x00000000#32),
    StableHlo.binary main_v106 main_cst_23 main_v107 ((fun x v => Host.reduceAdd x v reducesTo_S512x128_S512_d1 h_S_) : (⟨S512x128, .f32⟩ : BufTy).Contents (Elt F) → (⟨S_, .f32⟩ : BufTy).Contents (Elt F) → (⟨S512, .f32⟩ : BufTy).Contents (Elt F)),
    StableHlo.unary main_v107 main_v108 (broadcastInDim S512x1 ![0] bcast_S512_S512x1_0 : (⟨S512, .f32⟩ : BufTy).Contents (Elt F) → (⟨S512x1, .f32⟩ : BufTy).Contents (Elt F)),
    StableHlo.nullary main_cst_24 (constant S_ .f32 0x43000000#32),
    StableHlo.unary main_cst_24 main_v109 (broadcastInDim S512x1 ![] bcast_S_S512x1 : (⟨S_, .f32⟩ : BufTy).Contents (Elt F) → (⟨S512x1, .f32⟩ : BufTy).Contents (Elt F)),
    StableHlo.binary main_v108 main_v109 main_v110 (Host.divf : (⟨S512x1, .f32⟩ : BufTy).Contents (Elt F) → (⟨S512x1, .f32⟩ : BufTy).Contents (Elt F) → (⟨S512x1, .f32⟩ : BufTy).Contents (Elt F)),
    StableHlo.nullary main_c_25 (constantI S_ 32 0#32),
    StableHlo.TRef.nullary main_call4.cst (constant S_ .f32 0x00000000#32),
    StableHlo.TRef.binary (.of main_v106 : StableHlo.TRef sig ⟨S512x128, .f32⟩) main_call4.cst main_call4.v0 (fun x v => Host.reduceAdd x v reducesTo_S512x128_S512_d1 h_S_),
    StableHlo.TRef.unary main_call4.v0 main_call4.v1 (broadcastInDim S512x1 ![0] bcast_S512_S512x1_0),
    StableHlo.TRef.nullary main_call4.cst_0 (constant S_ .f32 0x43000000#32),
    StableHlo.TRef.unary main_call4.cst_0 main_call4.v2 (broadcastInDim S512x1 ![] bcast_S_S512x1),
    StableHlo.TRef.binary main_call4.v1 main_call4.v2 main_call4.v3 Host.divf,
    StableHlo.TRef.unary main_call4.v3 main_call4.v4 (broadcastInDim S512x128 ![0, 1] bcast_S512x1_S512x128_0_1),
    StableHlo.TRef.binary (.of main_v106 : StableHlo.TRef sig ⟨S512x128, .f32⟩) main_call4.v4 main_call4.v5 subf,
    StableHlo.TRef.binary main_call4.v5 main_call4.v5 main_call4.v6 mulf,
    StableHlo.TRef.unary (.of main_c_25 : StableHlo.TRef sig ⟨S_, .i32⟩) main_call4.v7 (sitofp .f32),
    StableHlo.TRef.nullary main_call4.cst_1 (constant S_ .f32 0x43000000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S512x128_S512_d1 h_S_),
    StableHlo.TRef.unary main_call4.v9 main_call4.v10 (broadcastInDim S512x1 ![0] bcast_S512_S512x1_0),
    StableHlo.TRef.unary main_call4.v8 main_call4.v11 (broadcastInDim S512x1 ![] bcast_S_S512x1),
    StableHlo.TRef.binary main_call4.v10 main_call4.v11 main_call4.v12 Host.divf,
    StableHlo.TRef.nullary main_call4.cst_3 (constant S_ .f32 0x00000000#32),
    StableHlo.TRef.binary main_call4.v8 main_call4.cst_3 main_call4.v13 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S512x1 ![] bcast_S_S512x1),
    StableHlo.TRef.ternary main_call4.v13 main_call4.v12 main_call4.call0.v1 main_call4.call0.v2 (fun p a b => select (broadcastInDim S512x1 ![] bcast_S_S512x1 p) a b),
    StableHlo.unary main_v110 main_v112 (broadcastInDim S512x128 ![0, 1] bcast_S512x1_S512x128_0_1 : (⟨S512x1, .f32⟩ : BufTy).Contents (Elt F) → (⟨S512x128, .f32⟩ : BufTy).Contents (Elt F)),
    StableHlo.binary main_v106 main_v112 main_v113 (subf : (⟨S512x128, .f32⟩ : BufTy).Contents (Elt F) → (⟨S512x128, .f32⟩ : BufTy).Contents (Elt F) → (⟨S512x128, .f32⟩ : BufTy).Contents (Elt F)),
    StableHlo.nullary main_cst_26 (constant S_ .f32 0x3727C5AC#32),
    StableHlo.unary main_cst_26 main_v114 (broadcastInDim S512x1 ![] bcast_S_S512x1 : (⟨S_, .f32⟩ : BufTy).Contents (Elt F) → (⟨S512x1, .f32⟩ : BufTy).Contents (Elt F)),
    StableHlo.binary main_v111 main_v114 main_v115 (addf : (⟨S512x1, .f32⟩ : BufTy).Contents (Elt F) → (⟨S512x1, .f32⟩ : BufTy).Contents (Elt F) → (⟨S512x1, .f32⟩ : BufTy).Contents (Elt F)),
    StableHlo.unary main_v115 main_v116 (Host.rsqrt : (⟨S512x1, .f32⟩ : BufTy).Contents (Elt F) → (⟨S512x1, .f32⟩ : BufTy).Contents (Elt F)),
    StableHlo.unary main_v116 main_v117 (broadcastInDim S512x128 ![0, 1] bcast_S512x1_S512x128_0_1 : (⟨S512x1, .f32⟩ : BufTy).Contents (Elt F) → (⟨S512x128, .f32⟩ : BufTy).Contents (Elt F)),
    StableHlo.binary main_v113 main_v117 main_v118 (mulf : (⟨S512x128, .f32⟩ : BufTy).Contents (Elt F) → (⟨S512x128, .f32⟩ : BufTy).Contents (Elt F) → (⟨S512x128, .f32⟩ : BufTy).Contents (Elt F)),
    StableHlo.unary main_arg11 main_v119 (broadcastInDim S1x128 ![1] bcast_S128_S1x128_1 : (⟨S128, .f32⟩ : BufTy).Contents (Elt F) → (⟨S1x128, .f32⟩ : BufTy).Contents (Elt F)),
    StableHlo.unary main_v119 main_v120 (broadcastInDim S512x128 ![0, 1] bcast_S1x128_S512x128_0_1 : (⟨S1x128, .f32⟩ : BufTy).Contents (Elt F) → (⟨S512x128, .f32⟩ : BufTy).Contents (Elt F)),
    StableHlo.binary main_v118 main_v120 main_v121 (mulf : (⟨S512x128, .f32⟩ : BufTy).Contents (Elt F) → (⟨S512x128, .f32⟩ : BufTy).Contents (Elt F) → (⟨S512x128, .f32⟩ : BufTy).Contents (Elt F)),
    StableHlo.unary main_arg12 main_v122 (broadcastInDim S1x128 ![1] bcast_S128_S1x128_1 : (⟨S128, .f32⟩ : BufTy).Contents (Elt F) → (⟨S1x128, .f32⟩ : BufTy).Contents (Elt F)),
    StableHlo.unary main_v122 main_v123 (broadcastInDim S512x128 ![0, 1] bcast_S1x128_S512x128_0_1 : (⟨S1x128, .f32⟩ : BufTy).Contents (Elt F) → (⟨S512x128, .f32⟩ : BufTy).Contents (Elt F)),
    StableHlo.binary main_v121 main_v123 main_v124 (addf : (⟨S512x128, .f32⟩ : BufTy).Contents (Elt F) → (⟨S512x128, .f32⟩ : BufTy).Contents (Elt F) → (⟨S512x128, .f32⟩ : BufTy).Contents (Elt F)),
    StableHlo.TRef.nullary main_call5.cst (constant S_ .f32 0x00000000#32),
    StableHlo.TRef.unary main_call5.cst main_call5.v0 (broadcastInDim S512x128 ![] bcast_S_S512x128),
    StableHlo.TRef.binary (.of main_v124 : StableHlo.TRef sig ⟨S512x128, .f32⟩) main_call5.v0 main_call5.v1 maximumf ]
/-- The buffers ops6's operations write, in order. -/
abbrev ops6_W : List (Ref sig .tc) :=
  [main_v103, main_v104, main_v105, main_v106, main_cst_23, main_v107, main_v108, main_cst_24, main_v109, main_v110, main_c_25, main_call4_cst, main_call4_v0, main_call4_v1, main_call4_cst_0, main_call4_v2, main_call4_v3, main_call4_v4, main_call4_v5, main_call4_v6, main_call4_v7, main_call4_cst_1, main_call4_v8, main_call4_cst_2, main_call4_v9, main_call4_v10, main_call4_v11, main_call4_v12, main_call4_cst_3, main_call4_v13, main_call4_cst_4, main_call4_call0_v0, main_call4_call0_v1, main_v111, main_v112, main_v113, main_cst_26, main_v114, main_v115, main_v116, main_v117, main_v118, main_v119, main_v120, main_v121, main_v122, main_v123, main_v124, main_call5_cst, main_call5_v0, main_v125]
set_option maxRecDepth 8192 in
/-- Each operation of ops6 touches TensorCore references only. -/
theorem ops6_sub : (ops6 : List (HloOp τ sig (Elt F))).Forall fun op => op.bufs ⊆ tcRefs τ sig :=
  ⟨binary_bufs_sub .., unary_bufs_sub .., unary_bufs_sub .., binary_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩

/-- Operations 188 … 236 of the reference's 242, in order (statements 156 … 180 of @main, a call's
    body listed at the call over the call's buffers); the last writes main_v146. -/
abbrev ops7 : List (HloOp τ sig (Elt F)) :=
  [ StableHlo.binary main_v125 main_arg13 main_v126 ((fun l r => Host.dotGeneral dot_S512x128_S128x128_S512x128_1_0_0_1_n_n none l r) : (⟨S512x128, .f32⟩ : BufTy).Contents (Elt F) → (⟨S128x128, .f32⟩ : BufTy).Contents (Elt F) → (⟨S512x128, .f32⟩ : BufTy).Contents (Elt F)),
    StableHlo.unary main_arg14 main_v127 (broadcastInDim S1x128 ![1] bcast_S128_S1x128_1 : (⟨S128, .f32⟩ : BufTy).Contents (Elt F) → (⟨S1x128, .f32⟩ : BufTy).Contents (Elt F)),
    StableHlo.unary main_v127 main_v128 (broadcastInDim S512x128 ![0, 1] bcast_S1x128_S512x128_0_1 : (⟨S1x128, .f32⟩ : BufTy).Contents (Elt F) → (⟨S512x128, .f32⟩ : BufTy).Contents (Elt F)),
    StableHlo.binary main_v126 main_v128 main_v129 (addf : (⟨S512x128, .f32⟩ : BufTy).Contents (Elt F) → (⟨S512x128, .f32⟩ : BufTy).Contents (Elt F) → (⟨S512x128, .f32⟩ : BufTy).Contents (Elt F)),
    StableHlo.TRef.nullary main_call6.cst (constant S_ .f32 0x00000000#32),
    StableHlo.TRef.unary main_call6.cst main_call6.v0 (broadcastInDim S512x128 ![] bcast_S_S512x128),
    StableHlo.TRef.binary (.of main_v129 : StableHlo.TRef sig ⟨S512x128, .f32⟩) main_call6.v0 main_call6.v1 maximumf,
    StableHlo.nullary main_cst_27 (constant S_ .f32 0x00000000#32),
    StableHlo.binary main_v130 main_cst_27 main_v131 ((fun x v => Host.reduceAdd x v reducesTo_S512x128_S512_d1 h_S_) : (⟨S512x128, .f32⟩ : BufTy).Contents (Elt F) → (⟨S_, .f32⟩ : BufTy).Contents (Elt F) → (⟨S512, .f32⟩ : BufTy).Contents (Elt F)),
    StableHlo.unary main_v131 main_v132 (broadcastInDim S512x1 ![0] bcast_S512_S512x1_0 : (⟨S512, .f32⟩ : BufTy).Contents (Elt F) → (⟨S512x1, .f32⟩ : BufTy).Contents (Elt F)),
    StableHlo.nullary main_cst_28 (constant S_ .f32 0x43000000#32),
    StableHlo.unary main_cst_28 main_v133 (broadcastInDim S512x1 ![] bcast_S_S512x1 : (⟨S_, .f32⟩ : BufTy).Contents (Elt F) → (⟨S512x1, .f32⟩ : BufTy).Contents (Elt F)),
    StableHlo.binary main_v132 main_v133 main_v134 (Host.divf : (⟨S512x1, .f32⟩ : BufTy).Contents (Elt F) → (⟨S512x1, .f32⟩ : BufTy).Contents (Elt F) → (⟨S512x1, .f32⟩ : BufTy).Contents (Elt F)),
    StableHlo.nullary main_c_29 (constantI S_ 32 0#32),
    StableHlo.TRef.nullary main_call7.cst (constant S_ .f32 0x00000000#32),
    StableHlo.TRef.binary (.of main_v130 : StableHlo.TRef sig ⟨S512x128, .f32⟩) main_call7.cst main_call7.v0 (fun x v => Host.reduceAdd x v reducesTo_S512x128_S512_d1 h_S_),
    StableHlo.TRef.unary main_call7.v0 main_call7.v1 (broadcastInDim S512x1 ![0] bcast_S512_S512x1_0),
    StableHlo.TRef.nullary main_call7.cst_0 (constant S_ .f32 0x43000000#32),
    StableHlo.TRef.unary main_call7.cst_0 main_call7.v2 (broadcastInDim S512x1 ![] bcast_S_S512x1),
    StableHlo.TRef.binary main_call7.v1 main_call7.v2 main_call7.v3 Host.divf,
    StableHlo.TRef.unary main_call7.v3 main_call7.v4 (broadcastInDim S512x128 ![0, 1] bcast_S512x1_S512x128_0_1),
    StableHlo.TRef.binary (.of main_v130 : StableHlo.TRef sig ⟨S512x128, .f32⟩) main_call7.v4 main_call7.v5 subf,
    StableHlo.TRef.binary main_call7.v5 main_call7.v5 main_call7.v6 mulf,
    StableHlo.TRef.unary (.of main_c_29 : StableHlo.TRef sig ⟨S_, .i32⟩) main_call7.v7 (sitofp .f32),
    StableHlo.TRef.nullary main_call7.cst_1 (constant S_ .f32 0x43000000#32),
    StableHlo.TRef.binary main_call7.cst_1 main_call7.v7 main_call7.v8 subf,
    StableHlo.TRef.nullary main_call7.cst_2 (constant S_ .f32 0x00000000#32),
    StableHlo.TRef.binary main_call7.v6 main_call7.cst_2 main_call7.v9 (fun x v => Host.reduceAdd x v reducesTo_S512x128_S512_d1 h_S_),
    StableHlo.TRef.unary main_call7.v9 main_call7.v10 (broadcastInDim S512x1 ![0] bcast_S512_S512x1_0),
    StableHlo.TRef.unary main_call7.v8 main_call7.v11 (broadcastInDim S512x1 ![] bcast_S_S512x1),
    StableHlo.TRef.binary main_call7.v10 main_call7.v11 main_call7.v12 Host.divf,
    StableHlo.TRef.nullary main_call7.cst_3 (constant S_ .f32 0x00000000#32),
    StableHlo.TRef.binary main_call7.v8 main_call7.cst_3 main_call7.v13 (cmpf .ogt),
    StableHlo.TRef.nullary main_call7.cst_4 (constant S_ .f32 0x7FC00000#32),
    StableHlo.TRef.unary main_call7.cst_4 main_call7.call0.v0 id,
    StableHlo.TRef.unary main_call7.call0.v0 main_call7.call0.v1 (broadcastInDim S512x1 ![] bcast_S_S512x1),
    StableHlo.TRef.ternary main_call7.v13 main_call7.v12 main_call7.call0.v1 main_call7.call0.v2 (fun p a b => select (broadcastInDim S512x1 ![] bcast_S_S512x1 p) a b),
    StableHlo.unary main_v134 main_v136 (broadcastInDim S512x128 ![0, 1] bcast_S512x1_S512x128_0_1 : (⟨S512x1, .f32⟩ : BufTy).Contents (Elt F) → (⟨S512x128, .f32⟩ : BufTy).Contents (Elt F)),
    StableHlo.binary main_v130 main_v136 main_v137 (subf : (⟨S512x128, .f32⟩ : BufTy).Contents (Elt F) → (⟨S512x128, .f32⟩ : BufTy).Contents (Elt F) → (⟨S512x128, .f32⟩ : BufTy).Contents (Elt F)),
    StableHlo.nullary main_cst_30 (constant S_ .f32 0x3727C5AC#32),
    StableHlo.unary main_cst_30 main_v138 (broadcastInDim S512x1 ![] bcast_S_S512x1 : (⟨S_, .f32⟩ : BufTy).Contents (Elt F) → (⟨S512x1, .f32⟩ : BufTy).Contents (Elt F)),
    StableHlo.binary main_v135 main_v138 main_v139 (addf : (⟨S512x1, .f32⟩ : BufTy).Contents (Elt F) → (⟨S512x1, .f32⟩ : BufTy).Contents (Elt F) → (⟨S512x1, .f32⟩ : BufTy).Contents (Elt F)),
    StableHlo.unary main_v139 main_v140 (Host.rsqrt : (⟨S512x1, .f32⟩ : BufTy).Contents (Elt F) → (⟨S512x1, .f32⟩ : BufTy).Contents (Elt F)),
    StableHlo.unary main_v140 main_v141 (broadcastInDim S512x128 ![0, 1] bcast_S512x1_S512x128_0_1 : (⟨S512x1, .f32⟩ : BufTy).Contents (Elt F) → (⟨S512x128, .f32⟩ : BufTy).Contents (Elt F)),
    StableHlo.binary main_v137 main_v141 main_v142 (mulf : (⟨S512x128, .f32⟩ : BufTy).Contents (Elt F) → (⟨S512x128, .f32⟩ : BufTy).Contents (Elt F) → (⟨S512x128, .f32⟩ : BufTy).Contents (Elt F)),
    StableHlo.unary main_arg15 main_v143 (broadcastInDim S1x128 ![1] bcast_S128_S1x128_1 : (⟨S128, .f32⟩ : BufTy).Contents (Elt F) → (⟨S1x128, .f32⟩ : BufTy).Contents (Elt F)),
    StableHlo.unary main_v143 main_v144 (broadcastInDim S512x128 ![0, 1] bcast_S1x128_S512x128_0_1 : (⟨S1x128, .f32⟩ : BufTy).Contents (Elt F) → (⟨S512x128, .f32⟩ : BufTy).Contents (Elt F)),
    StableHlo.binary main_v142 main_v144 main_v145 (mulf : (⟨S512x128, .f32⟩ : BufTy).Contents (Elt F) → (⟨S512x128, .f32⟩ : BufTy).Contents (Elt F) → (⟨S512x128, .f32⟩ : BufTy).Contents (Elt F)),
    StableHlo.unary main_arg16 main_v146 (broadcastInDim S1x128 ![1] bcast_S128_S1x128_1 : (⟨S128, .f32⟩ : BufTy).Contents (Elt F) → (⟨S1x128, .f32⟩ : BufTy).Contents (Elt F)) ]
/-- The buffers ops7's operations write, in order. -/
abbrev ops7_W : List (Ref sig .tc) :=
  [main_v126, main_v127, main_v128, main_v129, main_call6_cst, main_call6_v0, main_v130, main_cst_27, main_v131, main_v132, main_cst_28, main_v133, main_v134, main_c_29, main_call7_cst, main_call7_v0, main_call7_v1, main_call7_cst_0, main_call7_v2, main_call7_v3, main_call7_v4, main_call7_v5, main_call7_v6, main_call7_v7, main_call7_cst_1, main_call7_v8, main_call7_cst_2, main_call7_v9, main_call7_v10, main_call7_v11, main_call7_v12, main_call7_cst_3, main_call7_v13, main_call7_cst_4, main_call7_call0_v0, main_call7_call0_v1, main_v135, main_v136, main_v137, main_cst_30, main_v138, main_v139, main_v140, main_v141, main_v142, main_v143, main_v144, main_v145, main_v146]
set_option maxRecDepth 8192 in
/-- Each operation of ops7 touches TensorCore references only. -/
theorem ops7_sub : (ops7 : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub ..⟩

/-- Operations 237 … 242 of the reference's 242, in order (statements 181 … 186 of @main, a call's
    body listed at the call over the call's buffers); the last writes main_v152. -/
abbrev ops8 : List (HloOp τ sig (Elt F)) :=
  [ StableHlo.unary main_v146 main_v147 (broadcastInDim S512x128 ![0, 1] bcast_S1x128_S512x128_0_1 : (⟨S1x128, .f32⟩ : BufTy).Contents (Elt F) → (⟨S512x128, .f32⟩ : BufTy).Contents (Elt F)),
    StableHlo.binary main_v145 main_v147 main_v148 (addf : (⟨S512x128, .f32⟩ : BufTy).Contents (Elt F) → (⟨S512x128, .f32⟩ : BufTy).Contents (Elt F) → (⟨S512x128, .f32⟩ : BufTy).Contents (Elt F)),
    StableHlo.binary main_v148 main_arg17 main_v149 ((fun l r => Host.dotGeneral dot_S512x128_S128x128_S512x128_1_0_0_1_n_n none l r) : (⟨S512x128, .f32⟩ : BufTy).Contents (Elt F) → (⟨S128x128, .f32⟩ : BufTy).Contents (Elt F) → (⟨S512x128, .f32⟩ : BufTy).Contents (Elt F)),
    StableHlo.unary main_arg18 main_v150 (broadcastInDim S1x128 ![1] bcast_S128_S1x128_1 : (⟨S128, .f32⟩ : BufTy).Contents (Elt F) → (⟨S1x128, .f32⟩ : BufTy).Contents (Elt F)),
    StableHlo.unary main_v150 main_v151 (broadcastInDim S512x128 ![0, 1] bcast_S1x128_S512x128_0_1 : (⟨S1x128, .f32⟩ : BufTy).Contents (Elt F) → (⟨S512x128, .f32⟩ : BufTy).Contents (Elt F)),
    StableHlo.binary main_v149 main_v151 main_v152 (addf : (⟨S512x128, .f32⟩ : BufTy).Contents (Elt F) → (⟨S512x128, .f32⟩ : BufTy).Contents (Elt F) → (⟨S512x128, .f32⟩ : BufTy).Contents (Elt F)) ]
/-- The buffers ops8's operations write, in order. -/
abbrev ops8_W : List (Ref sig .tc) :=
  [main_v147, main_v148, main_v149, main_v150, main_v151, main_v152]
set_option maxRecDepth 8192 in
/-- Each operation of ops8 touches TensorCore references only. -/
theorem ops8_sub : (ops8 : List (HloOp τ sig (Elt F))).Forall fun op => op.bufs ⊆ tcRefs τ sig :=
  ⟨unary_bufs_sub .., binary_bufs_sub .., binary_bufs_sub .., unary_bufs_sub .., unary_bufs_sub .., binary_bufs_sub ..⟩

/-- The reference's 242 operations, in order. -/
abbrev ops : List (HloOp τ sig (Elt F)) :=
  ops1 ++ ops2 ++ ops3 ++ ops4 ++ ops5 ++ ops6 ++ ops7 ++ ops8

end Cert.ReferenceIdeal.RefRun

end
-- ==== Proof.RefRun.lean ====
/-
  The reference program's run. @main is a straight line of host operations (its calls unfolded), so it is the
  sequencing of the list of them; every weakly fair execution then terminates with each buffer at the fold of the
  operations' results over the launch contents. The fold over the whole list is the folds over its eight pieces in
  turn, a piece changes only the buffers its operations write, and no operation writes an argument: the arguments end
  as launched.
-/
import proofs.«127112_j63660005261872_1_alg».proof.Proof.RefOps
import Idealize.ShloMosaic.Lib.StableHlo.Run
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## @main is the straight line of its operations

Each window of @main is a chain of `hlo` steps; a call is its callee's chain over the call's buffers, and sequencing
a chain after a chain reassociates by computation (a bind of an `hlo` step pushes into its continuation, a bind of
the return is its continuation). So each window is `seq` of its operations by unfolding, and @main, the four windows
in order, is `seq` of the concatenation (`seq_append`). -/

set_option maxRecDepth 8192 in
set_option maxHeartbeats 4000000 in
theorem main_part0_eq (c : Dev nD) : main_part0 (F := F) c = seq (ops1 ++ ops2) := rfl

set_option maxRecDepth 8192 in
set_option maxHeartbeats 4000000 in
theorem main_part1_eq (c : Dev nD) : main_part1 (F := F) c = seq (ops3 ++ ops4) := rfl

set_option maxRecDepth 8192 in
set_option maxHeartbeats 4000000 in
theorem main_part2_eq (c : Dev nD) : main_part2 (F := F) c = seq (ops5 ++ ops6 ++ ops7) := rfl

set_option maxRecDepth 8192 in
set_option maxHeartbeats 4000000 in
theorem main_part3_eq (c : Dev nD) : main_part3 (F := F) c = seq ops8 := rfl

/-- @main is the line of all its operations: the windows' lines one after the other are the line of the
    concatenation, and concatenation is associative. -/
theorem main_eq (c : Dev nD) : main (F := F) c = seq ops := by
  have h : (ops : List (HloOp τ sig (Elt F))) = (ops1 ++ ops2) ++ ((ops3 ++ ops4) ++ ((ops5 ++ ops6 ++ ops7) ++ ops8)) := by
    show ops1 ++ ops2 ++ ops3 ++ ops4 ++ ops5 ++ ops6 ++ ops7 ++ ops8 = _
    simp only [List.append_assoc]
  rw [h, seq_append (ops1 ++ ops2), seq_append (ops3 ++ ops4), seq_append (ops5 ++ ops6 ++ ops7), ← main_part0_eq c, ← main_part1_eq c, ← main_part2_eq c, ← main_part3_eq c]
  rfl

/-! ## The run's side conditions -/

/-- The reference scopes no TensorCore buffer. -/
theorem scopedRefs_eq : (Finset.univ.filter fun b : Ref sig .tc => b.isScoped) = ∅ := by decide
/-- The reference scopes no semaphore. -/
theorem scopedSems_eq : (Finset.univ.filter fun sm : SemLoc sig => sm.isScoped .tc) = ∅ := by decide

/-- A property of every element of each of eight lists holds of every element of their concatenation. -/
theorem forall_append8 {α : Type} {P : α → Prop} {l1 l2 l3 l4 l5 l6 l7 l8 : List α}
    (h1 : l1.Forall P) (h2 : l2.Forall P) (h3 : l3.Forall P) (h4 : l4.Forall P)
    (h5 : l5.Forall P) (h6 : l6.Forall P) (h7 : l7.Forall P) (h8 : l8.Forall P) :
    (l1 ++ l2 ++ l3 ++ l4 ++ l5 ++ l6 ++ l7 ++ l8).Forall P :=
  List.forall_append.mpr ⟨List.forall_append.mpr ⟨List.forall_append.mpr ⟨List.forall_append.mpr ⟨List.forall_append.mpr
    ⟨List.forall_append.mpr ⟨List.forall_append.mpr ⟨h1, h2⟩, h3⟩, h4⟩, h5⟩, h6⟩, h7⟩, h8⟩

/-- Every operation touches TensorCore references only. -/
theorem ops_sub : (ops : List (HloOp τ sig (Elt F))).Forall fun op => op.bufs ⊆ tcRefs τ sig :=
  forall_append8 ops1_sub ops2_sub ops3_sub ops4_sub ops5_sub ops6_sub ops7_sub ops8_sub

set_option maxRecDepth 8192 in
/-- Every operation of ops1 determines its results (none allocates). -/
theorem ops1_fresh : (ops1 : List (HloOp τ sig (Elt F))).Forall fun op => op.fresh = ∅ := by
  simp only [List.Forall]; repeat' constructor
set_option maxRecDepth 8192 in
/-- Every operation of ops2 determines its results (none allocates). -/
theorem ops2_fresh : (ops2 : List (HloOp τ sig (Elt F))).Forall fun op => op.fresh = ∅ := by
  simp only [List.Forall]; repeat' constructor
set_option maxRecDepth 8192 in
/-- Every operation of ops3 determines its results (none allocates). -/
theorem ops3_fresh : (ops3 : List (HloOp τ sig (Elt F))).Forall fun op => op.fresh = ∅ := by
  simp only [List.Forall]; repeat' constructor
set_option maxRecDepth 8192 in
/-- Every operation of ops4 determines its results (none allocates). -/
theorem ops4_fresh : (ops4 : List (HloOp τ sig (Elt F))).Forall fun op => op.fresh = ∅ := by
  simp only [List.Forall]; repeat' constructor
set_option maxRecDepth 8192 in
/-- Every operation of ops5 determines its results (none allocates). -/
theorem ops5_fresh : (ops5 : List (HloOp τ sig (Elt F))).Forall fun op => op.fresh = ∅ := by
  simp only [List.Forall]; repeat' constructor
set_option maxRecDepth 8192 in
/-- Every operation of ops6 determines its results (none allocates). -/
theorem ops6_fresh : (ops6 : List (HloOp τ sig (Elt F))).Forall fun op => op.fresh = ∅ := by
  simp only [List.Forall]; repeat' constructor
set_option maxRecDepth 8192 in
/-- Every operation of ops7 determines its results (none allocates). -/
theorem ops7_fresh : (ops7 : List (HloOp τ sig (Elt F))).Forall fun op => op.fresh = ∅ := by
  simp only [List.Forall]; repeat' constructor
set_option maxRecDepth 8192 in
/-- Every operation of ops8 determines its results (none allocates). -/
theorem ops8_fresh : (ops8 : List (HloOp τ sig (Elt F))).Forall fun op => op.fresh = ∅ := by
  simp only [List.Forall]; repeat' constructor

/-- Every operation determines its results. -/
theorem ops_fresh (op : HloOp τ sig (Elt F)) (h : op ∈ (ops : List (HloOp τ sig (Elt F)))) : op.fresh = ∅ :=
  List.forall_iff_forall_mem.mp
    (forall_append8 ops1_fresh ops2_fresh ops3_fresh ops4_fresh ops5_fresh ops6_fresh ops7_fresh ops8_fresh) op h

/-! ## The run -/

/-- On every device, for any float values, from any memory with zero counters: every weakly fair execution of @main
    terminates, and every final state has each TensorCore buffer at the fold of the operations' results over the
    device's launch contents. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after ops (launchContents m c) (Proc.devRef .tc b) :=
  run_seq scopedRefs_eq scopedSems_eq defs main (fun _ => ops) main_eq (fun _ => ops_sub) m ρ (fun _ => ops_fresh)

/-! ## The fold, piece by piece

The fold over a concatenation is the folds in turn; a piece changes only the buffers its operations write. -/

/-- The fold over all the operations is the eight pieces' folds in order. -/
theorem after_ops (V : Valuation τ sig (Elt F)) :
    after ops V = after ops8 (after ops7 (after ops6 (after ops5 (after ops4 (after ops3 (after ops2 (after ops1 V))))))) := by
  show after (ops1 ++ ops2 ++ ops3 ++ ops4 ++ ops5 ++ ops6 ++ ops7 ++ ops8) V = _
  simp only [after_append]

set_option maxRecDepth 8192 in
/-- Each operation of ops1 writes one buffer, listed in ops1_W. -/
theorem ops1_writes : (ops1 : List (HloOp τ sig (Elt F))).Forall fun op =>
    op.writes ⊆ (ops1_W.map (Proc.devRef (τ := τ) .tc)).toFinset := by
  simp only [List.Forall]
  repeat' apply And.intro
  all_goals
    simp only [nullary_writes, unary_writes, binary_writes, ternary_writes, quaternary_writes, reshape_writes,
      Finset.singleton_subset_iff, List.mem_toFinset]
    exact List.mem_map_of_mem (by decide)
/-- A buffer that no operation of ops1 writes keeps its contents through ops1. -/
theorem ops1_keep (V : Valuation τ sig (Elt F)) {r : Ref sig .tc} (h : r ∉ ops1_W) :
    after ops1 V (Proc.devRef .tc r) = V (Proc.devRef .tc r) :=
  after_of_writes_sub ops1 V ops1_writes h

set_option maxRecDepth 8192 in
/-- Each operation of ops2 writes one buffer, listed in ops2_W. -/
theorem ops2_writes : (ops2 : List (HloOp τ sig (Elt F))).Forall fun op =>
    op.writes ⊆ (ops2_W.map (Proc.devRef (τ := τ) .tc)).toFinset := by
  simp only [List.Forall]
  repeat' apply And.intro
  all_goals
    simp only [nullary_writes, unary_writes, binary_writes, ternary_writes, quaternary_writes, reshape_writes,
      Finset.singleton_subset_iff, List.mem_toFinset]
    exact List.mem_map_of_mem (by decide)
/-- A buffer that no operation of ops2 writes keeps its contents through ops2. -/
theorem ops2_keep (V : Valuation τ sig (Elt F)) {r : Ref sig .tc} (h : r ∉ ops2_W) :
    after ops2 V (Proc.devRef .tc r) = V (Proc.devRef .tc r) :=
  after_of_writes_sub ops2 V ops2_writes h

set_option maxRecDepth 8192 in
/-- Each operation of ops3 writes one buffer, listed in ops3_W. -/
theorem ops3_writes : (ops3 : List (HloOp τ sig (Elt F))).Forall fun op =>
    op.writes ⊆ (ops3_W.map (Proc.devRef (τ := τ) .tc)).toFinset := by
  simp only [List.Forall]
  repeat' apply And.intro
  all_goals
    simp only [nullary_writes, unary_writes, binary_writes, ternary_writes, quaternary_writes, reshape_writes,
      Finset.singleton_subset_iff, List.mem_toFinset]
    exact List.mem_map_of_mem (by decide)
/-- A buffer that no operation of ops3 writes keeps its contents through ops3. -/
theorem ops3_keep (V : Valuation τ sig (Elt F)) {r : Ref sig .tc} (h : r ∉ ops3_W) :
    after ops3 V (Proc.devRef .tc r) = V (Proc.devRef .tc r) :=
  after_of_writes_sub ops3 V ops3_writes h

set_option maxRecDepth 8192 in
/-- Each operation of ops4 writes one buffer, listed in ops4_W. -/
theorem ops4_writes : (ops4 : List (HloOp τ sig (Elt F))).Forall fun op =>
    op.writes ⊆ (ops4_W.map (Proc.devRef (τ := τ) .tc)).toFinset := by
  simp only [List.Forall]
  repeat' apply And.intro
  all_goals
    simp only [nullary_writes, unary_writes, binary_writes, ternary_writes, quaternary_writes, reshape_writes,
      Finset.singleton_subset_iff, List.mem_toFinset]
    exact List.mem_map_of_mem (by decide)
/-- A buffer that no operation of ops4 writes keeps its contents through ops4. -/
theorem ops4_keep (V : Valuation τ sig (Elt F)) {r : Ref sig .tc} (h : r ∉ ops4_W) :
    after ops4 V (Proc.devRef .tc r) = V (Proc.devRef .tc r) :=
  after_of_writes_sub ops4 V ops4_writes h

set_option maxRecDepth 8192 in
/-- Each operation of ops5 writes one buffer, listed in ops5_W. -/
theorem ops5_writes : (ops5 : List (HloOp τ sig (Elt F))).Forall fun op =>
    op.writes ⊆ (ops5_W.map (Proc.devRef (τ := τ) .tc)).toFinset := by
  simp only [List.Forall]
  repeat' apply And.intro
  all_goals
    simp only [nullary_writes, unary_writes, binary_writes, ternary_writes, quaternary_writes, reshape_writes,
      Finset.singleton_subset_iff, List.mem_toFinset]
    exact List.mem_map_of_mem (by decide)
/-- A buffer that no operation of ops5 writes keeps its contents through ops5. -/
theorem ops5_keep (V : Valuation τ sig (Elt F)) {r : Ref sig .tc} (h : r ∉ ops5_W) :
    after ops5 V (Proc.devRef .tc r) = V (Proc.devRef .tc r) :=
  after_of_writes_sub ops5 V ops5_writes h

set_option maxRecDepth 8192 in
/-- Each operation of ops6 writes one buffer, listed in ops6_W. -/
theorem ops6_writes : (ops6 : List (HloOp τ sig (Elt F))).Forall fun op =>
    op.writes ⊆ (ops6_W.map (Proc.devRef (τ := τ) .tc)).toFinset := by
  simp only [List.Forall]
  repeat' apply And.intro
  all_goals
    simp only [nullary_writes, unary_writes, binary_writes, ternary_writes, quaternary_writes, reshape_writes,
      Finset.singleton_subset_iff, List.mem_toFinset]
    exact List.mem_map_of_mem (by decide)
/-- A buffer that no operation of ops6 writes keeps its contents through ops6. -/
theorem ops6_keep (V : Valuation τ sig (Elt F)) {r : Ref sig .tc} (h : r ∉ ops6_W) :
    after ops6 V (Proc.devRef .tc r) = V (Proc.devRef .tc r) :=
  after_of_writes_sub ops6 V ops6_writes h

set_option maxRecDepth 8192 in
/-- Each operation of ops7 writes one buffer, listed in ops7_W. -/
theorem ops7_writes : (ops7 : List (HloOp τ sig (Elt F))).Forall fun op =>
    op.writes ⊆ (ops7_W.map (Proc.devRef (τ := τ) .tc)).toFinset := by
  simp only [List.Forall]
  repeat' apply And.intro
  all_goals
    simp only [nullary_writes, unary_writes, binary_writes, ternary_writes, quaternary_writes, reshape_writes,
      Finset.singleton_subset_iff, List.mem_toFinset]
    exact List.mem_map_of_mem (by decide)
/-- A buffer that no operation of ops7 writes keeps its contents through ops7. -/
theorem ops7_keep (V : Valuation τ sig (Elt F)) {r : Ref sig .tc} (h : r ∉ ops7_W) :
    after ops7 V (Proc.devRef .tc r) = V (Proc.devRef .tc r) :=
  after_of_writes_sub ops7 V ops7_writes h

set_option maxRecDepth 8192 in
/-- Each operation of ops8 writes one buffer, listed in ops8_W. -/
theorem ops8_writes : (ops8 : List (HloOp τ sig (Elt F))).Forall fun op =>
    op.writes ⊆ (ops8_W.map (Proc.devRef (τ := τ) .tc)).toFinset := by
  simp only [List.Forall]
  repeat' apply And.intro
  all_goals
    simp only [nullary_writes, unary_writes, binary_writes, ternary_writes, quaternary_writes, reshape_writes,
      Finset.singleton_subset_iff, List.mem_toFinset]
    exact List.mem_map_of_mem (by decide)
/-- A buffer that no operation of ops8 writes keeps its contents through ops8. -/
theorem ops8_keep (V : Valuation τ sig (Elt F)) {r : Ref sig .tc} (h : r ∉ ops8_W) :
    after ops8 V (Proc.devRef .tc r) = V (Proc.devRef .tc r) :=
  after_of_writes_sub ops8 V ops8_writes h

/-- The buffers the operations write, in order. -/
abbrev ops_W : List (Ref sig .tc) :=
  ops1_W ++ ops2_W ++ ops3_W ++ ops4_W ++ ops5_W ++ ops6_W ++ ops7_W ++ ops8_W

/-- A buffer that no operation writes keeps its contents through the whole line. -/
theorem ops_keep (V : Valuation τ sig (Elt F)) {r : Ref sig .tc} (h : r ∉ ops_W) :
    after ops V (Proc.devRef .tc r) = V (Proc.devRef .tc r) := by
  have h' : r ∉ ops1_W ++ ops2_W ++ ops3_W ++ ops4_W ++ ops5_W ++ ops6_W ++ ops7_W ++ ops8_W := h
  simp only [List.mem_append, not_or] at h'
  obtain ⟨⟨⟨⟨⟨⟨⟨h1, h2⟩, h3⟩, h4⟩, h5⟩, h6⟩, h7⟩, h8⟩ := h'
  rw [after_ops, ops8_keep _ h8, ops7_keep _ h7, ops6_keep _ h6, ops5_keep _ h5, ops4_keep _ h4, ops3_keep _ h3,
    ops2_keep _ h2, ops1_keep _ h1]

/-! ## No operation writes an argument -/

set_option maxRecDepth 8192 in
theorem kept_main_arg0 (V : Valuation τ sig (Elt F)) :
    after ops V (Proc.devRef .tc main_arg0) = V (Proc.devRef .tc main_arg0) := ops_keep V (by decide)
set_option maxRecDepth 8192 in
theorem kept_main_arg1 (V : Valuation τ sig (Elt F)) :
    after ops V (Proc.devRef .tc main_arg1) = V (Proc.devRef .tc main_arg1) := ops_keep V (by decide)
set_option maxRecDepth 8192 in
theorem kept_main_arg2 (V : Valuation τ sig (Elt F)) :
    after ops V (Proc.devRef .tc main_arg2) = V (Proc.devRef .tc main_arg2) := ops_keep V (by decide)
set_option maxRecDepth 8192 in
theorem kept_main_arg3 (V : Valuation τ sig (Elt F)) :
    after ops V (Proc.devRef .tc main_arg3) = V (Proc.devRef .tc main_arg3) := ops_keep V (by decide)
set_option maxRecDepth 8192 in
theorem kept_main_arg4 (V : Valuation τ sig (Elt F)) :
    after ops V (Proc.devRef .tc main_arg4) = V (Proc.devRef .tc main_arg4) := ops_keep V (by decide)
set_option maxRecDepth 8192 in
theorem kept_main_arg5 (V : Valuation τ sig (Elt F)) :
    after ops V (Proc.devRef .tc main_arg5) = V (Proc.devRef .tc main_arg5) := ops_keep V (by decide)
set_option maxRecDepth 8192 in
theorem kept_main_arg6 (V : Valuation τ sig (Elt F)) :
    after ops V (Proc.devRef .tc main_arg6) = V (Proc.devRef .tc main_arg6) := ops_keep V (by decide)
set_option maxRecDepth 8192 in
theorem kept_main_arg7 (V : Valuation τ sig (Elt F)) :
    after ops V (Proc.devRef .tc main_arg7) = V (Proc.devRef .tc main_arg7) := ops_keep V (by decide)
set_option maxRecDepth 8192 in
theorem kept_main_arg8 (V : Valuation τ sig (Elt F)) :
    after ops V (Proc.devRef .tc main_arg8) = V (Proc.devRef .tc main_arg8) := ops_keep V (by decide)
set_option maxRecDepth 8192 in
theorem kept_main_arg9 (V : Valuation τ sig (Elt F)) :
    after ops V (Proc.devRef .tc main_arg9) = V (Proc.devRef .tc main_arg9) := ops_keep V (by decide)
set_option maxRecDepth 8192 in
theorem kept_main_arg10 (V : Valuation τ sig (Elt F)) :
    after ops V (Proc.devRef .tc main_arg10) = V (Proc.devRef .tc main_arg10) := ops_keep V (by decide)
set_option maxRecDepth 8192 in
theorem kept_main_arg11 (V : Valuation τ sig (Elt F)) :
    after ops V (Proc.devRef .tc main_arg11) = V (Proc.devRef .tc main_arg11) := ops_keep V (by decide)
set_option maxRecDepth 8192 in
theorem kept_main_arg12 (V : Valuation τ sig (Elt F)) :
    after ops V (Proc.devRef .tc main_arg12) = V (Proc.devRef .tc main_arg12) := ops_keep V (by decide)
set_option maxRecDepth 8192 in
theorem kept_main_arg13 (V : Valuation τ sig (Elt F)) :
    after ops V (Proc.devRef .tc main_arg13) = V (Proc.devRef .tc main_arg13) := ops_keep V (by decide)
set_option maxRecDepth 8192 in
theorem kept_main_arg14 (V : Valuation τ sig (Elt F)) :
    after ops V (Proc.devRef .tc main_arg14) = V (Proc.devRef .tc main_arg14) := ops_keep V (by decide)
set_option maxRecDepth 8192 in
theorem kept_main_arg15 (V : Valuation τ sig (Elt F)) :
    after ops V (Proc.devRef .tc main_arg15) = V (Proc.devRef .tc main_arg15) := ops_keep V (by decide)
set_option maxRecDepth 8192 in
theorem kept_main_arg16 (V : Valuation τ sig (Elt F)) :
    after ops V (Proc.devRef .tc main_arg16) = V (Proc.devRef .tc main_arg16) := ops_keep V (by decide)
set_option maxRecDepth 8192 in
theorem kept_main_arg17 (V : Valuation τ sig (Elt F)) :
    after ops V (Proc.devRef .tc main_arg17) = V (Proc.devRef .tc main_arg17) := ops_keep V (by decide)
set_option maxRecDepth 8192 in
theorem kept_main_arg18 (V : Valuation τ sig (Elt F)) :
    after ops V (Proc.devRef .tc main_arg18) = V (Proc.devRef .tc main_arg18) := ops_keep V (by decide)

end Cert.ReferenceIdeal.RefRun

end
-- ==== Proof.RefValue.lean ====
/-
  The reference program's result as a function of its arguments: the fold of its operations, read piece by piece, is
  the composition of the stage functions (a graph-convolution layer after its dense product, twice; the sums per graph;
  the embedding rows; the two blocks of the dense head) over the arguments' launch contents, the two dense products of
  the layers standing between the stages as the host's matrix product.
-/
import proofs.«127112_j63660005261872_1_alg».proof.Proof.RefRun
import proofs.«127112_j63660005261872_1_alg».proof.Proof.RefSpec

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F] [Facts]

/-! ## Reading the pieces

Each piece's result buffer, after the piece has run from ANY contents W, is the stage function of RefSpec.lean at the
contents W holds in the buffers the piece reads from outside: the fold computes operation by operation to the tree of the
operations' functions, and the stage function is that tree with its shared subterms named. A buffer an earlier piece
wrote and a later one reads again enters as a hypothesis on W. -/

set_option maxRecDepth 8192 in
set_option maxHeartbeats 4000000 in
/-- The edge list's first row, as the first piece leaves it. -/
theorem stage1_v1 (W : Valuation τ sig (Elt F)) :
    after ops1 W (Proc.devRef .tc main_v1) = shapeCast _ (extractStridedSlice S1x800000 ![0, 0] (W (Proc.devRef .tc main_arg1)) slices_S2x800000_S1x800000_0_0) shapeCasts_S1x800000_S800000 := by
  after_results_simp
  rfl

set_option maxRecDepth 8192 in
set_option maxHeartbeats 4000000 in
/-- The edge list's second row, as the first piece leaves it. -/
theorem stage1_v3 (W : Valuation τ sig (Elt F)) :
    after ops1 W (Proc.devRef .tc main_v3) = shapeCast _ (extractStridedSlice S1x800000 ![1, 0] (W (Proc.devRef .tc main_arg1)) slices_S2x800000_S1x800000_1_0) shapeCasts_S1x800000_S800000 := by
  after_results_simp
  rfl

set_option maxRecDepth 8192 in
set_option maxHeartbeats 4000000 in
/-- The first layer: the first piece's result is `Spec.layer` of the first matrix product. -/
theorem stage1 (W : Valuation τ sig (Elt F)) :
    after ops1 W (Proc.devRef .tc main_v47)
      = Spec.layer (Host.dotGeneral dot_S50000x128_S128x128_S50000x128_1_0_0_1_n_n none (W (Proc.devRef .tc main_arg0)) (W (Proc.devRef .tc main_arg4))) (W (Proc.devRef .tc main_arg1)) (W (Proc.devRef .tc main_arg5)) := by
  after_results_simp
  rfl

/-- The node indices, as the second piece leaves them. -/
theorem stage2 (W : Valuation τ sig (Elt F)) :
    after ops2 W (Proc.devRef .tc main_v48) = iotaInDim S50000 32 0 := by
  after_results_simp

set_option maxRecDepth 8192 in
set_option maxHeartbeats 4000000 in
/-- The second layer: from contents whose two edge rows are the edge list's and whose node indices are the indices, the
    third piece's result is `Spec.layer2` of the second matrix product. (The two rows joined to the node indices sit in
    a list of arrays paired with their shapes, where a rewrite under congruence cannot reach: the second join's two
    reads through the first join's result are rewritten in place.) -/
theorem stage3 (W : Valuation τ sig (Elt F))
    (h1 : W (Proc.devRef .tc main_v1) = shapeCast _ (extractStridedSlice S1x800000 ![0, 0] (W (Proc.devRef .tc main_arg1)) slices_S2x800000_S1x800000_0_0) shapeCasts_S1x800000_S800000)
    (h3 : W (Proc.devRef .tc main_v3) = shapeCast _ (extractStridedSlice S1x800000 ![1, 0] (W (Proc.devRef .tc main_arg1)) slices_S2x800000_S1x800000_1_0) shapeCasts_S1x800000_S800000)
    (h48 : W (Proc.devRef .tc main_v48) = iotaInDim S50000 32 0) :
    after ops3 W (Proc.devRef .tc main_v91)
      = Spec.layer2 (Host.dotGeneral dot_S50000x128_S128x128_S50000x128_1_0_0_1_n_n none (W (Proc.devRef .tc main_v47)) (W (Proc.devRef .tc main_arg6))) (W (Proc.devRef .tc main_arg1)) (W (Proc.devRef .tc main_arg7)) := by
  after_results_simp
  repeat (rw [binary_result_ne]; rotate_left; decide)
  rw [h1, h3, h48]
  rfl

set_option maxRecDepth 8192 in
set_option maxHeartbeats 4000000 in
/-- The pooled rows and the embedding rows side by side: the fourth and fifth pieces' result. -/
theorem stage45 (W : Valuation τ sig (Elt F)) :
    after ops5 (after ops4 W) (Proc.devRef .tc main_v102)
      = concatenate S512x192 1 [⟨S512x128, Spec.pool (W (Proc.devRef .tc main_v91)) (W (Proc.devRef .tc main_arg2))⟩, ⟨S512x64, Spec.cellRows (W (Proc.devRef .tc main_arg8)) (W (Proc.devRef .tc main_arg3))⟩] concatenates_S512x128_S512x64_S512x192_d1 := by
  after_results_simp
  rfl

set_option maxRecDepth 8192 in
set_option maxHeartbeats 4000000 in
/-- The head's first block: from contents whose concatenation buffer holds two arrays side by side, the sixth
    piece's result is `Spec.head1` of the two. -/
theorem stage6 (W : Valuation τ sig (Elt F)) (x : (⟨S512x128, .f32⟩ : BufTy).Contents (Elt F)) (y : (⟨S512x64, .f32⟩ : BufTy).Contents (Elt F))
    (h : W (Proc.devRef .tc main_v102) = concatenate S512x192 1 [⟨S512x128, x⟩, ⟨S512x64, y⟩] concatenates_S512x128_S512x64_S512x192_d1) :
    after ops6 W (Proc.devRef .tc main_v125)
      = Spec.head1 x y (W (Proc.devRef .tc main_arg9)) (W (Proc.devRef .tc main_arg10)) (W (Proc.devRef .tc main_arg11)) (W (Proc.devRef .tc main_arg12)) := by
  after_results_simp
  rw [h]
  rfl

set_option maxRecDepth 8192 in
set_option maxHeartbeats 4000000 in
/-- The head's second block and output: the last two pieces' result. -/
theorem stage78 (W : Valuation τ sig (Elt F)) :
    after ops8 (after ops7 W) (Proc.devRef .tc main_v152)
      = Spec.head2 (W (Proc.devRef .tc main_v125)) (W (Proc.devRef .tc main_arg13)) (W (Proc.devRef .tc main_arg14)) (W (Proc.devRef .tc main_arg15)) (W (Proc.devRef .tc main_arg16)) (W (Proc.devRef .tc main_arg17)) (W (Proc.devRef .tc main_arg18)) := by
  after_results_simp
  rfl

/-! ## An argument through the first pieces

No operation writes an argument, so after any number of the pieces it holds what it held at launch. -/

/-- A buffer outside the written ones is outside each piece's. -/
theorem notMem_pieces {r : Ref sig .tc} (h : r ∉ ops_W) :
    r ∉ ops1_W ∧ r ∉ ops2_W ∧ r ∉ ops3_W ∧ r ∉ ops4_W ∧ r ∉ ops5_W ∧ r ∉ ops6_W ∧ r ∉ ops7_W ∧ r ∉ ops8_W := by
  have h' : r ∉ ops1_W ++ ops2_W ++ ops3_W ++ ops4_W ++ ops5_W ++ ops6_W ++ ops7_W ++ ops8_W := h
  simp only [List.mem_append, not_or] at h'
  obtain ⟨⟨⟨⟨⟨⟨⟨h1, h2⟩, h3⟩, h4⟩, h5⟩, h6⟩, h7⟩, h8⟩ := h'
  exact ⟨h1, h2, h3, h4, h5, h6, h7, h8⟩

theorem arg_keep1 (V : Valuation τ sig (Elt F)) {r : Ref sig .tc} (hr : r ∉ ops_W) :
    after ops1 V (Proc.devRef .tc r) = V (Proc.devRef .tc r) := by
  have h := notMem_pieces hr
  rw [ops1_keep _ h.1]

theorem arg_keep2 (V : Valuation τ sig (Elt F)) {r : Ref sig .tc} (hr : r ∉ ops_W) :
    after ops2 (after ops1 V) (Proc.devRef .tc r) = V (Proc.devRef .tc r) := by
  have h := notMem_pieces hr
  rw [ops2_keep _ h.2.1, ops1_keep _ h.1]

theorem arg_keep3 (V : Valuation τ sig (Elt F)) {r : Ref sig .tc} (hr : r ∉ ops_W) :
    after ops3 (after ops2 (after ops1 V)) (Proc.devRef .tc r) = V (Proc.devRef .tc r) := by
  have h := notMem_pieces hr
  rw [ops3_keep _ h.2.2.1, ops2_keep _ h.2.1, ops1_keep _ h.1]

theorem arg_keep4 (V : Valuation τ sig (Elt F)) {r : Ref sig .tc} (hr : r ∉ ops_W) :
    after ops4 (after ops3 (after ops2 (after ops1 V))) (Proc.devRef .tc r) = V (Proc.devRef .tc r) := by
  have h := notMem_pieces hr
  rw [ops4_keep _ h.2.2.2.1, ops3_keep _ h.2.2.1, ops2_keep _ h.2.1, ops1_keep _ h.1]

theorem arg_keep5 (V : Valuation τ sig (Elt F)) {r : Ref sig .tc} (hr : r ∉ ops_W) :
    after ops5 (after ops4 (after ops3 (after ops2 (after ops1 V)))) (Proc.devRef .tc r) = V (Proc.devRef .tc r) := by
  have h := notMem_pieces hr
  rw [ops5_keep _ h.2.2.2.2.1, ops4_keep _ h.2.2.2.1, ops3_keep _ h.2.2.1, ops2_keep _ h.2.1, ops1_keep _ h.1]

theorem arg_keep6 (V : Valuation τ sig (Elt F)) {r : Ref sig .tc} (hr : r ∉ ops_W) :
    after ops6 (after ops5 (after ops4 (after ops3 (after ops2 (after ops1 V))))) (Proc.devRef .tc r) = V (Proc.devRef .tc r) := by
  have h := notMem_pieces hr
  rw [ops6_keep _ h.2.2.2.2.2.1, ops5_keep _ h.2.2.2.2.1, ops4_keep _ h.2.2.2.1, ops3_keep _ h.2.2.1, ops2_keep _ h.2.1, ops1_keep _ h.1]

/-! ## The result, stage by stage -/

/-- After the first three pieces the second layer's buffer holds the two layers composed. -/
theorem val_v91 (V : Valuation τ sig (Elt F)) :
    after ops3 (after ops2 (after ops1 V)) (Proc.devRef .tc main_v91) = Spec.layer2 (Host.dotGeneral dot_S50000x128_S128x128_S50000x128_1_0_0_1_n_n none (Spec.layer (Host.dotGeneral dot_S50000x128_S128x128_S50000x128_1_0_0_1_n_n none (V (Proc.devRef .tc main_arg0)) (V (Proc.devRef .tc main_arg4))) (V (Proc.devRef .tc main_arg1)) (V (Proc.devRef .tc main_arg5))) (V (Proc.devRef .tc main_arg6))) (V (Proc.devRef .tc main_arg1)) (V (Proc.devRef .tc main_arg7)) := by
  rw [stage3 _
      (by rw [ops2_keep _ (by decide), stage1_v1, arg_keep2 V (by decide)])
      (by rw [ops2_keep _ (by decide), stage1_v3, arg_keep2 V (by decide)])
      (stage2 _),
    ops2_keep _ (by decide), stage1, arg_keep2 V (r := main_arg6) (by decide), arg_keep2 V (r := main_arg1) (by decide),
    arg_keep2 V (r := main_arg7) (by decide)]

/-- After the first six pieces the head's first block's buffer holds its stage function of the pooled second layer and
    the embedding rows. -/
theorem val_v125 (V : Valuation τ sig (Elt F)) :
    after ops6 (after ops5 (after ops4 (after ops3 (after ops2 (after ops1 V))))) (Proc.devRef .tc main_v125) = Spec.head1 (Spec.pool (Spec.layer2 (Host.dotGeneral dot_S50000x128_S128x128_S50000x128_1_0_0_1_n_n none (Spec.layer (Host.dotGeneral dot_S50000x128_S128x128_S50000x128_1_0_0_1_n_n none (V (Proc.devRef .tc main_arg0)) (V (Proc.devRef .tc main_arg4))) (V (Proc.devRef .tc main_arg1)) (V (Proc.devRef .tc main_arg5))) (V (Proc.devRef .tc main_arg6))) (V (Proc.devRef .tc main_arg1)) (V (Proc.devRef .tc main_arg7))) (V (Proc.devRef .tc main_arg2))) (Spec.cellRows (V (Proc.devRef .tc main_arg8)) (V (Proc.devRef .tc main_arg3))) (V (Proc.devRef .tc main_arg9)) (V (Proc.devRef .tc main_arg10)) (V (Proc.devRef .tc main_arg11)) (V (Proc.devRef .tc main_arg12)) := by
  rw [stage6 _ _ _ (stage45 (after ops3 (after ops2 (after ops1 V)))), val_v91,
    arg_keep3 V (r := main_arg2) (by decide), arg_keep3 V (r := main_arg8) (by decide), arg_keep3 V (r := main_arg3) (by decide),
    arg_keep5 V (r := main_arg9) (by decide), arg_keep5 V (r := main_arg10) (by decide),
    arg_keep5 V (r := main_arg11) (by decide), arg_keep5 V (r := main_arg12) (by decide)]

/-- The reference's result is the stage functions composed over the arguments' contents. -/
theorem ref_value (V : Valuation τ sig (Elt F)) :
    after ops V (Proc.devRef .tc main_v152)
      = Spec.head2 (Spec.head1 (Spec.pool (Spec.layer2 (Host.dotGeneral dot_S50000x128_S128x128_S50000x128_1_0_0_1_n_n none (Spec.layer (Host.dotGeneral dot_S50000x128_S128x128_S50000x128_1_0_0_1_n_n none (V (Proc.devRef .tc main_arg0)) (V (Proc.devRef .tc main_arg4))) (V (Proc.devRef .tc main_arg1)) (V (Proc.devRef .tc main_arg5))) (V (Proc.devRef .tc main_arg6))) (V (Proc.devRef .tc main_arg1)) (V (Proc.devRef .tc main_arg7))) (V (Proc.devRef .tc main_arg2))) (Spec.cellRows (V (Proc.devRef .tc main_arg8)) (V (Proc.devRef .tc main_arg3))) (V (Proc.devRef .tc main_arg9)) (V (Proc.devRef .tc main_arg10)) (V (Proc.devRef .tc main_arg11)) (V (Proc.devRef .tc main_arg12))) (V (Proc.devRef .tc main_arg13)) (V (Proc.devRef .tc main_arg14)) (V (Proc.devRef .tc main_arg15)) (V (Proc.devRef .tc main_arg16)) (V (Proc.devRef .tc main_arg17)) (V (Proc.devRef .tc main_arg18)) := by
  rw [after_ops, stage78, val_v125,
    arg_keep6 V (r := main_arg13) (by decide), arg_keep6 V (r := main_arg14) (by decide),
    arg_keep6 V (r := main_arg15) (by decide), arg_keep6 V (r := main_arg16) (by decide),
    arg_keep6 V (r := main_arg17) (by decide), arg_keep6 V (r := main_arg18) (by decide)]

end Cert.ReferenceIdeal.RefRun

end
-- ==== Proof.lean ====
/-
  The two programs compute one function of their nineteen argument arrays. A two-layer graph convolution: per layer the
  dense product of the node rows with a weight matrix, then for every node the sum, over its incoming edges and its
  self loop, of the neighbours' product rows scaled by the inverse square roots of the two end nodes' degrees, plus a
  bias, rectified. Then the node rows summed per graph; beside them the embedding rows the graphs' cell lines select;
  and a dense head: the two arrays side by side against the combining weights, plus bias, normalized along each row,
  scaled, shifted and rectified; an affine map, rectified, normalized along each row, scaled and shifted; the output
  affine map.

  The reference is that text as host operations. The kernel program computes the two layers' dense products in blocks of
  rows and the head in one block, where the head's first product is taken in two ranges of the contracted columns (the
  pooled rows against the weights' upper rows, the embedding rows against the lower rows) and added. At the extended
  reals a sum over all rows taken block by block, and a sum over 192 columns split at column 128, are the same sums; every
  other step is the same function in two spellings. So both results are the reference's stage functions (RefSpec.lean)
  composed over the argument arrays: the kernel's by KerValue.lean, the reference's by RefValue.lean.

  The frames: the two kernel programs' are their runs with the arguments unchanged; the reference's is its run
  (RefRun.lean: @main is a straight line of host operations, none of which writes an argument). No operation of the
  program is rewritten by the idealization, so there is nothing to preserve.
-/
import proofs.«127112_j63660005261872_1_alg».proof.Defs
import proofs.«127112_j63660005261872_1_alg».proof.Proof.Gen.Kernel
import proofs.«127112_j63660005261872_1_alg».proof.Proof.Gen.Kernel.Frame
import proofs.«127112_j63660005261872_1_alg».proof.Proof.Gen.KernelIdeal
import proofs.«127112_j63660005261872_1_alg».proof.Proof.Gen.KernelIdeal.Frame
import proofs.«127112_j63660005261872_1_alg».proof.Proof.Gen.ReferenceIdeal
import proofs.«127112_j63660005261872_1_alg».proof.Proof.Gen.Pre_finite_inputs
import proofs.«127112_j63660005261872_1_alg».proof.Proof.KRun
import proofs.«127112_j63660005261872_1_alg».proof.Proof.KerValue
import proofs.«127112_j63660005261872_1_alg».proof.Proof.RefRun
import proofs.«127112_j63660005261872_1_alg».proof.Proof.RefValue

noncomputable section

namespace Cert.Proof

open Idealize.ShloMosaic Idealize.SL.Sem

/-- The word-level kernel program runs and leaves its arguments as launched. -/
theorem frame_k : Cert.frame_Kernel := fun m ρ _ => Cert.Kernel.Gen.frame m ρ

/-- The idealized kernel program runs and leaves its arguments as launched. -/
theorem frame_ki : Cert.frame_KernelIdeal := fun m ρ _ => Cert.KernelIdeal.Gen.frame m ρ

/-- The reference runs, and each argument ends at the fold of the operations over the launch contents, which leaves
    it where it was: no operation writes it. -/
theorem frame_ri : Cert.frame_ReferenceIdeal := fun m ρ _ =>
  (θ_run Cert.ReferenceIdeal.defs _ _).mono (fun _ h c =>
    ⟨(h c Cert.ReferenceIdeal.main_arg0).trans (Cert.ReferenceIdeal.RefRun.kept_main_arg0 _),
     (h c Cert.ReferenceIdeal.main_arg1).trans (Cert.ReferenceIdeal.RefRun.kept_main_arg1 _),
     (h c Cert.ReferenceIdeal.main_arg2).trans (Cert.ReferenceIdeal.RefRun.kept_main_arg2 _),
     (h c Cert.ReferenceIdeal.main_arg3).trans (Cert.ReferenceIdeal.RefRun.kept_main_arg3 _),
     (h c Cert.ReferenceIdeal.main_arg4).trans (Cert.ReferenceIdeal.RefRun.kept_main_arg4 _),
     (h c Cert.ReferenceIdeal.main_arg5).trans (Cert.ReferenceIdeal.RefRun.kept_main_arg5 _),
     (h c Cert.ReferenceIdeal.main_arg6).trans (Cert.ReferenceIdeal.RefRun.kept_main_arg6 _),
     (h c Cert.ReferenceIdeal.main_arg7).trans (Cert.ReferenceIdeal.RefRun.kept_main_arg7 _),
     (h c Cert.ReferenceIdeal.main_arg8).trans (Cert.ReferenceIdeal.RefRun.kept_main_arg8 _),
     (h c Cert.ReferenceIdeal.main_arg9).trans (Cert.ReferenceIdeal.RefRun.kept_main_arg9 _),
     (h c Cert.ReferenceIdeal.main_arg10).trans (Cert.ReferenceIdeal.RefRun.kept_main_arg10 _),
     (h c Cert.ReferenceIdeal.main_arg11).trans (Cert.ReferenceIdeal.RefRun.kept_main_arg11 _),
     (h c Cert.ReferenceIdeal.main_arg12).trans (Cert.ReferenceIdeal.RefRun.kept_main_arg12 _),
     (h c Cert.ReferenceIdeal.main_arg13).trans (Cert.ReferenceIdeal.RefRun.kept_main_arg13 _),
     (h c Cert.ReferenceIdeal.main_arg14).trans (Cert.ReferenceIdeal.RefRun.kept_main_arg14 _),
     (h c Cert.ReferenceIdeal.main_arg15).trans (Cert.ReferenceIdeal.RefRun.kept_main_arg15 _),
     (h c Cert.ReferenceIdeal.main_arg16).trans (Cert.ReferenceIdeal.RefRun.kept_main_arg16 _),
     (h c Cert.ReferenceIdeal.main_arg17).trans (Cert.ReferenceIdeal.RefRun.kept_main_arg17 _),
     (h c Cert.ReferenceIdeal.main_arg18).trans (Cert.ReferenceIdeal.RefRun.kept_main_arg18 _)⟩)
    (Cert.ReferenceIdeal.RefRun.run (F := Ideal) m ρ)

/-- The idealization rewrote no operation. -/
theorem preserves : Cert.preserves_Kernel_KernelIdeal := trivial

/-- The common result on device `c`: the reference's stage functions composed over the kernel memory's argument arrays. -/
def result (m : (ℓ : Loc Cert.KernelIdeal.nD Cert.KernelIdeal.τ Cert.KernelIdeal.sig) → Buf (Elt Ideal) ℓ) (c : Dev Cert.KernelIdeal.nD) :
    Buf (Elt Ideal) ((c.tc : Thread Cert.KernelIdeal.nD Cert.KernelIdeal.τ).loc Cert.KernelIdeal.main_v109) :=
  Cert.ReferenceIdeal.Spec.head2 (Cert.ReferenceIdeal.Spec.head1 (Cert.ReferenceIdeal.Spec.pool (Cert.ReferenceIdeal.Spec.layer2 (Host.dotGeneral (F := Ideal) (φ₁ := .f32) (φ₂ := .f32) Cert.ReferenceIdeal.dot_S50000x128_S128x128_S50000x128_1_0_0_1_n_n none (Cert.ReferenceIdeal.Spec.layer (Host.dotGeneral (F := Ideal) (φ₁ := .f32) (φ₂ := .f32) Cert.ReferenceIdeal.dot_S50000x128_S128x128_S50000x128_1_0_0_1_n_n none (m ((c.tc : Thread Cert.KernelIdeal.nD Cert.KernelIdeal.τ).loc Cert.KernelIdeal.main_arg0)) (m ((c.tc : Thread Cert.KernelIdeal.nD Cert.KernelIdeal.τ).loc Cert.KernelIdeal.main_arg4))) (m ((c.tc : Thread Cert.KernelIdeal.nD Cert.KernelIdeal.τ).loc Cert.KernelIdeal.main_arg1)) (m ((c.tc : Thread Cert.KernelIdeal.nD Cert.KernelIdeal.τ).loc Cert.KernelIdeal.main_arg5))) (m ((c.tc : Thread Cert.KernelIdeal.nD Cert.KernelIdeal.τ).loc Cert.KernelIdeal.main_arg6))) (m ((c.tc : Thread Cert.KernelIdeal.nD Cert.KernelIdeal.τ).loc Cert.KernelIdeal.main_arg1)) (m ((c.tc : Thread Cert.KernelIdeal.nD Cert.KernelIdeal.τ).loc Cert.KernelIdeal.main_arg7))) (m ((c.tc : Thread Cert.KernelIdeal.nD Cert.KernelIdeal.τ).loc Cert.KernelIdeal.main_arg2))) (Cert.ReferenceIdeal.Spec.cellRows (m ((c.tc : Thread Cert.KernelIdeal.nD Cert.KernelIdeal.τ).loc Cert.KernelIdeal.main_arg8)) (m ((c.tc : Thread Cert.KernelIdeal.nD Cert.KernelIdeal.τ).loc Cert.KernelIdeal.main_arg3))) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))

/-- At the extended reals, from memories that agree on the arguments: the kernel program's result buffer ends at the
    stage functions composed over its arguments (its run, its value), the reference's at the same composition over its
    own arguments (its run, its value), which are the kernel's; and both leave their arguments as launched. -/
theorem algebraic : Cert.algebraic_KernelIdeal_ReferenceIdeal := by
  intro m ρ m' ρ' _ hagree
  refine ⟨result m, ?_, ?_⟩
  · exact (θ_run Cert.KernelIdeal.defs _ _).mono
      (fun _ h c => ⟨(h c).1.trans (Cert.KernelIdeal.KerValue.ker_value m ρ c), (h c).2⟩)
      (Cert.KernelIdeal.KRun.run_value (F := Ideal) m ρ)
  · refine (θ_run Cert.ReferenceIdeal.defs _ _).mono (fun _ h c => ⟨?_,
     (h c Cert.ReferenceIdeal.main_arg0).trans (Cert.ReferenceIdeal.RefRun.kept_main_arg0 _),
     (h c Cert.ReferenceIdeal.main_arg1).trans (Cert.ReferenceIdeal.RefRun.kept_main_arg1 _),
     (h c Cert.ReferenceIdeal.main_arg2).trans (Cert.ReferenceIdeal.RefRun.kept_main_arg2 _),
     (h c Cert.ReferenceIdeal.main_arg3).trans (Cert.ReferenceIdeal.RefRun.kept_main_arg3 _),
     (h c Cert.ReferenceIdeal.main_arg4).trans (Cert.ReferenceIdeal.RefRun.kept_main_arg4 _),
     (h c Cert.ReferenceIdeal.main_arg5).trans (Cert.ReferenceIdeal.RefRun.kept_main_arg5 _),
     (h c Cert.ReferenceIdeal.main_arg6).trans (Cert.ReferenceIdeal.RefRun.kept_main_arg6 _),
     (h c Cert.ReferenceIdeal.main_arg7).trans (Cert.ReferenceIdeal.RefRun.kept_main_arg7 _),
     (h c Cert.ReferenceIdeal.main_arg8).trans (Cert.ReferenceIdeal.RefRun.kept_main_arg8 _),
     (h c Cert.ReferenceIdeal.main_arg9).trans (Cert.ReferenceIdeal.RefRun.kept_main_arg9 _),
     (h c Cert.ReferenceIdeal.main_arg10).trans (Cert.ReferenceIdeal.RefRun.kept_main_arg10 _),
     (h c Cert.ReferenceIdeal.main_arg11).trans (Cert.ReferenceIdeal.RefRun.kept_main_arg11 _),
     (h c Cert.ReferenceIdeal.main_arg12).trans (Cert.ReferenceIdeal.RefRun.kept_main_arg12 _),
     (h c Cert.ReferenceIdeal.main_arg13).trans (Cert.ReferenceIdeal.RefRun.kept_main_arg13 _),
     (h c Cert.ReferenceIdeal.main_arg14).trans (Cert.ReferenceIdeal.RefRun.kept_main_arg14 _),
     (h c Cert.ReferenceIdeal.main_arg15).trans (Cert.ReferenceIdeal.RefRun.kept_main_arg15 _),
     (h c Cert.ReferenceIdeal.main_arg16).trans (Cert.ReferenceIdeal.RefRun.kept_main_arg16 _),
     (h c Cert.ReferenceIdeal.main_arg17).trans (Cert.ReferenceIdeal.RefRun.kept_main_arg17 _),
     (h c Cert.ReferenceIdeal.main_arg18).trans (Cert.ReferenceIdeal.RefRun.kept_main_arg18 _)⟩)
      (Cert.ReferenceIdeal.RefRun.run (F := Ideal) m' ρ')
    have e : Cert.ReferenceIdeal.Spec.head2 (Cert.ReferenceIdeal.Spec.head1 (Cert.ReferenceIdeal.Spec.pool (Cert.ReferenceIdeal.Spec.layer2 (Host.dotGeneral (F := Ideal) (φ₁ := .f32) (φ₂ := .f32) Cert.ReferenceIdeal.dot_S50000x128_S128x128_S50000x128_1_0_0_1_n_n none (Cert.ReferenceIdeal.Spec.layer (Host.dotGeneral (F := Ideal) (φ₁ := .f32) (φ₂ := .f32) Cert.ReferenceIdeal.dot_S50000x128_S128x128_S50000x128_1_0_0_1_n_n none (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg4))) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg5))) (m' ((c.tc : Thread Cert.ReferenceIdeal.nD Cert.ReferenceIdeal.τ).loc Cert.ReferenceIdeal.main_arg6))) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg7))) (m' ((c.tc : Thread Cert.ReferenceIdeal.nD Cert.ReferenceIdeal.τ).loc Cert.ReferenceIdeal.main_arg2))) (Cert.ReferenceIdeal.Spec.cellRows (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg3))) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12))) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18))
        = result m c := by
      obtain ⟨h0, h1, h2, h3, h4, h5, h6, h7, h8, h9, h10, h11, h12, h13, h14, h15, h16, h17, h18⟩ := hagree c
      rw [h0, h1, h2, h3, h4, h5, h6, h7, h8, h9, h10, h11, h12, h13, h14, h15, h16, h17, h18]
      rfl
    exact (h c Cert.ReferenceIdeal.main_v152).trans ((Cert.ReferenceIdeal.RefRun.ref_value _).trans e)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
